-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S2x500000 : Shape := ⟨2, ![2, 500000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S256x256 : Shape := ⟨2, ![256, 256]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg23 : FVec F S128 .f32) (main_arg24 : FVec F S128 .f32) (main_arg25 : FVec F S1x128 .f32) (main_arg26 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S1x128 .f32 := Host.absf main_arg25
  let main_cst_44 : FVec F S_ .f32 := constant S_ .f32 0x7F800000#32
  let main_v115 : FVec F S1x128 .f32 := broadcastInDim S1x128 ![] bcast_S_S1x128 main_cst_44
  let main_v116 : IVec S1x128 1 := cmpf .olt main_v114 main_v115
  let main_c_45 : IVec S_ 1 := constantI S_ 1 1#1
  let main_v117 : IVec S_ 1 := (fun x v => Host.reduce IntOp.andi x v reducesTo_S1x128_S_d0_1 h_S_) main_v116 main_c_45
  let main_v118 : IVec S_ 1 := andi main_v113 main_v117
  let main_v119 : FVec F S1 .f32 := Host.absf main_arg26
  fn_part7 (F := F) main_v118 main_v119

def fn_part5 {F : FTy → Type} [FloatOps F] (main_arg20 : FVec F S128 .f32) (main_arg21 : FVec F S128 .f32) (main_arg22 : FVec F S128 .f32) (main_arg23 : FVec F S128 .f32) (main_arg24 : FVec F S128 .f32) (main_arg25 : FVec F S1x128 .f32) (main_arg26 : FVec F S1 .f32) (main_v83 : IVec S_ 1) (main_v84 : FVec F S128x256 .f32) (main_cst_32 : FVec F S_ .f32) : IVec S_ 1 :=
  let main_v85 : FVec F S128x256 .f32 := broadcastInDim S128x256 ![] bcast_S_S128x256 main_cst_32
  let main_v86 : IVec S128x256 1 := cmpf .olt main_v84 main_v85
  let main_c_33 : IVec S_ 1 := constantI S_ 1 1#1
  let main_v87 : IVec S_ 1 := (fun x v => Host.reduce IntOp.andi x v reducesTo_S128x256_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S256 .f32) (main_arg17 : FVec F S256 .f32) (main_arg18 : FVec F S256 .f32) (main_arg19 : FVec F S128x256 .f32) (main_arg20 : FVec F S128 .f32) (main_arg21 : FVec F S128 .f32) (main_arg22 : FVec F S128 .f32) (main_arg23 : FVec F S128 .f32) (main_arg24 : FVec F S128 .f32) (main_arg25 : FVec F S1x128 .f32) (main_arg26 : FVec F S1 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S128x256 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S256x256 .f32) (main_arg14 : FVec F S256 .f32) (main_arg15 : FVec F S256 .f32) (main_arg16 : FVec F S256 .f32) (main_arg17 : FVec F S256 .f32) (main_arg18 : FVec F S256 .f32) (main_arg19 : FVec F S128x256 .f32) (main_arg20 : FVec F S128 .f32) (main_arg21 : FVec F S128 .f32) (main_arg22 : FVec F S128 .f32) (main_arg23 : FVec F S128 .f32) (main_arg24 : FVec F S128 .f32) (main_arg25 : FVec F S1x128 .f32) (main_arg26 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S256 .f32) (main_arg10 : FVec F S128x256 .f32) (main_arg11 : FVec F S128x256 .f32) (main_arg12 : FVec F S128 .f32) (main_arg13 : FVec F S256x256 .f32) (main_arg14 : FVec F S256 .f32) (main_arg15 : FVec F S256 .f32) (main_arg16 : FVec F S256 .f32) (main_arg17 : FVec F S256 .f32) (main_arg18 : FVec F S256 .f32) (main_arg19 : FVec F S128x256 .f32) (main_arg20 : FVec F S128 .f32) (main_arg21 : FVec F S128 .f32) (main_arg22 : FVec F S128 .f32) (main_arg23 : FVec F S128 .f32) (main_arg24 : FVec F S128 .f32) (main_arg25 : FVec F S1x128 .f32) (main_arg26 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128x256 .f32 := Host.absf main_arg11
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S256 .f32) (main_arg7 : FVec F S256 .f32) (main_arg8 : FVec F S256 .f32) (main_arg9 : FVec F S256 .f32) (main_arg10 : FVec F S128x256 .f32) (main_arg11 : FVec F S128x256 .f32) (main_arg12 : FVec F S128 .f32) (main_arg13 : FVec F S256x256 .f32) (main_arg14 : FVec F S256 .f32) (main_arg15 : FVec F S256 .f32) (main_arg16 : FVec F S256 .f32) (main_arg17 : FVec F S256 .f32) (main_arg18 : FVec F S256 .f32) (main_arg19 : FVec F S128x256 .f32) (main_arg20 : FVec F S128 .f32) (main_arg21 : FVec F S128 .f32) (main_arg22 : FVec F S128 .f32) (main_arg23 : FVec F S128 .f32) (main_arg24 : FVec F S128 .f32) (main_arg25 : FVec F S1x128 .f32) (main_arg26 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S50000x128 .f32) (main_arg1 : IVec S2x640000 32) (main_arg2 : IVec S2x500000 32) (main_arg3 : FVec F S256x128 .f32) (main_arg4 : FVec F S256x128 .f32) (main_arg5 : FVec F S256 .f32) (main_arg6 : FVec F S256 .f32) (main_arg7 : FVec F S256 .f32) (main_arg8 : FVec F S256 .f32) (main_arg9 : FVec F S256 .f32) (main_arg10 : FVec F S128x256 .f32) (main_arg11 : FVec F S128x256 .f32) (main_arg12 : FVec F S128 .f32) (main_arg13 : FVec F S256x256 .f32) (main_arg14 : FVec F S256 .f32) (main_arg15 : FVec F S256 .f32) (main_arg16 : FVec F S256 .f32) (main_arg17 : FVec F S256 .f32) (main_arg18 : FVec F S256 .f32) (main_arg19 : FVec F S128x256 .f32) (main_arg20 : FVec F S128 .f32) (main_arg21 : FVec F S128 .f32) (main_arg22 : FVec F S128 .f32) (main_arg23 : FVec F S128 .f32) (main_arg24 : FVec F S128 .f32) (main_arg25 : FVec F S1x128 .f32) (main_arg26 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S50000x128 : Shape := ⟨2, ![50000, 128]⟩
abbrev S2x640000 : Shape := ⟨2, ![2, 640000]⟩
abbrev S2x500000 : Shape := ⟨2, ![2, 500000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S256x256 : Shape := ⟨2, ![256, 256]⟩
abbrev S1x128 : Shape := ⟨2, ![1, 128]⟩
abbrev S1 : Shape := ⟨1, ![1]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x128 : Shape := ⟨2, ![640000, 128]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S1x500000 : Shape := ⟨2, ![1, 500000]⟩
abbrev S500000 : Shape := ⟨1, ![500000]⟩
abbrev S503808 : Shape := ⟨1, ![503808]⟩
abbrev S503808x1 : Shape := ⟨2, ![503808, 1]⟩
abbrev S503808x128 : Shape := ⟨2, ![503808, 128]⟩
abbrev S503808x256 : Shape := ⟨2, ![503808, 256]⟩
abbrev S4096x256 : Shape := ⟨2, ![4096, 256]⟩
abbrev S4096 : Shape := ⟨1, ![4096]⟩
abbrev S4096x128 : Shape := ⟨2, ![4096, 128]⟩

abbrev nBuf : Space → Nat
  | .hbm => 105
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S2x500000, .i32⟩
  | .hbm, ⟨3, _⟩ => ⟨S256x128, .f32⟩
  | .hbm, ⟨4, _⟩ => ⟨S256x128, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S128x256, .f32⟩
  | .hbm, ⟨11, _⟩ => ⟨S128x256, .f32⟩
  | .hbm, ⟨12, _⟩ => ⟨S128, .f32⟩
  | .hbm, ⟨13, _⟩ => ⟨S256x256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S128x256, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S1, .f32⟩
  | .hbm, ⟨27, _⟩ => ⟨S1x640000, .i32⟩
  | .hbm, ⟨28, _⟩ => ⟨S640000, .i32⟩
  | .hbm, ⟨29, _⟩ => ⟨S1x640000, .i32⟩
  | .hbm, ⟨30, _⟩ => ⟨S640000, .i32⟩
  | .hbm, ⟨31, _⟩ => ⟨S_, .f32⟩
  | .hbm, ⟨32, _⟩ => ⟨S640000, .f32⟩
  | .hbm, ⟨33, _⟩ => ⟨S_, .f32⟩
  | .hbm, ⟨34, _⟩ => ⟨S50000, .f32⟩
  | .hbm, ⟨35, _⟩ => ⟨S640000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .f32⟩
  | .hbm, ⟨51, _⟩ => ⟨S50000x128, .f32⟩
  | .hbm, ⟨52, _⟩ => ⟨S640000x1, .i32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x256, .bf16⟩
  | .hbm, ⟨57, _⟩ => ⟨S50000x128, .f32⟩
  | .hbm, ⟨58, _⟩ => ⟨S_, .i32⟩
  | .hbm, ⟨59, _⟩ => ⟨S640000, .i32⟩
  | .hbm, ⟨60, _⟩ => ⟨S640000, .i1⟩
  | .hbm, ⟨61, _⟩ => ⟨S_, .i32⟩
  | .hbm, ⟨62, _⟩ => ⟨S640000, .i32⟩
  | .hbm, ⟨63, _⟩ => ⟨S640000, .i32⟩
  | .hbm, ⟨64, _⟩ => ⟨S640000, .i32⟩
  | .hbm, ⟨65, _⟩ => ⟨S640000x1, .i32⟩
  | .hbm, ⟨66, _⟩ => ⟨S640000x128, .f32⟩
  | .hbm, ⟨67, _⟩ => ⟨S_, .f32⟩
  | .hbm, ⟨68, _⟩ => ⟨S50000x128, .f32⟩
  | .hbm, ⟨69, _⟩ => ⟨S640000x1, .i32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .bf16⟩
  | .hbm, ⟨74, _⟩ => ⟨S1x500000, .i32⟩
  | .hbm, ⟨75, _⟩ => ⟨S500000, .i32⟩
  | .hbm, ⟨76, _⟩ => ⟨S1x500000, .i32⟩
  | .hbm, ⟨77, _⟩ => ⟨S500000, .i32⟩
  | .hbm, ⟨78, _⟩ => ⟨S_, .i32⟩
  | .hbm, ⟨79, _⟩ => ⟨S_, .i32⟩
  | .hbm, ⟨80, _⟩ => ⟨S503808, .i32⟩
  | .hbm, ⟨81, _⟩ => ⟨S_, .i32⟩
  | .hbm, ⟨82, _⟩ => ⟨S_, .i32⟩
  | .hbm, ⟨83, _⟩ => ⟨S503808, .i32⟩
  | .hbm, ⟨84, _⟩ => ⟨S_, .i32⟩
  | .hbm, ⟨85, _⟩ => ⟨S503808, .i32⟩
  | .hbm, ⟨86, _⟩ => ⟨S503808, .i1⟩
  | .hbm, ⟨87, _⟩ => ⟨S_, .i32⟩
  | .hbm, ⟨88, _⟩ => ⟨S503808, .i32⟩
  | .hbm, ⟨89, _⟩ => ⟨S503808, .i32⟩
  | .hbm, ⟨90, _⟩ => ⟨S503808, .i32⟩
  | .hbm, ⟨91, _⟩ => ⟨S503808x1, .i32⟩
  | .hbm, ⟨92, _⟩ => ⟨S503808x128, .bf16⟩
  | .hbm, ⟨93, _⟩ => ⟨S_, .i32⟩
  | .hbm, ⟨94, _⟩ => ⟨S503808, .i32⟩
  | .hbm, ⟨95, _⟩ => ⟨S503808, .i1⟩
  | .hbm, ⟨96, _⟩ => ⟨S_, .i32⟩
  | .hbm, ⟨97, _⟩ => ⟨S503808, .i32⟩
  | .hbm, ⟨98, _⟩ => ⟨S503808, .i32⟩
  | .hbm, ⟨99, _⟩ => ⟨S503808, .i32⟩
  | .hbm, ⟨100, _⟩ => ⟨S503808x1, .i32⟩
  | .hbm, ⟨101, _⟩ => ⟨S503808x128, .bf16⟩
  | .hbm, ⟨102, _⟩ => ⟨S503808x256, .bf16⟩
  | .hbm, ⟨103, _⟩ => ⟨S503808, .f32⟩
  | .hbm, ⟨104, _⟩ => ⟨S500000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S256x128, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S128x256, .f32⟩
  | .local _ .vmem, ⟨12, _⟩ => ⟨S2000x256, .bf16⟩
  | .local _ .vmem, ⟨13, _⟩ => ⟨S2000x256, .bf16⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x256, .bf16⟩
  | .local _ .vmem, ⟨19, _⟩ => ⟨S2000x256, .bf16⟩
  | .local _ .vmem, ⟨20, _⟩ => ⟨S128x256, .f32⟩
  | .local _ .vmem, ⟨21, _⟩ => ⟨S128, .f32⟩
  | .local _ .vmem, ⟨22, _⟩ => ⟨S2000x128, .bf16⟩
  | .local _ .vmem, ⟨23, _⟩ => ⟨S2000x128, .bf16⟩
  | .local _ .vmem, ⟨24, _⟩ => ⟨S4096x256, .bf16⟩
  | .local _ .vmem, ⟨25, _⟩ => ⟨S4096x256, .bf16⟩
  | .local _ .vmem, ⟨26, _⟩ => ⟨S256x256, .f32⟩
  | .local _ .vmem, ⟨27, _⟩ => ⟨S256, .f32⟩
  | .local _ .vmem, ⟨28, _⟩ => ⟨S256, .f32⟩
  | .local _ .vmem, ⟨29, _⟩ => ⟨S256, .f32⟩
  | .local _ .vmem, ⟨30, _⟩ => ⟨S256, .f32⟩
  | .local _ .vmem, ⟨31, _⟩ => ⟨S256, .f32⟩
  | .local _ .vmem, ⟨32, _⟩ => ⟨S128x256, .f32⟩
  | .local _ .vmem, ⟨33, _⟩ => ⟨S128, .f32⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S1x128, .f32⟩
  | .local _ .vmem, ⟨39, _⟩ => ⟨S1, .f32⟩
  | .local _ .vmem, ⟨40, _⟩ => ⟨S4096, .f32⟩
  | .local _ .vmem, ⟨41, _⟩ => ⟨S4096, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_cst_0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_1 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23_0 : Ref sig .tc := ⟨.hbm, 56, rfl⟩
abbrev main_v23_1 : Ref sig .tc := ⟨.hbm, 57, rfl⟩
abbrev main_c_4 : Ref sig .tc := ⟨.hbm, 58, rfl⟩
abbrev main_v24 : Ref sig .tc := ⟨.hbm, 59, rfl⟩
abbrev main_v25 : Ref sig .tc := ⟨.hbm, 60, rfl⟩
abbrev main_c_5 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_6 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_c_7 : Ref sig .tc := ⟨.hbm, 78, rfl⟩
abbrev main_call0_v0 : Ref sig .tc := ⟨.hbm, 79, rfl⟩
abbrev main_v41 : Ref sig .tc := ⟨.hbm, 80, rfl⟩
abbrev main_c_8 : Ref sig .tc := ⟨.hbm, 81, rfl⟩
abbrev main_call1_v0 : Ref sig .tc := ⟨.hbm, 82, rfl⟩
abbrev main_v42 : Ref sig .tc := ⟨.hbm, 83, rfl⟩
abbrev main_c_9 : Ref sig .tc := ⟨.hbm, 84, rfl⟩
abbrev main_v43 : Ref sig .tc := ⟨.hbm, 85, rfl⟩
abbrev main_v44 : Ref sig .tc := ⟨.hbm, 86, rfl⟩
abbrev main_c_10 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_11 : Ref sig .tc := ⟨.hbm, 93, rfl⟩
abbrev main_v50 : Ref sig .tc := ⟨.hbm, 94, rfl⟩
abbrev main_v51 : Ref sig .tc := ⟨.hbm, 95, rfl⟩
abbrev main_c_12 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg12_0 : Ref sig .tc := ⟨.vmem, 37, rfl⟩
abbrev cc2_stg13_0 : Ref sig .tc := ⟨.vmem, 38, rfl⟩
abbrev cc2_stg14_0 : Ref sig .tc := ⟨.vmem, 39, rfl⟩
abbrev cc2_stg15_0 : Ref sig .tc := ⟨.vmem, 40, rfl⟩
abbrev cc2_stg15_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem11_0 : DmaSem sig := 36
abbrev cc2_sem12_0 : DmaSem sig := 37
abbrev cc2_sem13_0 : DmaSem sig := 38
abbrev cc2_sem14_0 : DmaSem sig := 39
abbrev cc2_sem15_0 : DmaSem sig := 40
abbrev cc2_sem15_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![123], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_15 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S4096 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  shapeCasts_S2000x256_S2000x256 : S2000x256.ShapeCasts S2000x256
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  pads_S500000_S503808_038080 : S500000.Pads (![0] : Fin 1 → Nat) ![3808] ![0] S503808
  h_S_ : 0 < S_.numel
  bcast_S_S503808 : S_.BroadcastsInDim S503808 (![] : Fin 0 → Fin S503808.rank)
  bcast_S503808_S503808x1_0 : S503808.BroadcastsInDim S503808x1 (![0] : Fin 1 → Fin S503808x1.rank)
  concatenates_S503808x128_S503808x128_S503808x256_d1 : Shape.Concatenates [S503808x128, S503808x128] S503808x256 1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  broadcasts_S1x256_S4096x256 : S1x256.Broadcasts S4096x256
  broadcasts_S1x128_S4096x128 : S1x128.Broadcasts S4096x128
  inb_S1x128_S1x128_0_0 : ∀ a, (![0, 0] : Fin 2 → Nat) a + S1x128.size a ≤ S1x128.size a
  h_S1x128 : 0 < S1x128.numel
  reduces_S4096x128_S4096 : S4096x128.Reduces [1] S4096
  inb_S1_S1_0 : ∀ a, (![0] : Fin 1 → Nat) a + S1.size a ≤ S1.size a
  h_S1 : 0 < S1.numel
  broadcasts_S1_S4096 : S1.Broadcasts S4096
  inb_S4096_S4096_0 : ∀ a, (![0] : Fin 1 → Nat) a + S4096.size a ≤ S4096.size a
  h_S4096 : 0 < S4096.numel
  slices_S503808_S500000_0 : S503808.Slices ![0] S500000
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  gather_S50000x128_S503808x1_S503808x128_1_0_n_n_0_1_1128_wf : GatherDims.WF S50000x128 S503808x1 S503808x128 [1] [0] [] [0] [] 1 ![1, 128]
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x256.size a ≤ S128x256.size a
  hwx0_9 : ∀ i : grid0.Coords, EltTy.bits .f32 = 32 ∨ (Rect.block (s := S128x256) S128x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S50000x256.size a
  hwx0_10 : ∀ i : grid0.Coords, EltTy.bits .bf16 = 32 ∨ (Rect.block (s := S50000x256) S2000x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S503808x256.size a
  hwx2_0 : ∀ i : grid2.Coords, EltTy.bits .bf16 = 32 ∨ (Rect.block (s := S503808x256) S4096x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x256.size a ≤ S128x256.size a
  hwx2_7 : ∀ i : grid2.Coords, EltTy.bits .f32 = 32 ∨ (Rect.block (s := S128x256) S128x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128.size a ≤ S128.size a
  hwx2_11 : ∀ i : grid2.Coords, EltTy.bits .f32 = 32 ∨ (Rect.block (s := S128) S128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128.size a ≤ S128.size a
  hwx2_12 : ∀ i : grid2.Coords, EltTy.bits .f32 = 32 ∨ (Rect.block (s := S128) S128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x128.size a ≤ S1x128.size a
  hwx2_13 : ∀ i : grid2.Coords, EltTy.bits .f32 = 32 ∨ (Rect.block (s := S1x128) S1x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1.size a ≤ S1.size a
  hwx2_14 : ∀ i : grid2.Coords, EltTy.bits .f32 = 32 ∨ (Rect.block (s := S1) S1.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S4096.size a ≤ S503808.size a
  hwx2_15 : ∀ i : grid2.Coords, EltTy.bits .f32 = 32 ∨ (Rect.block (s := S503808) S4096.size (cc2_transform_15 i) (hinb2_15 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S503808x1_S503808x128_1_0_n_n_0_1_1128 : GatherDims S50000x128 S503808x1 S503808x128 where
  offsetDims := [1]
  collapsedSliceDims := [0]
  operandBatchingDims := []
  startIndicesBatchingDims := []
  startIndexMap := [0]
  indexVectorDim := 1
  sliceSizes := ![1, 128]
  wf := gather_S50000x128_S503808x1_S503808x128_1_0_n_n_0_1_1128_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23_0) S2000x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v23_1) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg19) S128x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg20) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg21) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg22) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg23) S128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg24) S128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg25) S1x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg26) S1.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v58) S4096.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S2x500000 : Shape := ⟨2, ![2, 500000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S256x256 : Shape := ⟨2, ![256, 256]⟩
abbrev S1x128 : Shape := ⟨2, ![1, 128]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S640000x256 : Shape := ⟨2, ![640000, 256]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x256 : Shape := ⟨2, ![500000, 256]⟩
abbrev S128x1 : Shape := ⟨2, ![128, 1]⟩
abbrev S1x1 : Shape := ⟨2, ![1, 1]⟩

abbrev nBuf : Space → Nat
  | .hbm => 193
  | .vmem => 0
  | .smem => 0
  | _ => 0

abbrev hbmTy0_0 (i : Nat) : BufTy := match i % 128 with
  | 0 => ⟨S50000x128, .f32⟩
  | 1 => ⟨S2x640000, .i32⟩
  | 2 => ⟨S2x500000, .i32⟩
  | 3 => ⟨S256x128, .f32⟩
  | 4 => ⟨S256x128, .f32⟩
  | 5 => ⟨S256, .f32⟩
  | 6 => ⟨S256, .f32⟩
  | 7 => ⟨S256, .f32⟩
  | 8 => ⟨S256, .f32⟩
  | 9 => ⟨S256, .f32⟩
  | 10 => ⟨S128x256, .f32⟩
  | 11 => ⟨S128x256, .f32⟩
  | 12 => ⟨S128, .f32⟩
  | 13 => ⟨S256x256, .f32⟩
  | 14 => ⟨S256, .f32⟩
  | 15 => ⟨S256, .f32⟩
  | 16 => ⟨S256, .f32⟩
  | 17 => ⟨S256, .f32⟩
  | 18 => ⟨S256, .f32⟩
  | 19 => ⟨S128x256, .f32⟩
  | 20 => ⟨S128, .f32⟩
  | 21 => ⟨S128, .f32⟩
  | 22 => ⟨S128, .f32⟩
  | 23 => ⟨S128, .f32⟩
  | 24 => ⟨S128, .f32⟩
  | 25 => ⟨S1x128, .f32⟩
  | 26 => ⟨S1, .f32⟩
  | 27 => ⟨S1x640000, .i32⟩
  | 28 => ⟨S640000, .i32⟩
  | 29 => ⟨S1x640000, .i32⟩
  | 30 => ⟨S640000, .i32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000x128, .f32⟩
  | 40 => ⟨S_, .f32⟩
  | 41 => ⟨S50000x128, .f32⟩
  | 42 => ⟨S640000x1, .i32⟩
  | 43 => ⟨S50000x128, .f32⟩
  | 44 => ⟨S_, .f32⟩
  | 45 => ⟨S640000, .f32⟩
  | 46 => ⟨S_, .f32⟩
  | 47 => ⟨S50000, .f32⟩
  | 48 => ⟨S640000x1, .i32⟩
  | 49 => ⟨S50000, .f32⟩
  | 50 => ⟨S_, .f32⟩
  | 51 => ⟨S50000, .f32⟩
  | 52 => ⟨S50000, .f32⟩
  | 53 => ⟨S50000x1, .f32⟩
  | 54 => ⟨S50000x128, .f32⟩
  | 55 => ⟨S50000x128, .f32⟩
  | 56 => ⟨S128x256, .f32⟩
  | 57 => ⟨S50000x256, .f32⟩
  | 58 => ⟨S128x256, .f32⟩
  | 59 => ⟨S50000x256, .f32⟩
  | 60 => ⟨S50000x256, .f32⟩
  | 61 => ⟨S1x256, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S256, .f32⟩
  | 69 => ⟨S256, .f32⟩
  | 70 => ⟨S256, .f32⟩
  | 71 => ⟨S1x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S1x256, .f32⟩
  | 78 => ⟨S50000x256, .f32⟩
  | 79 => ⟨S50000x256, .f32⟩
  | 80 => ⟨S_, .f32⟩
  | 81 => ⟨S50000x256, .f32⟩
  | 82 => ⟨S50000x256, .f32⟩
  | 83 => ⟨S_, .i32⟩
  | 84 => ⟨S640000, .i32⟩
  | 85 => ⟨S640000, .i1⟩
  | 86 => ⟨S_, .i32⟩
  | 87 => ⟨S640000, .i32⟩
  | 88 => ⟨S640000, .i32⟩
  | 89 => ⟨S640000, .i32⟩
  | 90 => ⟨S640000x1, .i32⟩
  | 91 => ⟨S640000x256, .f32⟩
  | 92 => ⟨S_, .f32⟩
  | 93 => ⟨S50000x256, .f32⟩
  | 94 => ⟨S640000x1, .i32⟩
  | 95 => ⟨S50000x256, .f32⟩
  | 96 => ⟨S_, .f32⟩
  | 97 => ⟨S640000, .f32⟩
  | 98 => ⟨S_, .f32⟩
  | 99 => ⟨S50000, .f32⟩
  | 100 => ⟨S640000x1, .i32⟩
  | 101 => ⟨S50000, .f32⟩
  | 102 => ⟨S_, .f32⟩
  | 103 => ⟨S50000, .f32⟩
  | 104 => ⟨S50000, .f32⟩
  | 105 => ⟨S50000x1, .f32⟩
  | 106 => ⟨S50000x256, .f32⟩
  | 107 => ⟨S50000x256, .f32⟩
  | 108 => ⟨S256x128, .f32⟩
  | 109 => ⟨S50000x128, .f32⟩
  | 110 => ⟨S256x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S1x500000, .i32⟩
  | 117 => ⟨S500000, .i32⟩
  | 118 => ⟨S_, .i32⟩
  | 119 => ⟨S500000, .i32⟩
  | 120 => ⟨S500000, .i1⟩
  | 121 => ⟨S_, .i32⟩
  | 122 => ⟨S500000, .i32⟩
  | 123 => ⟨S500000, .i32⟩
  | 124 => ⟨S500000, .i32⟩
  | 125 => ⟨S500000x1, .i32⟩
  | 126 => ⟨S500000x128, .f32⟩
  | 127 => ⟨S1x500000, .i32⟩
  | _ => ⟨S50000x128, .f32⟩

abbrev hbmTy0_1 (i : Nat) : BufTy := match i % 128 with
  | 0 => ⟨S500000, .i32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S500000x1, .i32⟩
  | 9 => ⟨S500000x128, .f32⟩
  | 10 => ⟨S500000x256, .f32⟩
  | 11 => ⟨S256x256, .f32⟩
  | 12 => ⟨S500000x256, .f32⟩
  | 13 => ⟨S1x256, .f32⟩
  | 14 => ⟨S500000x256, .f32⟩
  | 15 => ⟨S500000x256, .f32⟩
  | 16 => ⟨S1x256, .f32⟩
  | 17 => ⟨S500000x256, .f32⟩
  | 18 => ⟨S500000x256, .f32⟩
  | 19 => ⟨S_, .f32⟩
  | 20 => ⟨S256, .f32⟩
  | 21 => ⟨S256, .f32⟩
  | 22 => ⟨S256, .f32⟩
  | 23 => ⟨S1x256, .f32⟩
  | 24 => ⟨S500000x256, .f32⟩
  | 25 => ⟨S500000x256, .f32⟩
  | 26 => ⟨S1x256, .f32⟩
  | 27 => ⟨S500000x256, .f32⟩
  | 28 => ⟨S500000x256, .f32⟩
  | 29 => ⟨S1x256, .f32⟩
  | 30 => ⟨S500000x256, .f32⟩
  | 31 => ⟨S500000x256, .f32⟩
  | 32 => ⟨S_, .f32⟩
  | 33 => ⟨S500000x256, .f32⟩
  | 34 => ⟨S500000x256, .f32⟩
  | 35 => ⟨S256x128, .f32⟩
  | 36 => ⟨S500000x128, .f32⟩
  | 37 => ⟨S1x128, .f32⟩
  | 38 => ⟨S500000x128, .f32⟩
  | 39 => ⟨S500000x128, .f32⟩
  | 40 => ⟨S1x128, .f32⟩
  | 41 => ⟨S500000x128, .f32⟩
  | 42 => ⟨S500000x128, .f32⟩
  | 43 => ⟨S_, .f32⟩
  | 44 => ⟨S128, .f32⟩
  | 45 => ⟨S128, .f32⟩
  | 46 => ⟨S128, .f32⟩
  | 47 => ⟨S1x128, .f32⟩
  | 48 => ⟨S500000x128, .f32⟩
  | 49 => ⟨S500000x128, .f32⟩
  | 50 => ⟨S1x128, .f32⟩
  | 51 => ⟨S500000x128, .f32⟩
  | 52 => ⟨S500000x128, .f32⟩
  | 53 => ⟨S1x128, .f32⟩
  | 54 => ⟨S500000x128, .f32⟩
  | 55 => ⟨S500000x128, .f32⟩
  | 56 => ⟨S_, .f32⟩
  | 57 => ⟨S500000x128, .f32⟩
  | 58 => ⟨S500000x128, .f32⟩
  | 59 => ⟨S128x1, .f32⟩
  | 60 => ⟨S500000x1, .f32⟩
  | 61 => ⟨S1x1, .f32⟩
  | 62 => ⟨S500000x1, .f32⟩
  | 63 => ⟨S500000x1, .f32⟩
  | 64 => ⟨S500000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_1 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_4 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_call0_cst : Ref sig .tc := ⟨.hbm, 80, rfl⟩
abbrev main_call0_v0 : Ref sig .tc := ⟨.hbm, 81, rfl⟩
abbrev main_v46 : Ref sig .tc := ⟨.hbm, 82, rfl⟩
abbrev main_c_5 : Ref sig .tc := ⟨.hbm, 83, rfl⟩
abbrev main_v47 : Ref sig .tc := ⟨.hbm, 84, rfl⟩
abbrev main_v48 : Ref sig .tc := ⟨.hbm, 85, rfl⟩
abbrev main_c_6 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_7 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_8 : Ref sig .tc := ⟨.hbm, 96, rfl⟩
abbrev main_v57 : Ref sig .tc := ⟨.hbm, 97, rfl⟩
abbrev main_cst_9 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_10 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c_11 : Ref sig .tc := ⟨.hbm, 118, rfl⟩
abbrev main_v76 : Ref sig .tc := ⟨.hbm, 119, rfl⟩
abbrev main_v77 : Ref sig .tc := ⟨.hbm, 120, rfl⟩
abbrev main_c_12 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_13 : Ref sig .tc := ⟨.hbm, 129, rfl⟩
abbrev main_v85 : Ref sig .tc := ⟨.hbm, 130, rfl⟩
abbrev main_v86 : Ref sig .tc := ⟨.hbm, 131, rfl⟩
abbrev main_c_14 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_15 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_call1_cst : Ref sig .tc := ⟨.hbm, 160, rfl⟩
abbrev main_call1_v0 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_16 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_call2_cst : Ref sig .tc := ⟨.hbm, 184, rfl⟩
abbrev main_call2_v0 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x128_S500000x128_S500000x256_d1 : Shape.Concatenates [S500000x128, S500000x128] S500000x256 1
  transposes_S256x256_S256x256_1_0 : S256x256.Transposes [1, 0] S256x256
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S1x128_S500000x128_0_1 : S1x128.BroadcastsInDim S500000x128 (![0, 1] : Fin 2 → Fin S500000x128.rank)
  bcast_S_S128 : S_.BroadcastsInDim S128 (![] : Fin 0 → Fin S128.rank)
  bcast_S_S500000x128 : S_.BroadcastsInDim S500000x128 (![] : Fin 0 → Fin S500000x128.rank)
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x256_S50000x256_1_0_0_1_n_n_wf : DotDims.WF S50000x128 S128x256 S50000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S50000x256_S256x128_S50000x128_1_0_0_1_n_n_wf : DotDims.WF S50000x256 S256x128 S50000x128 [1] [0] [0] [1] [] []
  gather_S50000x128_S500000x1_S500000x128_1_0_n_n_0_1_1128_wf : GatherDims.WF S50000x128 S500000x1 S500000x128 [1] [0] [] [0] [] 1 ![1, 128]
  dot_S500000x256_S256x256_S500000x256_1_0_0_1_n_n_wf : DotDims.WF S500000x256 S256x256 S500000x256 [1] [0] [0] [1] [] []
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.KRun.lean ====
/-
  The idealized kernel's run with EVERY unscoped buffer named: every weakly fair execution of @main ends, nothing
  faulting, with each buffer of each core at the contents the fold of @main's segments leaves there — the host
  stretches applied in order, each region's arrays at what its write-backs leave.  The result array and the
  argument arrays are instances.
-/
import proofs.«170819_j39548058862204_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.RunAll

end
-- ==== Proof.Spec.lean ====
/-
  The mathematics of the two programs, as functions on the extended reals, free of either program's text.

  A two-layer neighbourhood-mean graph encoder followed by a three-layer link scorer.  For every node `n`
  the edges whose target is `n` are collected (`hits`), their source rows summed (`segSum`) and divided by
  the number of such edges, floored at one (`den`): the neighbourhood mean (`segMean`).  A hidden layer
  is an affine map of the node's own row and of its neighbourhood mean, normalised by stored statistics
  and rectified (`hidOf`).  The second layer's output (`zK`, `zR`) is written in the two orders the two
  programs use: projecting every row by `W2l` first and averaging the projected rows (`zK`), or averaging
  first and projecting the mean (`zR`).  A link's score (`score`) is a three-layer perceptron of the
  two end-point rows placed side by side (`cat`).
-/
import Idealize.ShloMosaic.PureOps.Ideal

noncomputable section

namespace Cert.Sage

open Idealize.ShloMosaic

/-- The variance offset both programs add before the reciprocal square root: the same binary word on both sides. -/
abbrev eps : EReal := Ideal.ofBits .f32 0x3727C5AC#32
/-- The word of the float one: an edge's weight in the count, and the floor of the count. -/
abbrev one : EReal := Ideal.ofBits .f32 0x3F800000#32

/-- A row against a row of weights: the entry of `a · Wᵀ`. -/
def dotT {K : ℕ} (a w : Fin K → EReal) : EReal := ∑ k, a k * w k

/-- Normalisation by stored statistics: `(v - μ) · (σ² + ε)^(-1/2) · γ + β`. -/
def bn (v g b mu var : EReal) : EReal := (v - mu) * Ideal.rsqrt (var + eps) * g + b

/-- The rectifier. -/
def relu (v : EReal) : EReal := max v 0

/-- One unit of a dense layer: affine, normalised, rectified. -/
def unit {K : ℕ} (a w : Fin K → EReal) (b g be mu var : EReal) : EReal := relu (bn (dotT a w + b) g be mu var)

/-- A negative index counts from the end of the 50000 rows. -/
def wrap (v : BitVec 32) : BitVec 32 := if v.slt 0#32 then v + 50000#32 else v

/-- A row index read off a word, clamped into the table. -/
def clampRow (v : BitVec 32) : Fin 50000 := ⟨min v.toInt.toNat 49999, by omega⟩

/-- The row a gather reads for an index word. -/
def rowOf (v : BitVec 32) : Fin 50000 := clampRow (wrap v)

/-- The word names row `n` exactly (an accumulating scatter drops a word that names no row). -/
def hits (v : BitVec 32) (n : Fin 50000) : Prop := v.toInt = (n.val : Int)

instance (v : BitVec 32) (n : Fin 50000) : Decidable (hits v n) := by unfold hits; infer_instance

section Seg

variable (ei : Fin 2 → Fin 640000 → BitVec 32)

/-- The number of edges into `n`, each counted as the float one. -/
def cnt (n : Fin 50000) : EReal := ∑ e : Fin 640000, if hits (ei 1 e) n then one else 0

/-- The divisor of a neighbourhood mean. -/
def den (n : Fin 50000) : EReal := max (cnt ei n) one

/-- The sum over the edges into `n` of the source row's entry `c`. -/
def segSum {C : ℕ} (f : Fin 50000 → Fin C → EReal) (n : Fin 50000) (c : Fin C) : EReal :=
  ∑ e : Fin 640000, if hits (ei 1 e) n then f (rowOf (ei 0 e)) c else 0

/-- The neighbourhood mean. -/
def segMean {C : ℕ} (f : Fin 50000 → Fin C → EReal) (n : Fin 50000) (c : Fin C) : EReal :=
  Ideal.div (segSum ei f n c) (den ei n)

end Seg

/-- The hidden layer from a given neighbourhood-mean array `M` and the node rows `X`. -/
def hidOf (M X : Fin 50000 → Fin 128 → EReal) (Wl Wr : Fin 256 → Fin 128 → EReal)
    (b g be mu var : Fin 256 → EReal) (n : Fin 50000) (j : Fin 256) : EReal :=
  relu (bn (dotT (M n) (Wl j) + dotT (X n) (Wr j) + b j) (g j) (be j) (mu j) (var j))

/-- The hidden layer of the encoder. -/
def hid (ei : Fin 2 → Fin 640000 → BitVec 32) (X : Fin 50000 → Fin 128 → EReal) (Wl Wr : Fin 256 → Fin 128 → EReal)
    (b g be mu var : Fin 256 → EReal) : Fin 50000 → Fin 256 → EReal :=
  hidOf (segMean ei X) X Wl Wr b g be mu var

/-- The encoder's output, every row projected by `W2l` before the neighbourhood mean is taken. -/
def zK (ei : Fin 2 → Fin 640000 → BitVec 32) (h : Fin 50000 → Fin 256 → EReal) (W2l W2r : Fin 128 → Fin 256 → EReal)
    (b2 : Fin 128 → EReal) (n : Fin 50000) (c : Fin 128) : EReal :=
  dotT (h n) (W2r c) + segMean ei (fun n' c' => dotT (h n') (W2l c')) n c + b2 c

/-- The encoder's output, the neighbourhood mean taken first and then projected by `W2l`. -/
def zR (ei : Fin 2 → Fin 640000 → BitVec 32) (h : Fin 50000 → Fin 256 → EReal) (W2l W2r : Fin 128 → Fin 256 → EReal)
    (b2 : Fin 128 → EReal) (n : Fin 50000) (c : Fin 128) : EReal :=
  dotT (segMean ei h n) (W2l c) + dotT (h n) (W2r c) + b2 c

/-- Two rows of 128 side by side. -/
def cat (a b : Fin 128 → EReal) (k : Fin 256) : EReal :=
  if hk : k.val < 128 then a ⟨k.val, hk⟩ else b ⟨k.val - 128, by omega⟩

/-- The link scorer on one joined row. -/
def score (W1 : Fin 256 → Fin 256 → EReal) (b1 g1 be1 mu1 var1 : Fin 256 → EReal)
    (W2 : Fin 128 → Fin 256 → EReal) (b2 g2 be2 mu2 var2 : Fin 128 → EReal)
    (w3 : Fin 128 → EReal) (b3 : EReal) (q : Fin 256 → EReal) : EReal :=
  dotT (fun c => unit (fun j => unit q (W1 j) (b1 j) (g1 j) (be1 j) (mu1 j) (var1 j)) (W2 c) (b2 c) (g2 c) (be2 c) (mu2 c) (var2 c)) w3 + b3

/-- The joined end-point rows of link `r`. -/
def ends (z : Fin 50000 → Fin 128 → EReal) (pei : Fin 2 → Fin 500000 → BitVec 32) (r : Fin 500000) : Fin 256 → EReal :=
  cat (z (rowOf (pei 0 r))) (z (rowOf (pei 1 r)))

end Cert.Sage

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.Region0.lean ====
/-
  The first graph layer, read off the kernel's first region as mathematics.

  The region walks the 50000 node rows in 25 blocks of 2000. At each block it takes the block's rows of the
  neighbourhood-mean array and of the node array, and — whole, the same at every block — the two first-layer weight
  matrices, the bias, the four stored normalisation vectors and the second layer's neighbour weights. From these it
  writes two blocks: the hidden rows (each entry an affine map of the mean row and the own row, normalised by the stored
  statistics and rectified), and those hidden rows projected by the second layer's neighbour weights.

  Here: each entry of the body's two results as a formula in the entries of its inputs (a product of a block with a
  transposed weight block is, entry by entry, a row against a row); each block the region writes back as the block of ONE
  function of the arrays the region finds; the 25 blocks cover every row (row n lies in block n / 2000, and
  25 · 2000 = 50000); hence the two arrays the region leaves are the hidden layer and its projection, entry by entry.
-/
import proofs.«170819_j39548058862204_2_alg».proof.Proof.Gen.KernelIdeal.Frame
import proofs.«170819_j39548058862204_2_alg».proof.Proof.Spec
import proofs.«170819_j39548058862204_2_alg».proof.Proof.LibPlainDot
import Idealize.ShloMosaic.Lib.ValueLayout
import Idealize.ShloMosaic.Lib.Pipeline.Value
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.ShloMosaic.ValueIdx
open Idealize.ShloMosaic.Pipeline (Dat)
open Cert.Sage (dotT bn relu hidOf)

/-! ## The body's arithmetic at an entry -/

/-- A block of rows against a block of weight rows, the weights transposed on the way in and the accumulator
    zero: entry (p, j) is the row p of the first against the row j of the second. -/
theorem rows_dotT_256 (a : FVec Ideal S2000x128 .bf16) (w : FVec Ideal S256x128 .bf16)
    (h : S256x128.Transposes [1, 0] S128x256) (p : Fin 2000) (j : Fin 256) :
    matmul dot_S2000x128_S128x256_S2000x256_1_0_0_1_n_n none a (transpose S128x256 [1, 0] w h)
        (constant S2000x256 .f32 0x00000000#32) (ix2 p j)
      = dotT (fun k => a (ix2 p k)) (fun k => w (ix2 j k)) := by
  refine (Cert.PlainDot.matmul_zero_apply dot_S2000x128_S128x256_S2000x256_1_0_0_1_n_n rfl rfl (fun _ _ => rfl)
    (fun i q => DotDims.lhsIdx_val_of_single _ rfl i q) (fun i q => DotDims.rhsIdx_val_of_single _ rfl i q)
    (fun _ _ => rfl) none a (transpose S128x256 [1, 0] w h) p j).trans ?_
  exact Finset.sum_congr rfl fun k _ => congrArg (fun z => (a (ix2 p k) : EReal) * z) (transpose_ix2_apply w h k j)

/-- The same for the second product: 256 hidden units against 128 rows of weights. -/
theorem rows_dotT_128 (a : FVec Ideal S2000x256 .bf16) (w : FVec Ideal S128x256 .bf16)
    (h : S128x256.Transposes [1, 0] S256x128) (p : Fin 2000) (k : Fin 128) :
    matmul dot_S2000x256_S256x128_S2000x128_1_0_0_1_n_n none a (transpose S256x128 [1, 0] w h)
        (constant S2000x128 .f32 0x00000000#32) (ix2 p k)
      = dotT (fun j => a (ix2 p j)) (fun j => w (ix2 k j)) := by
  refine (Cert.PlainDot.matmul_zero_apply dot_S2000x256_S256x128_S2000x128_1_0_0_1_n_n rfl rfl (fun _ _ => rfl)
    (fun i q => DotDims.lhsIdx_val_of_single _ rfl i q) (fun i q => DotDims.rhsIdx_val_of_single _ rfl i q)
    (fun _ _ => rfl) none a (transpose S256x128 [1, 0] w h) p k).trans ?_
  exact Finset.sum_congr rfl fun j _ => congrArg (fun z => (a (ix2 p j) : EReal) * z) (transpose_ix2_apply w h j k)

/-- A vector of 256 laid as one row and repeated down 2000 rows reads, at (p, j), its entry j. -/
theorem row_repeat (v : FVec Ideal S1x256 .f32) (hb : S1x256.Broadcasts S2000x256) (p : Fin 2000) (j : Fin 256) :
    broadcastTo S2000x256 v hb (ix2 p j) = v (ix2 (0 : Fin 1) j) :=
  broadcastTo_1b_ab_apply v hb p j

theorem as_row (v : FVec Ideal S256 .f32) (hc : S256.ShapeCasts S1x256) (j : Fin 256) :
    shapeCast S1x256 v hc (ix2 (0 : Fin 1) j) = v (ix1 j) :=
  shapeCast_a_1a_apply v hc 0 j

/-- The second product of the body at an entry: the hidden row against row k of the second layer's weights. -/
theorem pay1_apply (y : FVec Ideal S2000x256 .bf16) (x9 : Vec Ideal S128x256 .f32) (p : Fin 2000) (k : Fin 128) :
    k0_pay1 y x9 (ix2 p k) = dotT (fun j => y (ix2 p j)) (fun j => x9 (ix2 k j)) := by
  unfold k0_pay1
  exact rows_dotT_128 y (truncf .bf16 x9 bitsLt_bf16_f32) transposes_S128x256_p1_0_S256x128 p k

/-- The hidden unit (p, j) of the body: the neighbourhood-mean row and the node's own row each against row j of
    their weights, plus the bias, normalised by the stored statistics and rectified. -/
theorem pay2_apply (x0 x1 : Vec Ideal S2000x128 .f32) (x2 x3 : Vec Ideal S256x128 .f32)
    (x4 x5 x6 x7 x8 : Vec Ideal S256 .f32) (p : Fin 2000) (j : Fin 256) :
    k0_pay2 x0 x1 x2 x3 x4 x5 x6 x7 x8 (ix2 p j)
      = relu (bn (dotT (fun k => x0 (ix2 p k)) (fun k => x2 (ix2 j k)) + dotT (fun k => x1 (ix2 p k)) (fun k => x3 (ix2 j k)) + x4 (ix1 j))
          (x5 (ix1 j)) (x6 (ix1 j)) (x7 (ix1 j)) (x8 (ix1 j))) := by
  have s0 : shapeCast S2000x128 x0 shapeCasts_S2000x128_S2000x128 = x0 := shapeCast_self x0 _
  have m1 := rows_dotT_256 (truncf .bf16 (shapeCast S2000x128 x0 shapeCasts_S2000x128_S2000x128) bitsLt_bf16_f32)
    (truncf .bf16 x2 bitsLt_bf16_f32) transposes_S256x128_p1_0_S128x256 p j
  have m2 := rows_dotT_256 (truncf .bf16 x1 bitsLt_bf16_f32) (truncf .bf16 x3 bitsLt_bf16_f32) transposes_S256x128_p1_0_S128x256 p j
  have b4 := (row_repeat (shapeCast S1x256 x4 shapeCasts_S256_S1x256) broadcasts_S1x256_S2000x256 p j).trans (as_row x4 shapeCasts_S256_S1x256 j)
  have b5 := (row_repeat (shapeCast S1x256 x5 shapeCasts_S256_S1x256) broadcasts_S1x256_S2000x256 p j).trans (as_row x5 shapeCasts_S256_S1x256 j)
  have b6 := (row_repeat (shapeCast S1x256 x6 shapeCasts_S256_S1x256) broadcasts_S1x256_S2000x256 p j).trans (as_row x6 shapeCasts_S256_S1x256 j)
  have b7 := (row_repeat (shapeCast S1x256 x7 shapeCasts_S256_S1x256) broadcasts_S1x256_S2000x256 p j).trans (as_row x7 shapeCasts_S256_S1x256 j)
  have b8 : broadcastTo S2000x256 (rsqrt (addf (shapeCast S1x256 x8 shapeCasts_S256_S1x256)
        (broadcast S1x256 (Scalar.ofBits (F := Ideal) .f32 0x3727C5AC#32)))) broadcasts_S1x256_S2000x256 (ix2 p j)
      = Ideal.rsqrt (x8 (ix1 j) + Cert.Sage.eps) :=
    (row_repeat _ broadcasts_S1x256_S2000x256 p j).trans
      (congrArg (fun z : EReal => Ideal.rsqrt (z + Cert.Sage.eps)) (as_row x8 shapeCasts_S256_S1x256 j))
  have hzero : (Scalar.ofBits (F := Ideal) .f32 0x00000000#32 : EReal) = 0 := Ideal.ofBits_zero_f32
  rw [s0] at m1
  unfold k0_pay2
  simp only [truncf_apply, maximumf_apply, addf_apply, mulf_apply, subf_apply, broadcast_apply]
  rw [s0, m1, m2, b4, b5, b6, b7, b8, hzero]
  rfl

/-! ## The blocks, read where they lie in the arrays -/

theorem hz2 : (![0, 0] : Fin 2 → Nat) = fun _ => 0 := funext fun a => by fin_cases a <;> rfl
theorem hz1 : (![0] : Fin 1 → Nat) = fun _ => 0 := funext fun a => by fin_cases a; rfl

/-- Where each window's block sits at point t, decided over the 25 points: the four row-blocked windows (the mean, the
    nodes, and the two results) at block row t, every other window at its whole array. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 1) = 0
    ∧ win0_7.index t (0 : Fin 1) = 0
    ∧ win0_8.index t (0 : Fin 1) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- Row p of the block at point t is row 2000 · t + p of the array. -/
def row (t : Fin cfg0.N) (p : Fin 2000) : Fin 50000 :=
  ⟨t.val * 2000 + p.val, by have := t.isLt; have h : cfg0.N = 25 := N_0; have := p.isLt; omega⟩

variable (V : (c : Dev nD) → (b : Ref sig .tc) → Buf (Elt Ideal) ((c : Thread nD τ).loc b))

/-- The block of the neighbourhood-mean array at point t. -/
theorem read0 (c : Dev nD) (t : Fin cfg0.N) (p : Fin 2000) (k : Fin 128) :
    iblk0 (F := Ideal) V c 0 t (ix2 p k) = V c main_v22 (ix2 (row t p) k) := by
  obtain ⟨e0, e1, -⟩ := idx_facts t
  show V c main_v22 (((cfg0.win 0).blk t).view.emb (ix2 p k)) = V c main_v22 (ix2 (row t p) k)
  refine congrArg (V c main_v22) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The block of the node array at point t. -/
theorem read1 (c : Dev nD) (t : Fin cfg0.N) (p : Fin 2000) (k : Fin 128) :
    iblk0 (F := Ideal) V c 1 t (ix2 p k) = V c main_arg0 (ix2 (row t p) k) := by
  obtain ⟨-, -, e0, e1, -⟩ := idx_facts t
  show V c main_arg0 (((cfg0.win 1).blk t).view.emb (ix2 p k)) = V c main_arg0 (ix2 (row t p) k)
  refine congrArg (V c main_arg0) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- The mean's weights: the whole matrix at every point. -/
theorem read2 (c : Dev nD) (t : Fin cfg0.N) (j : Fin 256) (k : Fin 128) :
    iblk0 (F := Ideal) V c 2 t (ix2 j k) = V c main_arg3 (ix2 j k) := by
  obtain ⟨-, -, -, -, e0, e1, -⟩ := idx_facts t
  show V c main_arg3 (((cfg0.win 2).blk t).view.emb (ix2 j k)) = V c main_arg3 (ix2 j k)
  refine congrArg (V c main_arg3) (funext fun a => Fin.ext ?_)
  match a with
  | ⟨0, _⟩ => show win0_2.index t (0 : Fin 2) * 256 + 1 * j.val = j.val; rw [e0]; omega
  | ⟨1, _⟩ => show win0_2.index t (1 : Fin 2) * 128 + 1 * k.val = k.val; rw [e1]; omega

/-- The node's own weights: the whole matrix at every point. -/
theorem read3 (c : Dev nD) (t : Fin cfg0.N) (j : Fin 256) (k : Fin 128) :
    iblk0 (F := Ideal) V c 3 t (ix2 j k) = V c main_arg4 (ix2 j k) := by
  obtain ⟨-, -, -, -, -, -, e0, e1, -⟩ := idx_facts t
  show V c main_arg4 (((cfg0.win 3).blk t).view.emb (ix2 j k)) = V c main_arg4 (ix2 j k)
  refine congrArg (V c main_arg4) (funext fun a => Fin.ext ?_)
  match a with
  | ⟨0, _⟩ => show win0_3.index t (0 : Fin 2) * 256 + 1 * j.val = j.val; rw [e0]; omega
  | ⟨1, _⟩ => show win0_3.index t (1 : Fin 2) * 128 + 1 * k.val = k.val; rw [e1]; omega

/-- The bias: the whole vector at every point. -/
theorem read4 (c : Dev nD) (t : Fin cfg0.N) (j : Fin 256) :
    iblk0 (F := Ideal) V c 4 t (ix1 j) = V c main_arg5 (ix1 j) := by
  obtain ⟨-, -, -, -, -, -, -, -, e0, -⟩ := idx_facts t
  show V c main_arg5 (((cfg0.win 4).blk t).view.emb (ix1 j)) = V c main_arg5 (ix1 j)
  refine congrArg (V c main_arg5) (funext fun a => Fin.ext ?_)
  match a with
  | ⟨0, _⟩ => show win0_4.index t (0 : Fin 1) * 256 + 1 * j.val = j.val; rw [e0]; omega

/-- The scale: the whole vector at every point. -/
theorem read5 (c : Dev nD) (t : Fin cfg0.N) (j : Fin 256) :
    iblk0 (F := Ideal) V c 5 t (ix1 j) = V c main_arg6 (ix1 j) := by
  obtain ⟨-, -, -, -, -, -, -, -, -, e0, -⟩ := idx_facts t
  show V c main_arg6 (((cfg0.win 5).blk t).view.emb (ix1 j)) = V c main_arg6 (ix1 j)
  refine congrArg (V c main_arg6) (funext fun a => Fin.ext ?_)
  match a with
  | ⟨0, _⟩ => show win0_5.index t (0 : Fin 1) * 256 + 1 * j.val = j.val; rw [e0]; omega

/-- The shift: the whole vector at every point. -/
theorem read6 (c : Dev nD) (t : Fin cfg0.N) (j : Fin 256) :
    iblk0 (F := Ideal) V c 6 t (ix1 j) = V c main_arg7 (ix1 j) := by
  obtain ⟨-, -, -, -, -, -, -, -, -, -, e0, -⟩ := idx_facts t
  show V c main_arg7 (((cfg0.win 6).blk t).view.emb (ix1 j)) = V c main_arg7 (ix1 j)
  refine congrArg (V c main_arg7) (funext fun a => Fin.ext ?_)
  match a with
  | ⟨0, _⟩ => show win0_6.index t (0 : Fin 1) * 256 + 1 * j.val = j.val; rw [e0]; omega

/-- The stored mean: the whole vector at every point. -/
theorem read7 (c : Dev nD) (t : Fin cfg0.N) (j : Fin 256) :
    iblk0 (F := Ideal) V c 7 t (ix1 j) = V c main_arg8 (ix1 j) := by
  obtain ⟨-, -, -, -, -, -, -, -, -, -, -, e0, -⟩ := idx_facts t
  show V c main_arg8 (((cfg0.win 7).blk t).view.emb (ix1 j)) = V c main_arg8 (ix1 j)
  refine congrArg (V c main_arg8) (funext fun a => Fin.ext ?_)
  match a with
  | ⟨0, _⟩ => show win0_7.index t (0 : Fin 1) * 256 + 1 * j.val = j.val; rw [e0]; omega

/-- The stored variance: the whole vector at every point. -/
theorem read8 (c : Dev nD) (t : Fin cfg0.N) (j : Fin 256) :
    iblk0 (F := Ideal) V c 8 t (ix1 j) = V c main_arg9 (ix1 j) := by
  obtain ⟨-, -, -, -, -, -, -, -, -, -, -, -, e0, -⟩ := idx_facts t
  show V c main_arg9 (((cfg0.win 8).blk t).view.emb (ix1 j)) = V c main_arg9 (ix1 j)
  refine congrArg (V c main_arg9) (funext fun a => Fin.ext ?_)
  match a with
  | ⟨0, _⟩ => show win0_8.index t (0 : Fin 1) * 256 + 1 * j.val = j.val; rw [e0]; omega

/-- The second layer's neighbour weights: the whole matrix at every point. -/
theorem read9 (c : Dev nD) (t : Fin cfg0.N) (k : Fin 128) (j : Fin 256) :
    iblk0 (F := Ideal) V c 9 t (ix2 k j) = V c main_arg10 (ix2 k j) := by
  obtain ⟨-, -, -, -, -, -, -, -, -, -, -, -, -, e0, e1, -⟩ := idx_facts t
  show V c main_arg10 (((cfg0.win 9).blk t).view.emb (ix2 k j)) = V c main_arg10 (ix2 k j)
  refine congrArg (V c main_arg10) (funext fun a => Fin.ext ?_)
  match a with
  | ⟨0, _⟩ => show win0_9.index t (0 : Fin 2) * 128 + 1 * k.val = k.val; rw [e0]; omega
  | ⟨1, _⟩ => show win0_9.index t (1 : Fin 2) * 256 + 1 * j.val = j.val; rw [e1]; omega

/-- Entry (p, j) of the hidden block at point t lies at (2000 · t + p, j) of the hidden array. -/
theorem emb10 (t : Fin cfg0.N) (p : Fin 2000) (j : Fin 256) :
    ((cfg0.win 10).blk t).view.emb (ix2 p j) = (ix2 (row t p) j : S50000x256.Idx) := by
  obtain ⟨-, -, -, -, -, -, -, -, -, -, -, -, -, -, -, e0, e1, -, -⟩ := idx_facts t
  refine funext fun a => Fin.ext ?_
  match a with
  | ⟨0, _⟩ => show win0_10.index t (0 : Fin 2) * 2000 + 1 * p.val = t.val * 2000 + p.val; rw [e0]; omega
  | ⟨1, _⟩ => show win0_10.index t (1 : Fin 2) * 256 + 1 * j.val = j.val; rw [e1]; omega

/-- Entry (p, k) of the projected block at point t lies at (2000 · t + p, k) of the projected array. -/
theorem emb11 (t : Fin cfg0.N) (p : Fin 2000) (k : Fin 128) :
    ((cfg0.win 11).blk t).view.emb (ix2 p k) = (ix2 (row t p) k : S50000x128.Idx) := by
  obtain ⟨-, -, -, -, -, -, -, -, -, -, -, -, -, -, -, -, -, e0, e1⟩ := idx_facts t
  refine funext fun a => Fin.ext ?_
  match a with
  | ⟨0, _⟩ => show win0_11.index t (0 : Fin 2) * 2000 + 1 * p.val = t.val * 2000 + p.val; rw [e0]; omega
  | ⟨1, _⟩ => show win0_11.index t (1 : Fin 2) * 128 + 1 * k.val = k.val; rw [e1]; omega

/-! ## The two arrays the region leaves, each as one function of the arrays it finds -/

/-- The hidden layer of the arrays the region finds. -/
def hidden (c : Dev nD) : Fin 50000 → Fin 256 → EReal :=
  hidOf (fun n k => V c main_v22 (ix2 n k)) (fun n k => V c main_arg0 (ix2 n k)) (fun j k => V c main_arg3 (ix2 j k))
    (fun j k => V c main_arg4 (ix2 j k)) (fun j => V c main_arg5 (ix1 j)) (fun j => V c main_arg6 (ix1 j))
    (fun j => V c main_arg7 (ix1 j)) (fun j => V c main_arg8 (ix1 j)) (fun j => V c main_arg9 (ix1 j))

/-- It as an array of 50000 rows of 256. -/
def hidArr (c : Dev nD) : S50000x256.Idx → Elt Ideal .bf16 := fun i => hidden V c (i 0) (i 1)

/-- Its rows against the rows of the second layer's neighbour weights, as an array of 50000 rows of 128. -/
def projArr (c : Dev nD) : S50000x128.Idx → Elt Ideal .f32 :=
  fun i => dotT (hidden V c (i 0)) (fun j => V c main_arg10 (ix2 (i 1) j))

/-- The body's hidden unit (p, j) at point t is the hidden layer at row 2000 · t + p. -/
theorem hid_block (c : Dev nD) (t : Fin cfg0.N) (p : Fin 2000) (j : Fin 256) :
    k0_pay2 (iblk0 (F := Ideal) V c 0 t) (iblk0 (F := Ideal) V c 1 t) (iblk0 (F := Ideal) V c 2 t) (iblk0 (F := Ideal) V c 3 t)
        (iblk0 (F := Ideal) V c 4 t) (iblk0 (F := Ideal) V c 5 t) (iblk0 (F := Ideal) V c 6 t) (iblk0 (F := Ideal) V c 7 t)
        (iblk0 (F := Ideal) V c 8 t) (ix2 p j)
      = hidden V c (row t p) j := by
  refine (pay2_apply (iblk0 (F := Ideal) V c 0 t) (iblk0 (F := Ideal) V c 1 t) (iblk0 (F := Ideal) V c 2 t)
    (iblk0 (F := Ideal) V c 3 t) (iblk0 (F := Ideal) V c 4 t) (iblk0 (F := Ideal) V c 5 t) (iblk0 (F := Ideal) V c 6 t)
    (iblk0 (F := Ideal) V c 7 t) (iblk0 (F := Ideal) V c 8 t) p j).trans ?_
  have e0 : (fun k => iblk0 (F := Ideal) V c 0 t (ix2 p k)) = fun k => V c main_v22 (ix2 (row t p) k) := funext fun k => read0 V c t p k
  have e1 : (fun k => iblk0 (F := Ideal) V c 1 t (ix2 p k)) = fun k => V c main_arg0 (ix2 (row t p) k) := funext fun k => read1 V c t p k
  have e2 : (fun k => iblk0 (F := Ideal) V c 2 t (ix2 j k)) = fun k => V c main_arg3 (ix2 j k) := funext fun k => read2 V c t j k
  have e3 : (fun k => iblk0 (F := Ideal) V c 3 t (ix2 j k)) = fun k => V c main_arg4 (ix2 j k) := funext fun k => read3 V c t j k
  rw [e0, e1, e2, e3, read4 V c t j, read5 V c t j, read6 V c t j, read7 V c t j, read8 V c t j]
  rfl

/-- WHAT POINT t WRITES BACK to the hidden array is block t of the hidden layer. -/
theorem flushed10_eq (c : Dev nD) (t : Fin cfg0.N) :
    (dat0 (F := Ideal) V c).flushed 10 t = ((cfg0.win 10).blk t).view.read (Elt Ideal) (hidArr V c) := by
  show (cfg0.win 10).cut (grid0.coords t) ((dat0 (F := Ideal) V c).after 10 t) = _
  rw [after0_10]
  unfold out0_10
  rw [View.canon_unit_zero hz2]
  simp only [View.ld_unit_zero (S := S2000x128) hz2, View.ld_unit_zero (S := S256x128) hz2, View.ld_unit_zero (S := S256) hz1]
  funext y
  obtain ⟨p, j, rfl⟩ : ∃ (p : Fin 2000) (j : Fin 256), y = ix2 p j := ⟨y 0, y 1, eq_ix2 y⟩
  show k0_pay2 (iblk0 (F := Ideal) V c 0 t) (iblk0 (F := Ideal) V c 1 t) (iblk0 (F := Ideal) V c 2 t) (iblk0 (F := Ideal) V c 3 t)
        (iblk0 (F := Ideal) V c 4 t) (iblk0 (F := Ideal) V c 5 t) (iblk0 (F := Ideal) V c 6 t) (iblk0 (F := Ideal) V c 7 t)
        (iblk0 (F := Ideal) V c 8 t) (ix2 p j)
      = hidArr V c (((cfg0.win 10).blk t).view.emb (ix2 p j))
  rw [emb10 t p j]
  exact hid_block V c t p j

/-- WHAT POINT t WRITES BACK to the projected array is block t of the projection of the hidden layer. -/
theorem flushed11_eq (c : Dev nD) (t : Fin cfg0.N) :
    (dat0 (F := Ideal) V c).flushed 11 t = ((cfg0.win 11).blk t).view.read (Elt Ideal) (projArr V c) := by
  show (cfg0.win 11).cut (grid0.coords t) ((dat0 (F := Ideal) V c).after 11 t) = _
  rw [after0_11]
  unfold out0_11
  rw [View.canon_unit_zero hz2]
  simp only [View.ld_unit_zero (S := S2000x128) hz2, View.ld_unit_zero (S := S256x128) hz2, View.ld_unit_zero (S := S256) hz1,
    View.ld_unit_zero (S := S128x256) hz2]
  funext y
  obtain ⟨p, k, rfl⟩ : ∃ (p : Fin 2000) (k : Fin 128), y = ix2 p k := ⟨y 0, y 1, eq_ix2 y⟩
  show k0_pay1 (k0_pay2 (iblk0 (F := Ideal) V c 0 t) (iblk0 (F := Ideal) V c 1 t) (iblk0 (F := Ideal) V c 2 t) (iblk0 (F := Ideal) V c 3 t)
        (iblk0 (F := Ideal) V c 4 t) (iblk0 (F := Ideal) V c 5 t) (iblk0 (F := Ideal) V c 6 t) (iblk0 (F := Ideal) V c 7 t)
        (iblk0 (F := Ideal) V c 8 t)) (iblk0 (F := Ideal) V c 9 t) (ix2 p k)
      = projArr V c (((cfg0.win 11).blk t).view.emb (ix2 p k))
  rw [emb11 t p k]
  refine (pay1_apply (k0_pay2 (iblk0 (F := Ideal) V c 0 t) (iblk0 (F := Ideal) V c 1 t) (iblk0 (F := Ideal) V c 2 t)
    (iblk0 (F := Ideal) V c 3 t) (iblk0 (F := Ideal) V c 4 t) (iblk0 (F := Ideal) V c 5 t) (iblk0 (F := Ideal) V c 6 t)
    (iblk0 (F := Ideal) V c 7 t) (iblk0 (F := Ideal) V c 8 t)) (iblk0 (F := Ideal) V c 9 t) p k).trans ?_
  exact congrArg₂ dotT (funext fun j => hid_block V c t p j) (funext fun j => read9 V c t k j)

/-! ## The blocks cover the arrays -/

/-- An index of the hidden array is in point t's block iff each coordinate is in the block's range on its axis. -/
theorem mem_blk10 (t : Fin cfg0.N) (i : S50000x256.Idx) :
    i ∈ ((cfg0.win 10).blk t).view.set ↔ ∀ a : Fin 2, win0_10.index t a * S2000x256.size a ≤ (i a).val ∧ (i a).val < win0_10.index t a * S2000x256.size a + S2000x256.size a := by
  show i ∈ ((View.whole main_v23_0).slice (win0_10.rect t)).set ↔ _
  rw [View.set_slice_whole, Rect.mem_set_unit]
  exact Iff.rfl

/-- The same for the projected array. -/
theorem mem_blk11 (t : Fin cfg0.N) (i : S50000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v23_1).slice (win0_11.rect t)).set ↔ _
  rw [View.set_slice_whole, Rect.mem_set_unit]
  exact Iff.rfl

/-- Row n of the hidden array is in the block of point n / 2000, and that point writes back. -/
theorem cover10 (i : S50000x256.Idx) : ∃ t : Fin cfg0.N, (cfg0.win 10).flush t = true ∧ i ∈ ((cfg0.win 10).blk t).view.set := by
  have hi0 : (i 0).val < 50000 := (i 0).isLt
  have hi1 : (i 1).val < 256 := (i 1).isLt
  refine ⟨⟨(i 0).val / 2000, by show (i 0).val / 2000 < 25; omega⟩, flush0_10 _, ?_⟩
  rw [mem_blk10]
  obtain ⟨-, -, -, -, -, -, -, -, -, -, -, -, -, -, -, e0, e1, -, -⟩ := idx_facts ⟨(i 0).val / 2000, by show (i 0).val / 2000 < 25; omega⟩
  intro a
  match a with
  | ⟨0, _⟩ => show win0_10.index _ (0 : Fin 2) * 2000 ≤ (i 0).val ∧ (i 0).val < win0_10.index _ (0 : Fin 2) * 2000 + 2000; rw [e0]; show (i 0).val / 2000 * 2000 ≤ (i 0).val ∧ (i 0).val < (i 0).val / 2000 * 2000 + 2000; omega
  | ⟨1, _⟩ => show win0_10.index _ (1 : Fin 2) * 256 ≤ (i 1).val ∧ (i 1).val < win0_10.index _ (1 : Fin 2) * 256 + 256; rw [e1]; omega

/-- Row n of the projected array is in the block of point n / 2000, and that point writes back. -/
theorem cover11 (i : S50000x128.Idx) : ∃ t : Fin cfg0.N, (cfg0.win 11).flush t = true ∧ i ∈ ((cfg0.win 11).blk t).view.set := by
  have hi0 : (i 0).val < 50000 := (i 0).isLt
  have hi1 : (i 1).val < 128 := (i 1).isLt
  refine ⟨⟨(i 0).val / 2000, by show (i 0).val / 2000 < 25; omega⟩, flush0_11 _, ?_⟩
  rw [mem_blk11]
  obtain ⟨-, -, -, -, -, -, -, -, -, -, -, -, -, -, -, -, -, e0, e1⟩ := idx_facts ⟨(i 0).val / 2000, by show (i 0).val / 2000 < 25; omega⟩
  intro a
  match a with
  | ⟨0, _⟩ => show win0_11.index _ (0 : Fin 2) * 2000 ≤ (i 0).val ∧ (i 0).val < win0_11.index _ (0 : Fin 2) * 2000 + 2000; rw [e0]; show (i 0).val / 2000 * 2000 ≤ (i 0).val ∧ (i 0).val < (i 0).val / 2000 * 2000 + 2000; omega
  | ⟨1, _⟩ => show win0_11.index _ (1 : Fin 2) * 128 ≤ (i 1).val ∧ (i 1).val < win0_11.index _ (1 : Fin 2) * 128 + 128; rw [e1]; omega

/-! ## The arrays after the region -/

/-- The hidden array after the region is the hidden layer. -/
theorem hid_array (c : Dev nD) : (dat0 (F := Ideal) V c).arrAt 10 cfg0.N = hidArr V c :=
  (dat0 (F := Ideal) V c).arrAt_eq_of_cover 10 (hidArr V c) (fun t _ => flushed10_eq V c t) cover10

/-- The projected array after the region is the hidden layer's rows against the second layer's neighbour weights. -/
theorem proj_array (c : Dev nD) : (dat0 (F := Ideal) V c).arrAt 11 cfg0.N = projArr V c :=
  (dat0 (F := Ideal) V c).arrAt_eq_of_cover 11 (projArr V c) (fun t _ => flushed11_eq V c t) cover11

/-- Entry (n, j) of the hidden array after the region. -/
theorem hid_final (c : Dev nD) (n : Fin 50000) (j : Fin 256) :
    (dat0 (F := Ideal) V c).arrAt 10 cfg0.N (ValueIdx.ix2 n j)
      = Cert.Sage.hidOf (fun n k => V c main_v22 (ix2 n k)) (fun n k => V c main_arg0 (ix2 n k)) (fun j k => V c main_arg3 (ix2 j k))
          (fun j k => V c main_arg4 (ix2 j k)) (fun j => V c main_arg5 (ix1 j)) (fun j => V c main_arg6 (ix1 j))
          (fun j => V c main_arg7 (ix1 j)) (fun j => V c main_arg8 (ix1 j)) (fun j => V c main_arg9 (ix1 j)) n j :=
  congrFun (hid_array V c) (ix2 n j)

/-- Entry (n, k) of the projected array after the region. -/
theorem hp_final (c : Dev nD) (n : Fin 50000) (k : Fin 128) :
    (dat0 (F := Ideal) V c).arrAt 11 cfg0.N (ValueIdx.ix2 n k)
      = Cert.Sage.dotT (fun j => Cert.Sage.hidOf (fun n k => V c main_v22 (ix2 n k)) (fun n k => V c main_arg0 (ix2 n k))
          (fun j k => V c main_arg3 (ix2 j k)) (fun j k => V c main_arg4 (ix2 j k)) (fun j => V c main_arg5 (ix1 j))
          (fun j => V c main_arg6 (ix1 j)) (fun j => V c main_arg7 (ix1 j)) (fun j => V c main_arg8 (ix1 j))
          (fun j => V c main_arg9 (ix1 j)) n j) (fun j => V c main_arg10 (ix2 k j)) :=
  congrFun (proj_array V c) (ix2 n k)

end Cert.KernelIdeal.Region0

end
-- ==== Proof.Region1.lean ====
/-
  The second graph layer's kernel read as one function of the arrays it finds.

  The grid has 25 points; point `t` is given rows 2000·t … 2000·t + 1999 of the projected neighbourhood mean and of the
  hidden layer, and the whole of `W2r` and of the bias, and writes the same rows of the output.  One entry of the body's
  result is the hidden row against a row of `W2r` (a matrix product into zero against the transposed weights, the
  roundings to the narrow format the identity on extended reals), plus the mean's entry, plus the bias entry
  (`pay_apply`).  Block row `p` of point `t` is array row 2000·t + p (`idx_facts`), so what point `t` writes back is block
  `t` of one whole-array function (`flushed_eq`); the 25 blocks tile the 50000 rows (`cover`), so the array ends at
  that function (`z_final`).
-/
import proofs.«170819_j39548058862204_2_alg».proof.Proof.Gen.KernelIdeal.Frame
import proofs.«170819_j39548058862204_2_alg».proof.Proof.Spec
import proofs.«170819_j39548058862204_2_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section
namespace Cert.KernelIdeal.Region1
open Cert.KernelIdeal Cert.KernelIdeal.Gen Idealize.ShloMosaic Idealize.ShloMosaic.ValueIdx Idealize.ShloMosaic.TcCoe Idealize.SL.Sem Cert.Sage
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- One entry of the body's result. -/
theorem pay_apply (v0 : Vec Ideal S2000x128 .f32) (v2 : Vec Ideal S2000x256 .bf16) (v4 : Vec Ideal S128x256 .f32) (v9 : Vec Ideal S128 .f32) (p : Fin 2000) (c : Fin 128) :
    k1_pay1 (F := Ideal) v0 v2 v4 v9 (ix2 p c) = dotT (fun j => v2 (ix2 p j)) (fun j => v4 (ix2 c j)) + v0 (ix2 p c) + v9 (ix1 c) := by
  unfold k1_pay1
  dsimp only
  show (matmul (F := Ideal) dot_S2000x256_S256x128_S2000x128_1_0_0_1_n_n none (shapeCast S2000x256 v2 shapeCasts_S2000x256_S2000x256)
          (transpose S256x128 [1, 0] (truncf (F := Ideal) FTy.bf16 v4 bitsLt_bf16_f32) transposes_S128x256_p1_0_S256x128) (constant (F := Ideal) S2000x128 FTy.f32 0#32) (ix2 p c)
        + shapeCast S2000x128 v0 shapeCasts_S2000x128_S2000x128 (ix2 p c))
      + broadcastTo S2000x128 (shapeCast S1x128 v9 shapeCasts_S128_S1x128) broadcasts_S1x128_S2000x128 (ix2 p c) = _
  rw [shapeCast_self, shapeCast_self, broadcastTo_1b_ab_apply, shapeCast_a_1a_apply]
  rw [show matmul (F := Ideal) dot_S2000x256_S256x128_S2000x128_1_0_0_1_n_n none v2
        (transpose S256x128 [1, 0] (truncf (F := Ideal) FTy.bf16 v4 bitsLt_bf16_f32) transposes_S128x256_p1_0_S256x128) (constant (F := Ideal) S2000x128 FTy.f32 0#32) (ix2 p c)
      = ∑ k : Fin 256, v2 (ix2 p k) * transpose S256x128 [1, 0] (truncf (F := Ideal) FTy.bf16 v4 bitsLt_bf16_f32) transposes_S128x256_p1_0_S256x128 (ix2 k c)
      from Cert.PlainDot.matmul_zero_apply dot_S2000x256_S256x128_S2000x128_1_0_0_1_n_n rfl rfl (fun _ _ => rfl) (fun _ _ => rfl) (fun _ _ => rfl) (fun _ _ => rfl) none _ _ p c]
  unfold dotT
  congr 2
  refine Finset.sum_congr rfl fun k _ => ?_
  rw [transpose_ix2_apply]
  rfl

/-- The whole output array as one function of the arrays the region finds: row `n` of the hidden layer against row `c` of
    `W2r`, plus the projected neighbourhood mean, plus the bias. -/
def g (A0 : S50000x128.Idx → EReal) (A1 : S50000x256.Idx → EReal) (A2 : S128x256.Idx → EReal) (A3 : S128.Idx → EReal)
    (n : Fin 50000) (c : Fin 128) : EReal :=
  dotT (fun j => A1 (ix2 n j)) (fun j => A2 (ix2 c j)) + A0 (ix2 n c) + A3 (ix1 c)

def G (A0 : S50000x128.Idx → EReal) (A1 : S50000x256.Idx → EReal) (A2 : S128x256.Idx → EReal) (A3 : S128.Idx → EReal) :
    S50000x128.Idx → EReal := fun i => g A0 A1 A2 A3 (i 0) (i 1)

/-- A block entry is the whole-array function at the entry's place in the array, given where the blocks sit. -/
theorem point_eq (x0 : Vec Ideal S2000x128 .f32) (x1 : Vec Ideal S2000x256 .bf16) (x2 : Vec Ideal S128x256 .f32) (x3 : Vec Ideal S128 .f32)
    (A0 : S50000x128.Idx → EReal) (A1 : S50000x256.Idx → EReal) (A2 : S128x256.Idx → EReal) (A3 : S128.Idx → EReal)
    (p : Fin 2000) (q : Fin 128) (n : Fin 50000)
    (h0 : x0 (ix2 p q) = A0 (ix2 n q)) (h1 : ∀ j : Fin 256, x1 (ix2 p j) = A1 (ix2 n j)) (h2 : x2 = A2) (h3 : x3 = A3) :
    k1_pay1 (F := Ideal) x0 x1 x2 x3 (ix2 p q) = g A0 A1 A2 A3 n q := by
  rw [pay_apply, h0, h2, h3, show (fun j => x1 (ix2 p j)) = (fun j => A1 (ix2 n j)) from funext h1]
  rfl

/-- Where the blocks sit: the row-blocked windows move with the point, the weight windows stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

theorem flushed_eq (c : Dev nD) (t : Fin cfg1.N) :
    (dat1 (F := Ideal) V c).flushed 4 t = ((cfg1.win 4).blk t).view.read (Elt Ideal) (G (V c main_v35) (V c main_v23_0) (V c main_arg11) (V c main_arg12)) := by
  show (cfg1.win 4).cut (grid1.coords t) ((dat1 V c).after 4 t) = _
  rw [after1_4]
  unfold out1_4
  rw [View.canon_unit_zero hz2]
  simp only [View.ld_unit_zero (S := S2000x128) hz2, View.ld_unit_zero (S := S2000x256) hz2, View.ld_unit_zero (S := S128x256) hz2, View.ld_unit_zero (S := S128) hz1]
  obtain ⟨e00, e01, e10, e11, e20, e21, e30, e40, e41⟩ := idx_facts t
  have ht : t.val < 25 := t.isLt
  funext y
  obtain ⟨p, q, rfl⟩ : ∃ (p : Fin 2000) (q : Fin 128), y = ix2 p q := ⟨y 0, y 1, eq_ix2 y⟩
  show k1_pay1 (F := Ideal) (iblk1 V c 0 t) (iblk1 V c 1 t) (iblk1 V c 2 t) (iblk1 V c 3 t) (ix2 p q)
    = G (V c main_v35) (V c main_v23_0) (V c main_arg11) (V c main_arg12) (((cfg1.win 4).blk t).view.emb (ix2 p q))
  refine (point_eq (iblk1 V c 0 t) (iblk1 V c 1 t) (iblk1 V c 2 t) (iblk1 V c 3 t) (V c main_v35) (V c main_v23_0) (V c main_arg11) (V c main_arg12)
    p q ⟨t.val * 2000 + p.val, by omega⟩ ?_ ?_ ?_ ?_).trans ?_
  · show V c main_v35 (((cfg1.win 0).blk t).view.emb (ix2 p q)) = _
    refine congrArg _ (funext fun a => Fin.ext ?_)
    match a with
    | ⟨0, _⟩ => show win1_0.index t (0 : Fin 2) * 2000 + 1 * p.val = t.val * 2000 + p.val; rw [e00]; omega
    | ⟨1, _⟩ => show win1_0.index t (1 : Fin 2) * 128 + 1 * q.val = q.val; rw [e01]; omega
  · intro j
    show V c main_v23_0 (((cfg1.win 1).blk t).view.emb (ix2 p j)) = _
    refine congrArg _ (funext fun a => Fin.ext ?_)
    match a with
    | ⟨0, _⟩ => show win1_1.index t (0 : Fin 2) * 2000 + 1 * p.val = t.val * 2000 + p.val; rw [e10]; omega
    | ⟨1, _⟩ => show win1_1.index t (1 : Fin 2) * 256 + 1 * j.val = j.val; rw [e11]; omega
  · funext y
    show V c main_arg11 (((cfg1.win 2).blk t).view.emb y) = V c main_arg11 y
    refine congrArg _ (funext fun a => Fin.ext ?_)
    match a with
    | ⟨0, _⟩ => show win1_2.index t (0 : Fin 2) * 128 + 1 * (y 0).val = (y 0).val; rw [e20]; omega
    | ⟨1, _⟩ => show win1_2.index t (1 : Fin 2) * 256 + 1 * (y 1).val = (y 1).val; rw [e21]; omega
  · funext y
    show V c main_arg12 (((cfg1.win 3).blk t).view.emb y) = V c main_arg12 y
    refine congrArg _ (funext fun a => Fin.ext ?_)
    match a with
    | ⟨0, _⟩ => show win1_3.index t (0 : Fin 1) * 128 + 1 * (y 0).val = (y 0).val; rw [e30]; omega
  · have hn : (((cfg1.win 4).blk t).view.emb (ix2 p q)) 0 = (⟨t.val * 2000 + p.val, by omega⟩ : Fin 50000) :=
      Fin.ext (show win1_4.index t (0 : Fin 2) * 2000 + 1 * p.val = t.val * 2000 + p.val by rw [e40]; omega)
    have hq : (((cfg1.win 4).blk t).view.emb (ix2 p q)) 1 = q :=
      Fin.ext (show win1_4.index t (1 : Fin 2) * 128 + 1 * q.val = q.val by rw [e41]; omega)
    exact (congrArg₂ (g (V c main_v35) (V c main_v23_0) (V c main_arg11) (V c main_arg12)) hn hq).symm

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v36).slice (win1_4.rect t)).set ↔ _
  rw [View.set_slice_whole, Rect.mem_set_unit]
  exact Iff.rfl

/-- Every row is in the block of the point its number divided by the block height names. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  refine ⟨⟨(i 0).val / 2000, by show (i 0).val / 2000 < 25; omega⟩, flush1_4 _, ?_⟩
  rw [mem_blk]
  obtain ⟨-, -, -, -, -, -, -, e40, e41⟩ := idx_facts ⟨(i 0).val / 2000, by show (i 0).val / 2000 < 25; omega⟩
  intro a
  match a with
  | ⟨0, _⟩ => show win1_4.index _ (0 : Fin 2) * 2000 ≤ (i 0).val ∧ (i 0).val < win1_4.index _ (0 : Fin 2) * 2000 + 2000; rw [e40]; show (i 0).val / 2000 * 2000 ≤ (i 0).val ∧ (i 0).val < (i 0).val / 2000 * 2000 + 2000; omega
  | ⟨1, _⟩ => show win1_4.index _ (1 : Fin 2) * 128 ≤ (i 1).val ∧ (i 1).val < win1_4.index _ (1 : Fin 2) * 128 + 128; rw [e41]; omega

/-- The encoder's output array after the region: at (n, c), the hidden row `n` against row `c` of `W2r`, plus the
    projected neighbourhood mean there, plus the bias. -/
theorem z_final (c : Dev nD) (n : Fin 50000) (k : Fin 128) :
    (dat1 (F := Ideal) V c).arrAt 4 cfg1.N (ix2 n k)
      = dotT (fun j => V c main_v23_0 (ix2 n j)) (fun j => V c main_arg11 (ix2 k j)) + V c main_v35 (ix2 n k) + V c main_arg12 (ix1 k) := by
  rw [(dat1 (F := Ideal) V c).arrAt_eq_of_cover 4 (G (V c main_v35) (V c main_v23_0) (V c main_arg11) (V c main_arg12)) (fun t _ => flushed_eq V c t) cover]
  rfl

end Cert.KernelIdeal.Region1
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.Region2.lean ====
/-
  The link scorer's region of the idealized kernel, read as the mathematics.

  The region walks the 503808 joined link rows in 123 blocks of 4096 rows.  For a block it multiplies the rows by the
  first weights (transposed), adds the first bias, normalises by the stored statistics and rectifies — 256 units per
  row —; multiplies those by the second weights (transposed), adds the second bias, normalises and rectifies — 128 units
  per row —; and sums each row's units against the last weights, plus the last bias.  Over the extended reals every
  change of float format is the identity and each matrix product into the zero accumulator is the plain sum over the
  contracted coordinate, so what the body stores at row p of a block is the three-layer link scorer of that row
  (`out_apply`).  Block t of the link rows is rows 4096·t … 4096·t + 4095 of the array, every other input block is its
  whole array, and the 123 output blocks tile the scores array (123 · 4096 = 503808); so after the region the scores
  array holds, at every position r, the link scorer of row r of the link rows (`score_final`).
-/
import proofs.«170819_j39548058862204_2_alg».proof.Proof.Gen.KernelIdeal.Frame
import proofs.«170819_j39548058862204_2_alg».proof.Proof.Spec
import proofs.«170819_j39548058862204_2_alg».proof.Proof.LibPlainDot
import proofs.«170819_j39548058862204_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

/-! ## The two products' dimension numbers: one contracted axis of extent 256, rows against rows, columns against columns -/

/-- The first product's dimension numbers: 4096 × 256 against 256 × 256. -/
abbrev D1 : DotDims S4096x256 S256x256 S4096x256 := dot_S4096x256_S256x256_S4096x256_1_0_0_1_n_n
/-- The second product's: 4096 × 256 against 256 × 128. -/
abbrev D2 : DotDims S4096x256 S256x128 S4096x128 := dot_S4096x256_S256x128_S4096x128_1_0_0_1_n_n

theorem d1_rank : D1.contr.rank = 1 := rfl
theorem d1_size : D1.contr.size ⟨0, by decide⟩ = 256 := rfl
theorem d1_l0 (i : S4096x256.Idx) (q : D1.contr.Idx) : (D1.lhsIdx i q 0).val = (i 0).val := by
  unfold DotDims.lhsIdx
  rw [dif_neg (show ¬(0 : Fin S4096x256.rank) ∈ D1.lhsBatch by decide), dif_pos (show (0 : Fin S4096x256.rank) ∈ D1.lhsNonContracting by decide)]
  rfl
theorem d1_l1 (i : S4096x256.Idx) (q : D1.contr.Idx) : (D1.lhsIdx i q 1).val = (q ⟨0, by decide⟩).val :=
  D1.lhsIdx_val_of_single rfl i q
theorem d1_r0 (i : S4096x256.Idx) (q : D1.contr.Idx) : (D1.rhsIdx i q 0).val = (q ⟨0, by decide⟩).val :=
  D1.rhsIdx_val_of_single rfl i q
theorem d1_r1 (i : S4096x256.Idx) (q : D1.contr.Idx) : (D1.rhsIdx i q 1).val = (i 1).val := by
  unfold DotDims.rhsIdx
  rw [dif_neg (show ¬(1 : Fin S256x256.rank) ∈ D1.rhsBatch by decide), dif_pos (show (1 : Fin S256x256.rank) ∈ D1.rhsNonContracting by decide)]
  rfl

theorem d2_rank : D2.contr.rank = 1 := rfl
theorem d2_size : D2.contr.size ⟨0, by decide⟩ = 256 := rfl
theorem d2_l0 (i : S4096x128.Idx) (q : D2.contr.Idx) : (D2.lhsIdx i q 0).val = (i 0).val := by
  unfold DotDims.lhsIdx
  rw [dif_neg (show ¬(0 : Fin S4096x256.rank) ∈ D2.lhsBatch by decide), dif_pos (show (0 : Fin S4096x256.rank) ∈ D2.lhsNonContracting by decide)]
  rfl
theorem d2_l1 (i : S4096x128.Idx) (q : D2.contr.Idx) : (D2.lhsIdx i q 1).val = (q ⟨0, by decide⟩).val :=
  D2.lhsIdx_val_of_single rfl i q
theorem d2_r0 (i : S4096x128.Idx) (q : D2.contr.Idx) : (D2.rhsIdx i q 0).val = (q ⟨0, by decide⟩).val :=
  D2.rhsIdx_val_of_single rfl i q
theorem d2_r1 (i : S4096x128.Idx) (q : D2.contr.Idx) : (D2.rhsIdx i q 1).val = (i 1).val := by
  unfold DotDims.rhsIdx
  rw [dif_neg (show ¬(1 : Fin S256x128.rank) ∈ D2.rhsBatch by decide), dif_pos (show (1 : Fin S256x128.rank) ∈ D2.rhsNonContracting by decide)]
  rfl

/-! ## Stored vectors spread over the rows; normalisation and the rectifier at an entry -/

/-- A vector of m numbers spread over the n rows of a matrix reads, at (p, j), its entry j. -/
theorem spread_apply {n m : ℕ} (v : Vec Ideal ⟨1, ![m]⟩ .f32)
    (hc : (⟨1, ![m]⟩ : Shape).ShapeCasts ⟨2, ![1, m]⟩) (hb : (⟨2, ![1, m]⟩ : Shape).Broadcasts ⟨2, ![n, m]⟩) (p : Fin n) (j : Fin m) :
    broadcastTo ⟨2, ![n, m]⟩ (shapeCast ⟨2, ![1, m]⟩ v hc) hb (ix2 p j) = v (ix1 j) :=
  (broadcastTo_1b_ab_apply _ hb p j).trans (shapeCast_a_1a_apply v hc 0 j)

/-- Normalisation by stored statistics spread over the rows, then the rectifier, read at (p, j). -/
theorem normalise_apply {n m : ℕ} (X : FVec Ideal ⟨2, ![n, m]⟩ .f32) (g be mu var : Vec Ideal ⟨1, ![m]⟩ .f32)
    (hc : (⟨1, ![m]⟩ : Shape).ShapeCasts ⟨2, ![1, m]⟩) (hb : (⟨2, ![1, m]⟩ : Shape).Broadcasts ⟨2, ![n, m]⟩) (p : Fin n) (j : Fin m) :
    maximumf (addf (mulf (mulf (subf X (broadcastTo ⟨2, ![n, m]⟩ (shapeCast ⟨2, ![1, m]⟩ mu hc) hb))
        (broadcastTo ⟨2, ![n, m]⟩ (rsqrt (addf (shapeCast ⟨2, ![1, m]⟩ var hc) (broadcast ⟨2, ![1, m]⟩ (Scalar.ofBits (F := Ideal) .f32 0x3727C5AC#32)))) hb))
        (broadcastTo ⟨2, ![n, m]⟩ (shapeCast ⟨2, ![1, m]⟩ g hc) hb)) (broadcastTo ⟨2, ![n, m]⟩ (shapeCast ⟨2, ![1, m]⟩ be hc) hb))
      (broadcast ⟨2, ![n, m]⟩ (Scalar.ofBits (F := Ideal) .f32 0x00000000#32)) (ix2 p j)
      = Sage.relu (Sage.bn (X (ix2 p j)) (g (ix1 j)) (be (ix1 j)) (mu (ix1 j)) (var (ix1 j))) := by
  rw [maximumf_apply, addf_apply, mulf_apply, mulf_apply, subf_apply, broadcast_apply,
    spread_apply mu hc hb p j, spread_apply g hc hb p j, spread_apply be hc hb p j, broadcastTo_1b_ab_apply _ hb p j]
  show max ((X (ix2 p j) - mu (ix1 j)) * Ideal.rsqrt (shapeCast ⟨2, ![1, m]⟩ var hc (ix2 (0 : Fin 1) j) + Ideal.ofBits .f32 0x3727C5AC#32) * g (ix1 j) + be (ix1 j))
      (Ideal.ofBits .f32 0x00000000#32) = _
  rw [shapeCast_a_1a_apply var hc 0 j, Ideal.ofBits_zero_f32]
  rfl

/-! ## The two payloads read at an index -/

/-- The first layer's product at (p, j): link row p against row j of the first weights. -/
theorem product1_apply (x0 : FVec Ideal S4096x256 .bf16) (x1 : FVec Ideal S256x256 .f32) (p : Fin 4096) (j : Fin 256) :
    matmul (F := Ideal) D1 none (shapeCast S4096x256 x0 shapeCasts_S4096x256_S4096x256)
        (transpose S256x256 [1, 0] (truncf (F := Ideal) (φ := .f32) .bf16 x1 bitsLt_bf16_f32) transposes_S256x256_p1_0_S256x256)
        (constant (F := Ideal) S4096x256 .f32 0x00000000#32) (ix2 p j)
      = Sage.dotT (fun k => x0 (ix2 p k)) (fun k => x1 (ix2 j k)) := by
  refine (Cert.PlainDot.matmul_zero_apply D1 d1_rank d1_size d1_l0 d1_l1 d1_r0 d1_r1 none _ _ p j).trans ?_
  unfold Sage.dotT
  refine Finset.sum_congr rfl fun k _ => ?_
  exact congrArg₂ (· * ·) (congrFun (shapeCast_self x0 shapeCasts_S4096x256_S4096x256) (ix2 p k))
    ((transpose_ix2_apply (truncf (F := Ideal) (φ := .f32) .bf16 x1 bitsLt_bf16_f32) transposes_S256x256_p1_0_S256x256 k j).trans
      (truncf_apply (s := S256x256) (φ := .f32) (ψ := .bf16) x1 bitsLt_bf16_f32 (ix2 j k)))

/-- The hidden block at (p, c): the second layer's affine map of the first layer's 256 units of link row p. -/
theorem hidden_apply (x0 : Vec Ideal S4096x256 .bf16) (x1 : Vec Ideal S256x256 .f32) (x2 x3 x4 x5 x6 : Vec Ideal S256 .f32)
    (x7 : Vec Ideal S128x256 .f32) (x8 : Vec Ideal S128 .f32) (p : Fin 4096) (c : Fin 128) :
    k2_pay2 x0 x1 x2 x3 x4 x5 x6 x7 x8 (ix2 p c)
      = Sage.dotT (fun j => Sage.unit (fun k => x0 (ix2 p k)) (fun k => x1 (ix2 j k)) (x2 (ix1 j)) (x3 (ix1 j)) (x4 (ix1 j)) (x5 (ix1 j)) (x6 (ix1 j)))
          (fun j => x7 (ix2 c j)) + x8 (ix1 c) := by
  unfold k2_pay2
  dsimp only
  refine (addf_apply _ _ _).trans ?_
  refine congrArg₂ (· + ·) ?_ (spread_apply x8 _ _ p c)
  refine (Cert.PlainDot.matmul_zero_apply D2 d2_rank d2_size d2_l0 d2_l1 d2_r0 d2_r1 none _ _ p c).trans ?_
  unfold Sage.dotT
  refine Finset.sum_congr rfl fun j _ => ?_
  refine congrArg₂ (· * ·) ?_ ?_
  · refine Eq.trans (truncf_apply (s := S4096x256) (φ := .f32) (ψ := .bf16) _ bitsLt_bf16_f32 (ix2 p j)) ?_
    refine (normalise_apply _ x3 x4 x5 x6 shapeCasts_S256_S1x256 broadcasts_S1x256_S4096x256 p j).trans ?_
    unfold Sage.unit
    refine congrArg (fun v => Sage.relu (Sage.bn v (x3 (ix1 j)) (x4 (ix1 j)) (x5 (ix1 j)) (x6 (ix1 j)))) ?_
    refine (addf_apply _ _ _).trans ?_
    exact congrArg₂ (· + ·) (product1_apply x0 x1 p j) (spread_apply x2 _ _ p j)
  · exact (transpose_ix2_apply (truncf (F := Ideal) (φ := .f32) .bf16 x7 bitsLt_bf16_f32) transposes_S128x256_p1_0_S256x128 j c).trans
      (truncf_apply (s := S128x256) (φ := .f32) (ψ := .bf16) x7 bitsLt_bf16_f32 (ix2 c j))

/-- The stored scores at p, from a hidden block y: the last layer's row sum over the 128 normalised, rectified units. -/
theorem scored_apply (y : FVec Ideal S4096x128 .f32) (x9 x10 x11 x12 : Vec Ideal S128 .f32) (x13 : Vec Ideal S1x128 .f32)
    (x14 : Vec Ideal S1 .f32) (p : Fin 4096) :
    k2_pay1 y x9 x10 x11 x12 x13 x14 (ix1 p)
      = Sage.dotT (fun c => Sage.relu (Sage.bn (y (ix2 p c)) (x9 (ix1 c)) (x10 (ix1 c)) (x11 (ix1 c)) (x12 (ix1 c))))
          (fun c => x13 (ix2 (0 : Fin 1) c)) + x14 (ix1 (0 : Fin 1)) := by
  unfold k2_pay1
  dsimp only
  refine (addf_apply _ _ _).trans ?_
  refine congrArg₂ (· + ·) ?_ ?_
  · refine (Cert.LibColumns.rowSum_apply _ _ _ _ _ p).trans ?_
    unfold Sage.dotT
    refine Finset.sum_congr rfl fun c _ => ?_
    refine (mulf_apply _ _ _).trans ?_
    exact congrArg₂ (· * ·) (normalise_apply y x9 x10 x11 x12 shapeCasts_S128_S1x128 broadcasts_S1x128_S4096x128 p c)
      (broadcastTo_1b_ab_apply x13 broadcasts_S1x128_S4096x128 p c)
  · refine broadcastTo_apply x14 _ (ix1 p) (ix1 (0 : Fin 1)) fun ax => ?_
    match ax with
    | ⟨0, _⟩ => rfl

/-- THE BODY AT ROW p: what the body stores at position p is the link scorer of the block's row p. -/
theorem out_apply (x0 : Vec Ideal S4096x256 .bf16) (x1 : Vec Ideal S256x256 .f32) (x2 x3 x4 x5 x6 : Vec Ideal S256 .f32)
    (x7 : Vec Ideal S128x256 .f32) (x8 x9 x10 x11 x12 : Vec Ideal S128 .f32) (x13 : Vec Ideal S1x128 .f32) (x14 : Vec Ideal S1 .f32)
    (p : Fin 4096) :
    k2_pay1 (k2_pay2 x0 x1 x2 x3 x4 x5 x6 x7 x8) x9 x10 x11 x12 x13 x14 (ix1 p)
      = Sage.score (fun j k => x1 (ix2 j k)) (fun j => x2 (ix1 j)) (fun j => x3 (ix1 j)) (fun j => x4 (ix1 j)) (fun j => x5 (ix1 j)) (fun j => x6 (ix1 j))
          (fun c j => x7 (ix2 c j)) (fun c => x8 (ix1 c)) (fun c => x9 (ix1 c)) (fun c => x10 (ix1 c)) (fun c => x11 (ix1 c)) (fun c => x12 (ix1 c))
          (fun k => x13 (ix2 (0 : Fin 1) k)) (x14 (ix1 (0 : Fin 1))) (fun k => x0 (ix2 p k)) :=
  (scored_apply _ x9 x10 x11 x12 x13 x14 p).trans
    (congrArg (fun f => Sage.dotT f (fun c => x13 (ix2 (0 : Fin 1) c)) + x14 (ix1 (0 : Fin 1)))
      (funext fun c => congrArg (fun v => Sage.relu (Sage.bn v (x9 (ix1 c)) (x10 (ix1 c)) (x11 (ix1 c)) (x12 (ix1 c))))
        (hidden_apply x0 x1 x2 x3 x4 x5 x6 x7 x8 p c)))

variable (V : (c : Dev nD) → (b : Ref sig .tc) → Buf (Elt Ideal) ((c : Thread nD τ).loc b))

/-! ## The windows' blocks as rows of the arrays the region finds -/

theorem hz1 : (![0] : Fin 1 → Nat) = fun _ => 0 := funext fun a => by fin_cases a; rfl
theorem hz2 : (![0, 0] : Fin 2 → Nat) = fun _ => 0 := funext fun a => by fin_cases a <;> rfl

/-- The windows' index maps, decided once over the 123 grid points: the link rows and the scores move with the point,
    every other window stays on its whole array. -/
theorem idx_facts : ∀ t : Fin cfg2.N, win2_0.index t (0 : Fin 2) = t.val ∧ win2_0.index t (1 : Fin 2) = 0
    ∧ win2_15.index t (0 : Fin 1) = t.val
    ∧ win2_1.index t (0 : Fin 2) = 0 ∧ win2_1.index t (1 : Fin 2) = 0
    ∧ win2_2.index t (0 : Fin 1) = 0 ∧ win2_3.index t (0 : Fin 1) = 0 ∧ win2_4.index t (0 : Fin 1) = 0
    ∧ win2_5.index t (0 : Fin 1) = 0 ∧ win2_6.index t (0 : Fin 1) = 0
    ∧ win2_7.index t (0 : Fin 2) = 0 ∧ win2_7.index t (1 : Fin 2) = 0
    ∧ win2_8.index t (0 : Fin 1) = 0 ∧ win2_9.index t (0 : Fin 1) = 0 ∧ win2_10.index t (0 : Fin 1) = 0
    ∧ win2_11.index t (0 : Fin 1) = 0 ∧ win2_12.index t (0 : Fin 1) = 0
    ∧ win2_13.index t (0 : Fin 2) = 0 ∧ win2_13.index t (1 : Fin 2) = 0
    ∧ win2_14.index t (0 : Fin 1) = 0 :=
  (by decide +kernel : ∀ t : Fin grid2.N, _)

/-- Row p of the link rows' block at point t is row 4096·t + p of the array. -/
theorem rows_block (c : Dev nD) (t : Fin cfg2.N) (p : Fin 4096) (k : Fin 256) (r : Fin 503808) (hr : r.val = 4096 * t.val + p.val) :
    (iblk2 V c 0 t : Vec Ideal S4096x256 .bf16) (ix2 p k) = (V c main_v57 : S503808x256.Idx → EReal) (ix2 r k) := by
  obtain ⟨e0, e1, -⟩ := idx_facts t
  unfold iblk2
  rw [View.read_apply]
  show V c main_v57 _ = V c main_v57 _
  congr 1
  funext a
  apply Fin.ext
  match a with
  | ⟨0, _⟩ => show win2_0.index t (0 : Fin 2) * 4096 + 1 * p.val = r.val; rw [e0, hr]; omega
  | ⟨1, _⟩ => show win2_0.index t (1 : Fin 2) * 256 + 1 * k.val = k.val; rw [e1]; omega

/-- The first weights' block is the whole array. -/
theorem block1 (c : Dev nD) (t : Fin cfg2.N) (j k : Fin 256) :
    (iblk2 V c 1 t : Vec Ideal S256x256 .f32) (ix2 j k) = (V c main_arg13 : S256x256.Idx → EReal) (ix2 j k) := by
  obtain ⟨-, -, -, e0, e1, -⟩ := idx_facts t
  unfold iblk2
  rw [View.read_apply]
  show V c main_arg13 _ = V c main_arg13 _
  congr 1
  funext a
  apply Fin.ext
  match a with
  | ⟨0, _⟩ => show win2_1.index t (0 : Fin 2) * 256 + 1 * j.val = j.val; rw [e0]; omega
  | ⟨1, _⟩ => show win2_1.index t (1 : Fin 2) * 256 + 1 * k.val = k.val; rw [e1]; omega

/-- The first bias's block is the whole vector. -/
theorem block2 (c : Dev nD) (t : Fin cfg2.N) (j : Fin 256) :
    (iblk2 V c 2 t : Vec Ideal S256 .f32) (ix1 j) = (V c main_arg14 : S256.Idx → EReal) (ix1 j) := by
  obtain ⟨-, -, -, -, -, e, -⟩ := idx_facts t
  unfold iblk2
  rw [View.read_apply]
  show V c main_arg14 _ = V c main_arg14 _
  congr 1
  funext a
  apply Fin.ext
  match a with
  | ⟨0, _⟩ => show win2_2.index t (0 : Fin 1) * 256 + 1 * j.val = j.val; rw [e]; omega

/-- The first scale's block is the whole vector. -/
theorem block3 (c : Dev nD) (t : Fin cfg2.N) (j : Fin 256) :
    (iblk2 V c 3 t : Vec Ideal S256 .f32) (ix1 j) = (V c main_arg15 : S256.Idx → EReal) (ix1 j) := by
  obtain ⟨-, -, -, -, -, -, e, -⟩ := idx_facts t
  unfold iblk2
  rw [View.read_apply]
  show V c main_arg15 _ = V c main_arg15 _
  congr 1
  funext a
  apply Fin.ext
  match a with
  | ⟨0, _⟩ => show win2_3.index t (0 : Fin 1) * 256 + 1 * j.val = j.val; rw [e]; omega

/-- The first shift's block is the whole vector. -/
theorem block4 (c : Dev nD) (t : Fin cfg2.N) (j : Fin 256) :
    (iblk2 V c 4 t : Vec Ideal S256 .f32) (ix1 j) = (V c main_arg16 : S256.Idx → EReal) (ix1 j) := by
  obtain ⟨-, -, -, -, -, -, -, e, -⟩ := idx_facts t
  unfold iblk2
  rw [View.read_apply]
  show V c main_arg16 _ = V c main_arg16 _
  congr 1
  funext a
  apply Fin.ext
  match a with
  | ⟨0, _⟩ => show win2_4.index t (0 : Fin 1) * 256 + 1 * j.val = j.val; rw [e]; omega

/-- The first mean's block is the whole vector. -/
theorem block5 (c : Dev nD) (t : Fin cfg2.N) (j : Fin 256) :
    (iblk2 V c 5 t : Vec Ideal S256 .f32) (ix1 j) = (V c main_arg17 : S256.Idx → EReal) (ix1 j) := by
  obtain ⟨-, -, -, -, -, -, -, -, e, -⟩ := idx_facts t
  unfold iblk2
  rw [View.read_apply]
  show V c main_arg17 _ = V c main_arg17 _
  congr 1
  funext a
  apply Fin.ext
  match a with
  | ⟨0, _⟩ => show win2_5.index t (0 : Fin 1) * 256 + 1 * j.val = j.val; rw [e]; omega

/-- The first variance's block is the whole vector. -/
theorem block6 (c : Dev nD) (t : Fin cfg2.N) (j : Fin 256) :
    (iblk2 V c 6 t : Vec Ideal S256 .f32) (ix1 j) = (V c main_arg18 : S256.Idx → EReal) (ix1 j) := by
  obtain ⟨-, -, -, -, -, -, -, -, -, e, -⟩ := idx_facts t
  unfold iblk2
  rw [View.read_apply]
  show V c main_arg18 _ = V c main_arg18 _
  congr 1
  funext a
  apply Fin.ext
  match a with
  | ⟨0, _⟩ => show win2_6.index t (0 : Fin 1) * 256 + 1 * j.val = j.val; rw [e]; omega

/-- The second bias's block is the whole vector. -/
theorem block8 (c : Dev nD) (t : Fin cfg2.N) (j : Fin 128) :
    (iblk2 V c 8 t : Vec Ideal S128 .f32) (ix1 j) = (V c main_arg20 : S128.Idx → EReal) (ix1 j) := by
  obtain ⟨-, -, -, -, -, -, -, -, -, -, -, -, e, -⟩ := idx_facts t
  unfold iblk2
  rw [View.read_apply]
  show V c main_arg20 _ = V c main_arg20 _
  congr 1
  funext a
  apply Fin.ext
  match a with
  | ⟨0, _⟩ => show win2_8.index t (0 : Fin 1) * 128 + 1 * j.val = j.val; rw [e]; omega

/-- The second scale's block is the whole vector. -/
theorem block9 (c : Dev nD) (t : Fin cfg2.N) (j : Fin 128) :
    (iblk2 V c 9 t : Vec Ideal S128 .f32) (ix1 j) = (V c main_arg21 : S128.Idx → EReal) (ix1 j) := by
  obtain ⟨-, -, -, -, -, -, -, -, -, -, -, -, -, e, -⟩ := idx_facts t
  unfold iblk2
  rw [View.read_apply]
  show V c main_arg21 _ = V c main_arg21 _
  congr 1
  funext a
  apply Fin.ext
  match a with
  | ⟨0, _⟩ => show win2_9.index t (0 : Fin 1) * 128 + 1 * j.val = j.val; rw [e]; omega

/-- The second shift's block is the whole vector. -/
theorem block10 (c : Dev nD) (t : Fin cfg2.N) (j : Fin 128) :
    (iblk2 V c 10 t : Vec Ideal S128 .f32) (ix1 j) = (V c main_arg22 : S128.Idx → EReal) (ix1 j) := by
  obtain ⟨-, -, -, -, -, -, -, -, -, -, -, -, -, -, e, -⟩ := idx_facts t
  unfold iblk2
  rw [View.read_apply]
  show V c main_arg22 _ = V c main_arg22 _
  congr 1
  funext a
  apply Fin.ext
  match a with
  | ⟨0, _⟩ => show win2_10.index t (0 : Fin 1) * 128 + 1 * j.val = j.val; rw [e]; omega

/-- The second mean's block is the whole vector. -/
theorem block11 (c : Dev nD) (t : Fin cfg2.N) (j : Fin 128) :
    (iblk2 V c 11 t : Vec Ideal S128 .f32) (ix1 j) = (V c main_arg23 : S128.Idx → EReal) (ix1 j) := by
  obtain ⟨-, -, -, -, -, -, -, -, -, -, -, -, -, -, -, e, -⟩ := idx_facts t
  unfold iblk2
  rw [View.read_apply]
  show V c main_arg23 _ = V c main_arg23 _
  congr 1
  funext a
  apply Fin.ext
  match a with
  | ⟨0, _⟩ => show win2_11.index t (0 : Fin 1) * 128 + 1 * j.val = j.val; rw [e]; omega

/-- The second variance's block is the whole vector. -/
theorem block12 (c : Dev nD) (t : Fin cfg2.N) (j : Fin 128) :
    (iblk2 V c 12 t : Vec Ideal S128 .f32) (ix1 j) = (V c main_arg24 : S128.Idx → EReal) (ix1 j) := by
  obtain ⟨-, -, -, -, -, -, -, -, -, -, -, -, -, -, -, -, e, -⟩ := idx_facts t
  unfold iblk2
  rw [View.read_apply]
  show V c main_arg24 _ = V c main_arg24 _
  congr 1
  funext a
  apply Fin.ext
  match a with
  | ⟨0, _⟩ => show win2_12.index t (0 : Fin 1) * 128 + 1 * j.val = j.val; rw [e]; omega

/-- The last bias's block is the whole vector. -/
theorem block14 (c : Dev nD) (t : Fin cfg2.N) (j : Fin 1) :
    (iblk2 V c 14 t : Vec Ideal S1 .f32) (ix1 j) = (V c main_arg26 : S1.Idx → EReal) (ix1 j) := by
  obtain ⟨-, -, -, -, -, -, -, -, -, -, -, -, -, -, -, -, -, -, -, e⟩ := idx_facts t
  unfold iblk2
  rw [View.read_apply]
  show V c main_arg26 _ = V c main_arg26 _
  congr 1
  funext a
  apply Fin.ext
  match a with
  | ⟨0, _⟩ => show win2_14.index t (0 : Fin 1) * 1 + 1 * j.val = j.val; rw [e]; omega

/-- The second weights' block is the whole array. -/
theorem block7 (c : Dev nD) (t : Fin cfg2.N) (j : Fin 128) (k : Fin 256) :
    (iblk2 V c 7 t : Vec Ideal S128x256 .f32) (ix2 j k) = (V c main_arg19 : S128x256.Idx → EReal) (ix2 j k) := by
  obtain ⟨-, -, -, -, -, -, -, -, -, -, e0, e1, -⟩ := idx_facts t
  unfold iblk2
  rw [View.read_apply]
  show V c main_arg19 _ = V c main_arg19 _
  congr 1
  funext a
  apply Fin.ext
  match a with
  | ⟨0, _⟩ => show win2_7.index t (0 : Fin 2) * 128 + 1 * j.val = j.val; rw [e0]; omega
  | ⟨1, _⟩ => show win2_7.index t (1 : Fin 2) * 256 + 1 * k.val = k.val; rw [e1]; omega

/-- The last weights' block is the whole row. -/
theorem block13 (c : Dev nD) (t : Fin cfg2.N) (j : Fin 1) (k : Fin 128) :
    (iblk2 V c 13 t : Vec Ideal S1x128 .f32) (ix2 j k) = (V c main_arg25 : S1x128.Idx → EReal) (ix2 j k) := by
  obtain ⟨-, -, -, -, -, -, -, -, -, -, -, -, -, -, -, -, -, e0, e1, -⟩ := idx_facts t
  unfold iblk2
  rw [View.read_apply]
  show V c main_arg25 _ = V c main_arg25 _
  congr 1
  funext a
  apply Fin.ext
  match a with
  | ⟨0, _⟩ => show win2_13.index t (0 : Fin 2) * 1 + 1 * j.val = j.val; rw [e0]; omega
  | ⟨1, _⟩ => show win2_13.index t (1 : Fin 2) * 128 + 1 * k.val = k.val; rw [e1]; omega

/-! ## The scores array as one function of the arrays the region finds -/

/-- Position r of the scores: the link scorer, with the region's fourteen parameter arrays, of row r of the link rows. -/
def scores (c : Dev nD) : Buf (Elt Ideal) ((c : Thread nD τ).loc main_v58) := fun i =>
  Sage.score (fun j k => (V c main_arg13 : S256x256.Idx → EReal) (ix2 j k))
        (fun j => (V c main_arg14 : S256.Idx → EReal) (ix1 j))
        (fun j => (V c main_arg15 : S256.Idx → EReal) (ix1 j))
        (fun j => (V c main_arg16 : S256.Idx → EReal) (ix1 j))
        (fun j => (V c main_arg17 : S256.Idx → EReal) (ix1 j))
        (fun j => (V c main_arg18 : S256.Idx → EReal) (ix1 j))
        (fun c' j => (V c main_arg19 : S128x256.Idx → EReal) (ix2 c' j))
        (fun c' => (V c main_arg20 : S128.Idx → EReal) (ix1 c'))
        (fun c' => (V c main_arg21 : S128.Idx → EReal) (ix1 c'))
        (fun c' => (V c main_arg22 : S128.Idx → EReal) (ix1 c'))
        (fun c' => (V c main_arg23 : S128.Idx → EReal) (ix1 c'))
        (fun c' => (V c main_arg24 : S128.Idx → EReal) (ix1 c'))
        (fun k => (V c main_arg25 : S1x128.Idx → EReal) (ix2 (0 : Fin 1) k))
        ((V c main_arg26 : S1.Idx → EReal) (ix1 (0 : Fin 1)))
        (fun k => (V c main_v57 : S503808x256.Idx → EReal) (ix2 (⟨(i 0).val, (i 0).isLt⟩ : Fin 503808) k))

/-- The link scorer respects equality of each of its fifteen arguments. -/
theorem score_congr {W1 W1' : Fin 256 → Fin 256 → EReal} {b1 b1' g1 g1' be1 be1' mu1 mu1' var1 var1' : Fin 256 → EReal}
    {W2 W2' : Fin 128 → Fin 256 → EReal} {b2 b2' g2 g2' be2 be2' mu2 mu2' var2 var2' : Fin 128 → EReal}
    {w3 w3' : Fin 128 → EReal} {b3 b3' : EReal} {q q' : Fin 256 → EReal}
    (h1 : W1 = W1') (h2 : b1 = b1') (h3 : g1 = g1') (h4 : be1 = be1') (h5 : mu1 = mu1') (h6 : var1 = var1')
    (h7 : W2 = W2') (h8 : b2 = b2') (h9 : g2 = g2') (h10 : be2 = be2') (h11 : mu2 = mu2') (h12 : var2 = var2')
    (h13 : w3 = w3') (h14 : b3 = b3') (h15 : q = q') :
    Sage.score W1 b1 g1 be1 mu1 var1 W2 b2 g2 be2 mu2 var2 w3 b3 q = Sage.score W1' b1' g1' be1' mu1' var1' W2' b2' g2' be2' mu2' var2' w3' b3' q' := by
  subst h1 h2 h3 h4 h5 h6 h7 h8 h9 h10 h11 h12 h13 h14 h15
  rfl

/-- The body's stored vector as a function of the position in the block. -/
theorem out_fun (x0 : Vec Ideal S4096x256 .bf16) (x1 : Vec Ideal S256x256 .f32) (x2 x3 x4 x5 x6 : Vec Ideal S256 .f32)
    (x7 : Vec Ideal S128x256 .f32) (x8 x9 x10 x11 x12 : Vec Ideal S128 .f32) (x13 : Vec Ideal S1x128 .f32) (x14 : Vec Ideal S1 .f32)
    (y : S4096.Idx) :
    k2_pay1 (k2_pay2 x0 x1 x2 x3 x4 x5 x6 x7 x8) x9 x10 x11 x12 x13 x14 y
      = Sage.score (fun j k => x1 (ix2 j k)) (fun j => x2 (ix1 j)) (fun j => x3 (ix1 j)) (fun j => x4 (ix1 j)) (fun j => x5 (ix1 j)) (fun j => x6 (ix1 j))
          (fun c j => x7 (ix2 c j)) (fun c => x8 (ix1 c)) (fun c => x9 (ix1 c)) (fun c => x10 (ix1 c)) (fun c => x11 (ix1 c)) (fun c => x12 (ix1 c))
          (fun k => x13 (ix2 (0 : Fin 1) k)) (x14 (ix1 (0 : Fin 1))) (fun k => x0 (ix2 (⟨(y 0).val, (y 0).isLt⟩ : Fin 4096) k)) := by
  obtain ⟨p, rfl⟩ : ∃ p : Fin 4096, y = ix1 p := ⟨y 0, eq_ix1 y⟩
  exact out_apply x0 x1 x2 x3 x4 x5 x6 x7 x8 x9 x10 x11 x12 x13 x14 p

/-- WHAT POINT t WRITES BACK is block t of the scores function. -/
theorem flushed_eq (c : Dev nD) (t : Fin cfg2.N) :
    (dat2 (F := Ideal) V c).flushed 15 t = ((cfg2.win 15).blk t).view.read (Elt Ideal) (scores V c) := by
  show (cfg2.win 15).cut (grid2.coords t) ((dat2 (F := Ideal) V c).after 15 t) = _
  rw [after2_15]
  unfold out2_15
  rw [View.canon_unit_zero hz1]
  simp only [View.ld_unit_zero (S := S4096x256) hz2, View.ld_unit_zero (S := S256x256) hz2, View.ld_unit_zero (S := S256) hz1,
    View.ld_unit_zero (S := S128x256) hz2, View.ld_unit_zero (S := S128) hz1, View.ld_unit_zero (S := S1x128) hz2,
    View.ld_unit_zero (S := S1) hz1]
  obtain ⟨-, -, e15, -⟩ := idx_facts t
  funext y
  show k2_pay1 (k2_pay2 (iblk2 V c 0 t) (iblk2 V c 1 t) (iblk2 V c 2 t) (iblk2 V c 3 t) (iblk2 V c 4 t) (iblk2 V c 5 t) (iblk2 V c 6 t)
      (iblk2 V c 7 t) (iblk2 V c 8 t)) (iblk2 V c 9 t) (iblk2 V c 10 t) (iblk2 V c 11 t) (iblk2 V c 12 t) (iblk2 V c 13 t) (iblk2 V c 14 t) y
    = scores V c (((cfg2.win 15).blk t).view.emb y)
  refine (out_fun (iblk2 V c 0 t) (iblk2 V c 1 t) (iblk2 V c 2 t) (iblk2 V c 3 t) (iblk2 V c 4 t) (iblk2 V c 5 t) (iblk2 V c 6 t)
      (iblk2 V c 7 t) (iblk2 V c 8 t) (iblk2 V c 9 t) (iblk2 V c 10 t) (iblk2 V c 11 t) (iblk2 V c 12 t) (iblk2 V c 13 t) (iblk2 V c 14 t) y).trans ?_
  unfold scores
  refine score_congr (funext fun j => funext fun k => block1 V c t j k) (funext fun j => block2 V c t j) (funext fun j => block3 V c t j)
    (funext fun j => block4 V c t j) (funext fun j => block5 V c t j) (funext fun j => block6 V c t j)
    (funext fun j => funext fun k => block7 V c t j k) (funext fun j => block8 V c t j) (funext fun j => block9 V c t j)
    (funext fun j => block10 V c t j) (funext fun j => block11 V c t j) (funext fun j => block12 V c t j)
    (funext fun k => block13 V c t 0 k) (block14 V c t 0) (funext fun k => rows_block V c t _ k _ ?_)
  show win2_15.index t (0 : Fin 1) * 4096 + 1 * (y 0).val = 4096 * t.val + (y 0).val
  rw [e15]
  omega

/-- An index of the scores array is in point t's block iff it lies in the block's range. -/
theorem mem_blk (t : Fin cfg2.N) (i : S503808.Idx) :
    i ∈ ((cfg2.win 15).blk t).view.set ↔ ∀ a : Fin 1, win2_15.index t a * S4096.size a ≤ (i a).val ∧ (i a).val < win2_15.index t a * S4096.size a + S4096.size a := by
  show i ∈ ((View.whole main_v58).slice (win2_15.rect t)).set ↔ _
  rw [View.set_slice_whole, Rect.mem_set_unit]
  exact Iff.rfl

/-- Every position is in some point's block: position r in that of point r / 4096, and 123 · 4096 = 503808. -/
theorem cover (i : S503808.Idx) : ∃ t : Fin cfg2.N, (cfg2.win 15).flush t = true ∧ i ∈ ((cfg2.win 15).blk t).view.set := by
  have hi : (i 0).val < 503808 := (i 0).isLt
  obtain ⟨t, ht⟩ : ∃ t : Fin cfg2.N, t.val = (i 0).val / 4096 := ⟨⟨(i 0).val / 4096, by rw [show cfg2.N = 123 from N_2]; omega⟩, rfl⟩
  obtain ⟨-, -, e15, -⟩ := idx_facts t
  refine ⟨t, flush2_15 t, ?_⟩
  rw [mem_blk]
  intro a
  match a with
  | ⟨0, _⟩ =>
    show win2_15.index t (0 : Fin 1) * 4096 ≤ (i 0).val ∧ (i 0).val < win2_15.index t (0 : Fin 1) * 4096 + 4096
    rw [e15, ht]
    omega

/-- THE SCORES ARRAY after the region is the scores function of the arrays the region found. -/
theorem final (c : Dev nD) : (dat2 (F := Ideal) V c).arrAt 15 cfg2.N = scores V c :=
  (dat2 (F := Ideal) V c).arrAt_eq_of_cover 15 (scores V c) (fun t _ => flushed_eq V c t) cover

/-- Read at position r. -/
theorem score_final (c : Dev nD) (r : Fin 503808) :
    (dat2 (F := Ideal) V c).arrAt 15 cfg2.N (ValueIdx.ix1 r)
      = Cert.Sage.score (fun j k => V c main_arg13 (ix2 j k)) (fun j => V c main_arg14 (ix1 j)) (fun j => V c main_arg15 (ix1 j)) (fun j => V c main_arg16 (ix1 j)) (fun j => V c main_arg17 (ix1 j)) (fun j => V c main_arg18 (ix1 j))
          (fun c' j => V c main_arg19 (ix2 c' j)) (fun c' => V c main_arg20 (ix1 c')) (fun c' => V c main_arg21 (ix1 c')) (fun c' => V c main_arg22 (ix1 c')) (fun c' => V c main_arg23 (ix1 c')) (fun c' => V c main_arg24 (ix1 c'))
          (fun k => V c main_arg25 (ix2 (0 : Fin 1) k)) (V c main_arg26 (ix1 (0 : Fin 1)))
          (fun k => V c main_v57 (ix2 r k)) :=
  congrFun (final V c) (ix1 r)

end Cert.KernelIdeal.Region2

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.LibVecIndex.lean ====
/-
  Two reusable general lemmas about indexing a VECTOR (a rank-1 operand) by an integer column, each read at an index.

  The accumulating scatter. What `segment_sum(u, idx, N)` (or `x.at[idx].add(u)`) of a vector of updates `u : [E]` at an
  integer array `idx : [E]` lowers to: a scatter with an `add` body, no update window axes, inserted_window_dims `[0]`,
  scatter_dims_to_operand_dims `[0]` and index_vector_dim 1 over the indices as a column `[E, 1]`. Update entry `e`
  lands on operand entry `idx[e, 0]`: the index is read as a SIGNED integer and NOT clamped, so an update whose index is
  negative or at least `N` lands nowhere and is dropped. On the extended reals the result at `n` is therefore the
  operand's entry plus the sum of the updates `u e` over the `e` whose index is `n`.

  The gather. What `x[idx]` of a vector `x : [N]` at an integer array `idx : [R]` lowers to: a gather with no offset
  axes, collapsed_slice_dims `[0]`, start_index_map `[0]`, index_vector_dim 1 and slice sizes `[1]` over the indices
  as a column `[R, 1]`. Result element `r` is `x` at `idx[r, 0]`, read as a signed integer and clamped into
  `[0, N − 1]`, as the operation clamps every start index so that the slice fits.

  Both are stated at any extents and any index width; the gather at any element type.
-/
import Idealize.ShloMosaic.Lib.ValueIdx
import Idealize.ShloMosaic.PureOps.Ideal

noncomputable section

open scoped BigOperators

namespace Idealize.ShloMosaic.ScatterVec

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's dimension numbers for an operand `[N]`, scatter indices `[E, 1]` and updates `[E]`; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- On the operand's one axis the window of update `e` starts at the index `idx[e, 0]`, read signed. -/
theorem start_zero (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted one: the window coordinate is `0` there. -/
theorem window_zero (e : Fin E) : (vecDims N E wf).window (ix1 e) 0 = 0 := by
  unfold ScatterDims.window
  rw [dif_neg (show (0 : Fin 1) ∉ (vecDims N E wf).sKept from
    (by decide : (0 : Fin 1) ∉ (List.finRange 1).filter (· ∉ [(0 : Fin 1)])))]

/-- Update `e` lands on `n` exactly when its index, read signed, is `n`. -/
theorem resultIdx?_eq_some_iff (idx : IVec ⟨2, ![E, 1]⟩ w) (e : Fin E) (n : Fin N) :
    (vecDims N E wf).resultIdx? (ix1 e) idx = some (ix1 n)
      ↔ (idx (ix2 e (0 : Fin 1))).toInt = (n.val : Int) := by
  have hn := n.isLt
  unfold ScatterDims.resultIdx?
  by_cases h : ∀ a, 0 ≤ (vecDims N E wf).start (ix1 e) idx a + (vecDims N E wf).window (ix1 e) a
      ∧ (vecDims N E wf).start (ix1 e) idx a + (vecDims N E wf).window (ix1 e) a
        < ((⟨1, ![N]⟩ : Shape).size a : Int)
  · rw [dif_pos h, Option.some.injEq]
    have h0 := h 0
    rw [start_zero, window_zero] at h0
    constructor
    · intro heq
      have e0 := congrArg Fin.val (congrFun heq 0)
      change ((vecDims N E wf).start (ix1 e) idx 0 + ((vecDims N E wf).window (ix1 e) 0 : Nat)).toNat = n.val at e0
      rw [start_zero, window_zero] at e0
      omega
    · intro ht
      funext a
      refine Fin.ext ?_
      match a with
      | ⟨0, _⟩ =>
        show ((vecDims N E wf).start (ix1 e) idx 0 + ((vecDims N E wf).window (ix1 e) 0 : Nat)).toNat = n.val
        rw [start_zero, window_zero]; omega
  · rw [dif_neg h]
    refine ⟨fun hh => absurd hh (by simp), ?_⟩
    intro ht
    refine absurd (fun a => ?_) h
    match a with
    | ⟨0, _⟩ =>
      show 0 ≤ (vecDims N E wf).start (ix1 e) idx 0 + ((vecDims N E wf).window (ix1 e) 0 : Nat)
        ∧ (vecDims N E wf).start (ix1 e) idx 0 + ((vecDims N E wf).window (ix1 e) 0 : Nat) < (N : Int)
      rw [start_zero, window_zero]; omega

/-- THE VECTOR SCATTER-ADD READ AT `n`, on the extended reals: the operand's entry plus the sum of the updates whose
    index (read signed) is `n`. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  rw [Finset.sum_filter, sum_idx1]
  refine Finset.sum_congr rfl fun e _ => ?_
  simp only [resultIdx?_eq_some_iff]

/-- The same for the host operation as a program spells it, at any record of these dimension numbers that is the
    vector record (`hd`, by `rfl` on a program's literal record). -/
theorem host_scatterAdd_vec_apply {φ : FTy} (d : ScatterDims ⟨1, ![N]⟩ ⟨2, ![E, 1]⟩ ⟨1, ![E]⟩)
    (hd : d = vecDims N E wf) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ e : Fin E, if (idx (ix2 e (0 : Fin 1))).toInt = (n.val : Int) then upd (ix1 e) else 0 := by
  subst hd
  exact scatterAdd_vec_apply wf x idx upd n

end Idealize.ShloMosaic.ScatterVec

namespace Idealize.ShloMosaic.GatherVec

open Idealize.ShloMosaic Idealize.ShloMosaic.ValueIdx

variable {α : Type}

/-- The vector gather's dimension numbers for an operand `[N]`, start indices `[R, 1]` and result `[R]`; their
    conditions `wf` are decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `r`: the operand at the index `idx[r, 0]`, read signed and clamped into
    `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (vecDims N R wf).start (ix1 r) idx 0 + (vecDims N R wf).batchCoord (ix1 r) 0
      + (vecDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherVec

end
-- ==== Proof.LibGatherAt.lean ====
/-
  A reusable general lemma, in two ranks: a gather read at a position whose index VALUE is known.

  A gather reads, at position r, the operand's row numbered by the index array's entry at r — read signed and clamped
  into range. When that entry is known to be the word v, the row is the clamp of v. Stating the lemma with the
  equation as a hypothesis lets a proof name the row by the word it comes from, without rewriting inside the clamp.
-/
import Idealize.ShloMosaic.Lib.ValueIdx
import proofs.«170819_j39548058862204_2_alg».proof.Proof.LibVecIndex
import proofs.«170819_j39548058862204_2_alg».proof.Proof.LibGatherRows

noncomputable section

namespace Idealize.ShloMosaic.GatherAt

open Idealize.ShloMosaic Idealize.ShloMosaic.ValueIdx

variable {α : Type}

/-- The row an index word names in an axis of extent N: read signed, clamped into [0, N − 1]. -/
def clampRow {w : Nat} (N : Nat) (hN : 0 < N) (v : BitVec w) : Fin N := ⟨min v.toInt.toNat (N - 1), by omega⟩

/-- A vector gathered at position r, the index there being the word v: the vector's entry at the clamp of v. -/
theorem gather_vec_at {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) (v : BitVec w)
    (hv : idx (ix2 r (0 : Fin 1)) = v) :
    Host.gather (GatherVec.vecDims N R wf) x idx (ix1 r) = x (ix1 (clampRow N hN v)) := by
  subst hv
  exact GatherVec.gather_vec_apply hN wf x idx r

/-- Whole rows gathered at position r, the index there being the word v: the matrix's row at the clamp of v. -/
theorem gather_rows_at {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) (v : BitVec w)
    (hv : idx (ix2 r (0 : Fin 1)) = v) :
    Host.gather (GatherRows.rowDims N R C wf) x idx (ix2 r c) = x (ix2 (clampRow N hN v) c) := by
  subst hv
  exact GatherRows.gather_rows_apply hN wf x idx r c

end Idealize.ShloMosaic.GatherAt

end
-- ==== Proof.LibScatterRows.lean ====
/-
  A reusable general lemma: the host's accumulating scatter of WHOLE ROWS into a rank-2 operand, read at an index,
  on the extended reals.

  What `segment_sum(u, idx, N)` (or `x.at[idx].add(u)`) of update rows `u : [E, C]` at an integer array `idx : [E]`
  lowers to: a scatter with an `add` body, update_window_dims `[1]`, inserted_window_dims `[0]`,
  scatter_dims_to_operand_dims `[0]` and index_vector_dim 1 over the indices as a column `[E, 1]`. Update entry
  `(e, c)` lands on operand entry `(idx[e, 0], c)`: the row is the index read as a SIGNED integer and NOT clamped, so
  an update whose row is negative or at least `N` lands nowhere and is dropped; the column is the update's own. On the
  extended reals the result at `(n, c)` is therefore the operand's entry plus the sum, over the update rows `e` whose
  index is `n`, of `u (e, c)`. Stated at any extents `N`, `E`, `C` and any index width.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-- The row scatter's dimension numbers for an operand `[N, C]`, scatter indices `[E, 1]` and updates `[E, C]`; their
    conditions `wf` are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c)` starts at the index `idx[e, 0]`, read signed. -/
theorem start_row (idx : IVec ⟨2, ![E, 1]⟩ w) (e : Fin E) (c : Fin C) :
    (rowDims N E C wf).start (ix2 e c) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e c) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the index map: the window starts at `0` there. -/
theorem start_col (idx : IVec ⟨2, ![E, 1]⟩ w) (e : Fin E) (c : Fin C) :
    (rowDims N E C wf).start (ix2 e c) idx 1 = 0 := by
  unfold ScatterDims.start
  rw [dif_neg (show (1 : Fin 2) ∉ (rowDims N E C wf).scatterDimsToOperandDims from (by decide : (1 : Fin 2) ∉ [(0 : Fin 2)]))]

/-- The row axis is an inserted one: the window coordinate is `0` there. -/
theorem window_row (e : Fin E) (c : Fin C) : (rowDims N E C wf).window (ix2 e c) 0 = 0 := by
  unfold ScatterDims.window
  rw [dif_neg (show (0 : Fin 2) ∉ (rowDims N E C wf).sKept from
    (by decide : (0 : Fin 2) ∉ (List.finRange 2).filter (· ∉ [(0 : Fin 2)])))]

/-- On the column axis the window coordinate is the update's own column. -/
theorem window_col (e : Fin E) (c : Fin C) : (rowDims N E C wf).window (ix2 e c) 1 = c.val := by
  unfold ScatterDims.window
  rw [dif_pos (show (1 : Fin 2) ∈ (rowDims N E C wf).sKept from
    (by decide : (1 : Fin 2) ∈ (List.finRange 2).filter (· ∉ [(0 : Fin 2)])))]
  rfl

/-- Update `(e, c')` lands on `(n, c)` exactly when its index, read signed, is `n` and its column is `c`. -/
theorem resultIdx?_eq_some_iff (idx : IVec ⟨2, ![E, 1]⟩ w) (e : Fin E) (c' c : Fin C) (n : Fin N) :
    (rowDims N E C wf).resultIdx? (ix2 e c') idx = some (ix2 n c)
      ↔ ((idx (ix2 e (0 : Fin 1))).toInt = (n.val : Int) ∧ c' = c) := by
  have hn := n.isLt
  have hc' := c'.isLt
  unfold ScatterDims.resultIdx?
  by_cases h : ∀ a, 0 ≤ (rowDims N E C wf).start (ix2 e c') idx a + (rowDims N E C wf).window (ix2 e c') a
      ∧ (rowDims N E C wf).start (ix2 e c') idx a + (rowDims N E C wf).window (ix2 e c') a
        < ((⟨2, ![N, C]⟩ : Shape).size a : Int)
  · rw [dif_pos h, Option.some.injEq]
    have h0 := h 0
    rw [start_row, window_row] at h0
    constructor
    · intro heq
      have e0 := congrArg Fin.val (congrFun heq 0)
      have e1 := congrArg Fin.val (congrFun heq 1)
      change ((rowDims N E C wf).start (ix2 e c') idx 0 + ((rowDims N E C wf).window (ix2 e c') 0 : Nat)).toNat = n.val at e0
      change ((rowDims N E C wf).start (ix2 e c') idx 1 + ((rowDims N E C wf).window (ix2 e c') 1 : Nat)).toNat = c.val at e1
      rw [start_row, window_row] at e0
      rw [start_col, window_col] at e1
      refine ⟨by omega, Fin.ext (by omega)⟩
    · rintro ⟨ht, rfl⟩
      funext a
      refine Fin.ext ?_
      match a with
      | ⟨0, _⟩ =>
        show ((rowDims N E C wf).start (ix2 e c') idx 0 + ((rowDims N E C wf).window (ix2 e c') 0 : Nat)).toNat = n.val
        rw [start_row, window_row]; omega
      | ⟨1, _⟩ =>
        show ((rowDims N E C wf).start (ix2 e c') idx 1 + ((rowDims N E C wf).window (ix2 e c') 1 : Nat)).toNat = c'.val
        rw [start_col, window_col]; omega
  · rw [dif_neg h]
    refine ⟨fun hh => absurd hh (by simp), ?_⟩
    rintro ⟨ht, rfl⟩
    refine absurd (fun a => ?_) h
    match a with
    | ⟨0, _⟩ =>
      show 0 ≤ (rowDims N E C wf).start (ix2 e c') idx 0 + ((rowDims N E C wf).window (ix2 e c') 0 : Nat)
        ∧ (rowDims N E C wf).start (ix2 e c') idx 0 + ((rowDims N E C wf).window (ix2 e c') 0 : Nat) < (N : Int)
      rw [start_row, window_row]; omega
    | ⟨1, _⟩ =>
      show 0 ≤ (rowDims N E C wf).start (ix2 e c') idx 1 + ((rowDims N E C wf).window (ix2 e c') 1 : Nat)
        ∧ (rowDims N E C wf).start (ix2 e c') idx 1 + ((rowDims N E C wf).window (ix2 e c') 1 : Nat) < (C : Int)
      rw [start_col, window_col]; omega

/-- THE ROW SCATTER-ADD READ AT `(n, c)`, on the extended reals: the operand's entry plus the sum, over the update rows
    whose index (read signed) is `n`, of the update's entry in column `c`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_eq_some_iff]
  by_cases ht : (idx (ix2 e (0 : Fin 1))).toInt = (n.val : Int)
  · simp only [ht, true_and, if_true]
    rw [Finset.sum_ite_eq' Finset.univ c (fun c' => upd (ix2 e c'))]
    simp
  · simp only [ht, false_and, if_false, Finset.sum_const_zero]

/-- The same for the host operation as a program spells it, at any record of these dimension numbers that is the row
    record (`hd`, by `rfl` on a program's literal record). -/
theorem host_scatterAdd_rows_apply {φ : FTy} (d : ScatterDims ⟨2, ![N, C]⟩ ⟨2, ![E, 1]⟩ ⟨2, ![E, C]⟩)
    (hd : d = rowDims N E C wf) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ e : Fin E, if (idx (ix2 e (0 : Fin 1))).toInt = (n.val : Int) then upd (ix2 e c) else 0 := by
  subst hd
  exact scatterAdd_rows_apply wf x idx upd n c

end Idealize.ShloMosaic.ScatterRows

end
-- ==== Proof.SegRead.lean ====
/-
  A neighbourhood sum as the host spells it — an accumulating scatter, into zeros, of the rows a gather
  fetched — read at one entry: the sum over the edges whose target word names the row of the entry of the
  source row; and the edge count the same way.  The index columns are given by what each of their words is.
-/
import proofs.«170819_j39548058862204_2_alg».proof.Proof.Spec
import proofs.«170819_j39548058862204_2_alg».proof.Proof.LibGatherRows
import proofs.«170819_j39548058862204_2_alg».proof.Proof.LibGatherAt
import proofs.«170819_j39548058862204_2_alg».proof.Proof.LibScatterRows
import proofs.«170819_j39548058862204_2_alg».proof.Proof.LibVecIndex

noncomputable section

namespace Cert.SegRead

open Idealize.ShloMosaic Idealize.ShloMosaic.ValueIdx Cert.Sage

/-- The clamp of a gather into a table of 50000 rows is the specification's. -/
theorem clampRow_eq (v : BitVec 32) : GatherAt.clampRow 50000 (by decide) v = Sage.clampRow v := rfl

/-- Scatter-add into zeros, by the target column, of the rows gathered by the source column. -/
theorem segSum_read {C : ℕ} {φ : FTy}
    (dG : GatherDims ⟨2, ![50000, C]⟩ ⟨2, ![640000, 1]⟩ ⟨2, ![640000, C]⟩)
    (wfG : GatherDims.WF ⟨2, ![50000, C]⟩ ⟨2, ![640000, 1]⟩ ⟨2, ![640000, C]⟩ [1] [0] [] [0] [] 1 ![1, C])
    (hG : dG = GatherRows.rowDims 50000 640000 C wfG)
    (dS : ScatterDims ⟨2, ![50000, C]⟩ ⟨2, ![640000, 1]⟩ ⟨2, ![640000, C]⟩)
    (wfS : ScatterDims.WF ⟨2, ![50000, C]⟩ ⟨2, ![640000, 1]⟩ ⟨2, ![640000, C]⟩ [1] [0] [0] 1)
    (hS : dS = ScatterRows.rowDims 50000 640000 C wfS)
    (ei : Fin 2 → Fin 640000 → BitVec 32)
    (f z : FVec Ideal ⟨2, ![50000, C]⟩ φ) (hz : ∀ i, z i = 0)
    (sc dc : IVec ⟨2, ![640000, 1]⟩ 32)
    (hsc : ∀ e : Fin 640000, sc (ix2 e (0 : Fin 1)) = wrap (ei 0 e))
    (hdc : ∀ e : Fin 640000, dc (ix2 e (0 : Fin 1)) = ei 1 e)
    (n : Fin 50000) (c : Fin C) :
    Host.scatterAdd dS z dc (Host.gather dG f sc) (ix2 n c) = segSum ei (fun n c => f (ix2 n c)) n c := by
  subst hG hS
  rw [ScatterRows.host_scatterAdd_rows_apply wfS _ rfl, hz, zero_add]
  unfold segSum
  refine Finset.sum_congr rfl fun e _ => ?_
  rw [hdc e, GatherAt.gather_rows_at (by decide) wfG f sc e c _ (hsc e), clampRow_eq]
  rfl

/-- Scatter-add of ones into zeros by the target column: the number of edges into the row. -/
theorem cnt_read {φ : FTy}
    (dS : ScatterDims ⟨1, ![50000]⟩ ⟨2, ![640000, 1]⟩ ⟨1, ![640000]⟩)
    (wfS : ScatterDims.WF ⟨1, ![50000]⟩ ⟨2, ![640000, 1]⟩ ⟨1, ![640000]⟩ [] [0] [0] 1)
    (hS : dS = ScatterVec.vecDims 50000 640000 wfS)
    (ei : Fin 2 → Fin 640000 → BitVec 32)
    (z : FVec Ideal ⟨1, ![50000]⟩ φ) (hz : ∀ i, z i = 0)
    (ones : FVec Ideal ⟨1, ![640000]⟩ φ) (h1 : ∀ i, ones i = one)
    (dc : IVec ⟨2, ![640000, 1]⟩ 32)
    (hdc : ∀ e : Fin 640000, dc (ix2 e (0 : Fin 1)) = ei 1 e)
    (n : Fin 50000) :
    Host.scatterAdd dS z dc ones (ix1 n) = cnt ei n := by
  subst hS
  rw [ScatterVec.host_scatterAdd_vec_apply wfS _ rfl, hz, zero_add]
  unfold cnt
  refine Finset.sum_congr rfl fun e _ => ?_
  rw [hdc e, h1]
  rfl

end Cert.SegRead

end
-- ==== Proof.LibJoinIota.lean ====
/-
  Reusable general lemmas: a vector joined from two, a vector of positions, and an index wrapped into range, each
  read at an index.

  * Two vectors of lengths A and B laid end to end along their one axis give a vector of length A + B: entry e is
    the first vector's entry e when e < A, and the second vector's entry e − A otherwise.
  * The vector of positions 0, 1, …, N − 1 as w-bit integers: entry i is the word of i, and, read signed at 32
    bits, the number i itself as long as N ≤ 2³¹.
  * Indexing with a possibly negative integer v into an axis of extent n first replaces v by v + n when v is
    negative (as a signed word) and keeps it otherwise; stated lane by lane for arrays of any shape, the comparand
    0 and the addend n being scalars spread over the shape. A lane that is non-negative is kept.
  * A vector spread as a one-column matrix, and a one-column matrix spread over C columns, read at (e, c).
-/
import Idealize.ShloMosaic.Lib.ValueIdx
import Idealize.ShloMosaic.Lib.IdealHost
import Idealize.ShloMosaic.Lib.Pipeline.Value

noncomputable section

namespace Idealize.ShloMosaic.JoinIota

open Idealize.ShloMosaic Idealize.ShloMosaic.ValueIdx

variable {α : Type}

/-! ## Two vectors laid end to end -/

/-- TWO VECTORS JOINED, READ IN THE FIRST: entry e of the join of a (length A) and b (length B), for e < A, is
    entry e of a. The result's length is any C the join's side condition accepts (it forces C = A + B). -/
theorem concatenate_vec_apply_left {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : e.val < A) :
    concatenate ⟨1, ![C]⟩ 0 [⟨⟨1, ![A]⟩, a⟩, ⟨⟨1, ![B]⟩, b⟩] h (ix1 e) = a (ix1 ⟨e.val, he⟩) := by
  refine concatenate_pair_apply_left (0 : Fin 1) a b h (ix1 e) rfl (ix1 ⟨e.val, he⟩) ?_
  intro d
  match d with
  | ⟨0, _⟩ => rfl

/-- TWO VECTORS JOINED, READ IN THE SECOND: entry e of the join of a (length A) and b (length B), for A ≤ e, is
    entry e − A of b. -/
theorem concatenate_vec_apply_right {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : A ≤ e.val)
    (hB : e.val - A < B) :
    concatenate ⟨1, ![C]⟩ 0 [⟨⟨1, ![A]⟩, a⟩, ⟨⟨1, ![B]⟩, b⟩] h (ix1 e) = b (ix1 ⟨e.val - A, hB⟩) := by
  refine concatenate_pair_apply_right (0 : Fin 1) a b h (ix1 e) rfl rfl (ix1 ⟨e.val - A, hB⟩) ?_ ?_
  · intro d hd
    match d with
    | ⟨0, _⟩ => exact absurd rfl hd
  · show e.val - A + A = e.val
    omega

/-- The join's side condition gives the lengths' equation C = A + B. -/
theorem concatenates_vec_length {A B C : Nat}
    (h : Shape.Concatenates [(⟨1, ![A]⟩ : Shape), ⟨1, ![B]⟩] ⟨1, ![C]⟩ 0) : C = A + B := by
  have e := h.2.2
  simp only [List.map, List.sum_cons, List.sum_nil] at e
  have e' : A + (B + 0) = C := e
  omega

/-! ## The vector of positions -/

/-- THE POSITIONS READ AT i: entry i of the w-bit vector 0, 1, …, N − 1 is the word of i. -/
theorem iota_vec_apply {N w : Nat} (i : Fin N) :
    iotaInDim ⟨1, ![N]⟩ w 0 (ix1 i) = BitVec.ofNat w i.val := rfl

/-- … and, at 32 bits and N ≤ 2³¹, read signed it is the number i. -/
theorem iota_vec_toInt {N : Nat} (hN : N ≤ 2 ^ 31) (i : Fin N) :
    (iotaInDim ⟨1, ![N]⟩ 32 0 (ix1 i)).toInt = (i.val : Int) := by
  rw [iota_vec_apply, BitVec.toInt_ofNat']
  have hi := i.isLt
  apply Int.bmod_eq_of_le_mul_two <;> omega

/-! ## An index wrapped into range -/

/-- THE WRAP READ AT j: where lane j of v is negative (signed) it becomes v j + n, elsewhere it stays; 0 and n are
    scalars spread over the shape. -/
theorem wrap_index_apply {S : Shape} {w : Nat} (n : BitVec w)
    (h0 : (⟨0, ![]⟩ : Shape).BroadcastsInDim S ![]) (v : IVec S w) (j : S.Idx) :
    select (cmpi .slt v (broadcastInDim S ![] h0 (constantI ⟨0, ![]⟩ w 0#w)))
        (addi v (broadcastInDim S ![] h0 (constantI ⟨0, ![]⟩ w n))) v j
      = if (v j).slt 0#w then v j + n else v j := by
  show Scalar.select (IntOp.cmpi .slt (v j) (broadcastInDim S ![] h0 (constantI ⟨0, ![]⟩ w 0#w) j))
      (IntOp.addi (v j) (broadcastInDim S ![] h0 (constantI ⟨0, ![]⟩ w n) j)) (v j) = _
  rw [broadcastInDim_scalar_apply, broadcastInDim_scalar_apply]
  show Scalar.select (BitVec.ofBool ((v j).slt 0#w)) (v j + n) (v j) = _
  unfold Scalar.select
  cases hs : (v j).slt 0#w
  · simp
  · simp

/-- A NON-NEGATIVE LANE IS KEPT: where lane j of v is at least 0 read signed, the wrap leaves it. -/
theorem wrap_index_of_nonneg {S : Shape} {w : Nat} (n : BitVec w)
    (h0 : (⟨0, ![]⟩ : Shape).BroadcastsInDim S ![]) (v : IVec S w) (j : S.Idx) (hj : 0 ≤ (v j).toInt) :
    select (cmpi .slt v (broadcastInDim S ![] h0 (constantI ⟨0, ![]⟩ w 0#w)))
        (addi v (broadcastInDim S ![] h0 (constantI ⟨0, ![]⟩ w n))) v j = v j := by
  rw [wrap_index_apply]
  have hs : (v j).slt 0#w = false := by
    rw [BitVec.slt_eq_decide, BitVec.toInt_zero]
    exact decide_eq_false (by omega)
  rw [hs]
  rfl

/-! ## A vector as a column, a column over the columns -/

/-- A VECTOR SPREAD AS A COLUMN, READ AT (e, 0): entry e of the vector. -/
theorem broadcast_vec_column_apply {R : Nat} (h : (⟨1, ![R]⟩ : Shape).BroadcastsInDim ⟨2, ![R, 1]⟩ ![0])
    (v : (⟨1, ![R]⟩ : Shape).Idx → α) (e : Fin R) :
    broadcastInDim ⟨2, ![R, 1]⟩ ![0] h v (ix2 e (0 : Fin 1)) = v (ix1 e) := by
  refine broadcastInDim_apply _ h v _ (ix1 e) ?_
  intro d
  match d with
  | ⟨0, _⟩ =>
    show e.val = if R = 1 then 0 else e.val
    split
    · next h1 => have := e.isLt; omega
    · rfl

/-- A COLUMN SPREAD OVER C COLUMNS, READ AT (e, c): the column's entry e. -/
theorem broadcast_column_apply {R C : Nat} (h : (⟨2, ![R, 1]⟩ : Shape).BroadcastsInDim ⟨2, ![R, C]⟩ ![0, 1])
    (v : (⟨2, ![R, 1]⟩ : Shape).Idx → α) (e : Fin R) (c : Fin C) :
    broadcastInDim ⟨2, ![R, C]⟩ ![0, 1] h v (ix2 e c) = v (ix2 e (0 : Fin 1)) := by
  refine broadcastInDim_apply _ h v _ (ix2 e (0 : Fin 1)) ?_
  intro d
  match d with
  | ⟨0, _⟩ =>
    show e.val = if R = 1 then 0 else e.val
    split
    · next h1 => have := e.isLt; omega
    · rfl
  | ⟨1, _⟩ => rfl

end Idealize.ShloMosaic.JoinIota

end
-- ==== Proof.HostHead.lean ====
/-
  The idealized kernel's first two host stretches read as the mathematics.

  Before the first region the host slices the edge array into source and target words, counts the edges into every
  node (an accumulating scatter of ones), floors the count at one, and forms the neighbourhood mean of the node rows
  (gather by the wrapped source words, accumulating scatter by the target words, divide).  Between the first and the
  second region it forms the same mean of the projected hidden rows the first region left, with the same words and
  the same divisor.  Each is one term of host operations (`t_mean`); read at an entry it is the specification's
  `segMean` (`t_mean_apply`).  The remaining lemmas say which buffers a stretch or a region leaves alone.
-/
import proofs.«170819_j39548058862204_2_alg».proof.Proof.Gen.KernelIdeal.Frame
import proofs.«170819_j39548058862204_2_alg».proof.Proof.Spec
import proofs.«170819_j39548058862204_2_alg».proof.Proof.SegRead
import proofs.«170819_j39548058862204_2_alg».proof.Proof.LibJoinIota
import Idealize.ShloMosaic.Lib.ValueLayout
import Idealize.ShloMosaic.Lib.Pipeline.Value
import Idealize.ShloMosaic.Lib.ValueIdx
import Idealize.ShloMosaic.Lib.StableHlo.Run

noncomputable section
namespace Cert.KernelIdeal.HostHead
open Cert.KernelIdeal Cert.KernelIdeal.Gen Idealize.ShloMosaic Idealize.ShloMosaic.ValueIdx Idealize.ShloMosaic.TcCoe Idealize.SL.Sem Cert.Sage
open Idealize.ShloMosaic.StableHlo

abbrev TI (S : Shape) := S.Idx → BitVec 32
abbrev TF (S : Shape) := S.Idx → EReal

/-- The source words of the edges: row 0 of the edge array. -/
def t_v1 (x1 : TI S2x640000) : TI S640000 :=
  shapeCast S640000 (extractStridedSlice S1x640000 ![0, 0] x1 slices_S2x640000_S1x640000_0_0) shapeCasts_S1x640000_S640000
/-- The target words of the edges: row 1 of the edge array. -/
def t_v3 (x1 : TI S2x640000) : TI S640000 :=
  shapeCast S640000 (extractStridedSlice S1x640000 ![1, 0] x1 slices_S2x640000_S1x640000_1_0) shapeCasts_S1x640000_S640000
/-- The divisor column: the count of edges into each node, floored at one. -/
def t_v10 (v3 : TI S640000) : TF S50000x1 :=
  broadcastInDim S50000x1 ![0] bcast_S50000_S50000x1_0
    (maximumf (F := Ideal) (φ := .f32)
      (Host.scatterAdd (F := Ideal) (φ := .f32) scatter_S50000_S640000x1_S640000_n_0_0_1
        (broadcastInDim S50000 ![] bcast_S_S50000 (constant (F := Ideal) S_ .f32 0x00000000#32))
        (broadcastInDim S640000x1 ![0] bcast_S640000_S640000x1_0 v3)
        (broadcastInDim S640000 ![] bcast_S_S640000 (constant (F := Ideal) S_ .f32 0x3F800000#32)))
      (broadcastInDim S50000 ![] bcast_S_S50000 (constant (F := Ideal) S_ .f32 0x3F800000#32)))
/-- The gather's index column: the source words with negative ones wrapped. -/
def t_col (v1 : TI S640000) : TI S640000x1 :=
  broadcastInDim S640000x1 ![0] bcast_S640000_S640000x1_0
    (select (cmpi .slt v1 (broadcastInDim S640000 ![] bcast_S_S640000 (constantI S_ 32 0#32)))
      (addi v1 (broadcastInDim S640000 ![] bcast_S_S640000 (constantI S_ 32 50000#32))) v1)
/-- A neighbourhood mean as the host computes it. -/
def t_mean (f : TF S50000x128) (v1 v3 : TI S640000) (v10 : TF S50000x1) : TF S50000x128 :=
  Host.divf (F := Ideal) (φ := .f32)
    (Host.scatterAdd (F := Ideal) (φ := .f32) scatter_S50000x128_S640000x1_S640000x128_1_0_0_1
      (broadcastInDim S50000x128 ![] bcast_S_S50000x128 (constant (F := Ideal) S_ .f32 0x00000000#32))
      (broadcastInDim S640000x1 ![0] bcast_S640000_S640000x1_0 v3)
      (Host.gather gather_S50000x128_S640000x1_S640000x128_1_0_n_n_0_1_1128 f (t_col v1)))
    (broadcastInDim S50000x128 ![0, 1] bcast_S50000x1_S50000x128_0_1 v10)

/-! ## The terms read at an entry -/

theorem t_v1_apply (x1 : TI S2x640000) (e : Fin 640000) : t_v1 x1 (ix1 e) = x1 (ix2 (0 : Fin 2) e) := by
  unfold t_v1
  rw [shapeCast_1a_a_apply, slice2_axis0_apply 0 x1 _ (0 : Fin 1) e (0 : Fin 2) rfl]

theorem t_v3_apply (x1 : TI S2x640000) (e : Fin 640000) : t_v3 x1 (ix1 e) = x1 (ix2 (1 : Fin 2) e) := by
  unfold t_v3
  rw [shapeCast_1a_a_apply, slice2_axis0_apply 1 x1 _ (0 : Fin 1) e (1 : Fin 2) rfl]

theorem t_col_apply (v1 : TI S640000) (e : Fin 640000) : t_col v1 (ix2 e (0 : Fin 1)) = wrap (v1 (ix1 e)) := by
  unfold t_col
  rw [JoinIota.broadcast_vec_column_apply, JoinIota.wrap_index_apply]
  rfl

/-- A float scalar spread over a shape reads as the scalar's word everywhere. -/
theorem bcastF_apply (S : Shape) (h : S_.BroadcastsInDim S ![]) (b : BitVec 32) (i : S.Idx) :
    broadcastInDim S ![] h (constant (F := Ideal) S_ .f32 b) i = Ideal.ofBits .f32 b :=
  (broadcastInDim_apply _ h _ i (fun a => a.elim0) (fun a => a.elim0)).trans rfl

theorem t_v10_apply (EI : Fin 2 → Fin 640000 → BitVec 32) (v3 : TI S640000) (h3 : ∀ e : Fin 640000, v3 (ix1 e) = EI 1 e)
    (n : Fin 50000) : t_v10 v3 (ix2 n (0 : Fin 1)) = den EI n := by
  unfold t_v10
  rw [JoinIota.broadcast_vec_column_apply]
  show max (Host.scatterAdd (F := Ideal) (φ := .f32) scatter_S50000_S640000x1_S640000_n_0_0_1
        (broadcastInDim S50000 ![] bcast_S_S50000 (constant (F := Ideal) S_ .f32 0x00000000#32))
        (broadcastInDim S640000x1 ![0] bcast_S640000_S640000x1_0 v3)
        (broadcastInDim S640000 ![] bcast_S_S640000 (constant (F := Ideal) S_ .f32 0x3F800000#32)) (ix1 n))
      (broadcastInDim S50000 ![] bcast_S_S50000 (constant (F := Ideal) S_ .f32 0x3F800000#32) (ix1 n)) = _
  unfold den
  refine congrArg₂ max ?_ (bcastF_apply _ _ _ _)
  exact SegRead.cnt_read _ scatter_S50000_S640000x1_S640000_n_0_0_1_wf rfl EI _
    (fun i => (bcastF_apply _ _ _ i).trans Ideal.ofBits_zero_f32) _ (fun i => bcastF_apply _ _ _ i) _
    (fun e => by rw [JoinIota.broadcast_vec_column_apply, h3]) n

theorem t_mean_apply (EI : Fin 2 → Fin 640000 → BitVec 32) (f : TF S50000x128) (v1 v3 : TI S640000) (v10 : TF S50000x1)
    (h1 : ∀ e : Fin 640000, v1 (ix1 e) = EI 0 e) (h3 : ∀ e : Fin 640000, v3 (ix1 e) = EI 1 e)
    (h10 : ∀ n : Fin 50000, v10 (ix2 n (0 : Fin 1)) = den EI n) (n : Fin 50000) (k : Fin 128) :
    t_mean f v1 v3 v10 (ix2 n k) = segMean EI (fun n c => f (ix2 n c)) n k := by
  unfold t_mean
  show Ideal.div (Host.scatterAdd (F := Ideal) (φ := .f32) scatter_S50000x128_S640000x1_S640000x128_1_0_0_1
        (broadcastInDim S50000x128 ![] bcast_S_S50000x128 (constant (F := Ideal) S_ .f32 0x00000000#32))
        (broadcastInDim S640000x1 ![0] bcast_S640000_S640000x1_0 v3)
        (Host.gather gather_S50000x128_S640000x1_S640000x128_1_0_n_n_0_1_1128 f (t_col v1)) (ix2 n k))
      (broadcastInDim S50000x128 ![0, 1] bcast_S50000x1_S50000x128_0_1 v10 (ix2 n k)) = _
  unfold segMean
  refine congrArg₂ Ideal.div ?_ ?_
  · exact SegRead.segSum_read _ gather_S50000x128_S640000x1_S640000x128_1_0_n_n_0_1_1128_wf rfl
      _ scatter_S50000x128_S640000x1_S640000x128_1_0_0_1_wf rfl EI f _
      (fun i => (bcastF_apply _ _ _ i).trans Ideal.ofBits_zero_f32) (t_col v1) _
      (fun e => by rw [t_col_apply, h1]) (fun e => by rw [JoinIota.broadcast_vec_column_apply, h3]) n k
  · rw [JoinIota.broadcast_column_apply, h10]

/-! ## The stretches' results as those terms -/

variable (m : (ℓ : Loc nD τ sig) → Buf (Elt Ideal) ℓ) (ρ : Dev nD → PrngReg)

/-- The edge words and the node rows of a core, as the specification indexes them. -/
abbrev EI (c : Dev nD) : Fin 2 → Fin 640000 → BitVec 32 := fun s e => (m ((c : Thread nD τ).loc main_arg1) : TI S2x640000) (ix2 s e)
abbrev X (c : Dev nD) : Fin 50000 → Fin 128 → EReal := fun n k => (m ((c : Thread nD τ).loc main_arg0) : TF S50000x128) (ix2 n k)

/-- "This stretch writes no such buffer." -/
macro "not_written" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_v1 (c : Dev nD) : StableHlo.after hostOps0 (W0 m ρ c) (Proc.devRef .tc main_v1) = t_v1 (m ((c : Thread nD τ).loc main_arg1)) := by
  after_results_simp
  unfold t_v1
  rfl

theorem W1_v3 (c : Dev nD) : StableHlo.after hostOps0 (W0 m ρ c) (Proc.devRef .tc main_v3) = t_v3 (m ((c : Thread nD τ).loc main_arg1)) := by
  after_results_simp
  unfold t_v3
  rfl

theorem W1_v10 (c : Dev nD) : StableHlo.after hostOps0 (W0 m ρ c) (Proc.devRef .tc main_v10) = t_v10 (t_v3 (m ((c : Thread nD τ).loc main_arg1))) := by
  after_results_simp
  unfold t_v10 t_v3
  rfl

set_option maxHeartbeats 1000000 in
theorem W1_v22 (c : Dev nD) : StableHlo.after hostOps0 (W0 m ρ c) (Proc.devRef .tc main_v22)
    = t_mean (m ((c : Thread nD τ).loc main_arg0)) (t_v1 (m ((c : Thread nD τ).loc main_arg1))) (t_v3 (m ((c : Thread nD τ).loc main_arg1)))
        (t_v10 (t_v3 (m ((c : Thread nD τ).loc main_arg1)))) := by
  after_results_simp
  unfold t_mean t_v10 t_v3 t_v1 t_col
  rfl

set_option maxHeartbeats 1000000 in
theorem W3_v35 (c : Dev nD) : StableHlo.after hostOps1 (W2 m ρ c) (Proc.devRef .tc main_v35)
    = t_mean (W2 m ρ c (Proc.devRef .tc main_v23_1)) (W2 m ρ c (Proc.devRef .tc main_v1)) (W2 m ρ c (Proc.devRef .tc main_v3))
        (W2 m ρ c (Proc.devRef .tc main_v10)) := by
  after_results_simp
  unfold t_mean t_col
  rfl

/-- The first region's neighbourhood-mean operand. -/
theorem mean1_entry (c : Dev nD) (n : Fin 50000) (k : Fin 128) :
    (V1 m ρ c main_v22 : TF S50000x128) (ix2 n k) = segMean (EI m c) (X m c) n k := by
  show (StableHlo.after hostOps0 (W0 m ρ c) (Proc.devRef .tc main_v22) : TF S50000x128) (ix2 n k) = _
  rw [W1_v22]
  exact t_mean_apply (EI m c) _ _ _ _ (fun e => t_v1_apply _ e) (fun e => t_v3_apply _ e)
    (fun n => t_v10_apply (EI m c) _ (fun e => t_v3_apply _ e) n) n k

/-- The second region's neighbourhood-mean operand: the mean of the rows the first region's second output holds. -/
theorem mean2_entry (c : Dev nD) (n : Fin 50000) (k : Fin 128) :
    (V3 m ρ c main_v35 : TF S50000x128) (ix2 n k)
      = segMean (EI m c) (fun n c' => (W2 m ρ c (Proc.devRef .tc main_v23_1) : TF S50000x128) (ix2 n c')) n k := by
  show (StableHlo.after hostOps1 (W2 m ρ c) (Proc.devRef .tc main_v35) : TF S50000x128) (ix2 n k) = _
  rw [W3_v35]
  have e1 : (W2 m ρ c (Proc.devRef .tc main_v1) : TI S640000) = t_v1 (m ((c : Thread nD τ).loc main_arg1)) :=
    (W2_of_ne m ρ c main_v1 (by decide)).trans (W1_v1 m ρ c)
  have e3 : (W2 m ρ c (Proc.devRef .tc main_v3) : TI S640000) = t_v3 (m ((c : Thread nD τ).loc main_arg1)) :=
    (W2_of_ne m ρ c main_v3 (by decide)).trans (W1_v3 m ρ c)
  have e10 : (W2 m ρ c (Proc.devRef .tc main_v10) : TF S50000x1) = t_v10 (t_v3 (m ((c : Thread nD τ).loc main_arg1))) :=
    (W2_of_ne m ρ c main_v10 (by decide)).trans (W1_v10 m ρ c)
  rw [e1, e3, e10]
  exact t_mean_apply (EI m c) _ _ _ _ (fun e => t_v1_apply _ e) (fun e => t_v3_apply _ e)
    (fun n => t_v10_apply (EI m c) _ (fun e => t_v3_apply _ e) n) n k

/-! ## What the stretches and the first region leave alone -/

theorem V1_arg0 (c : Dev nD) : V1 m ρ c main_arg0 = m ((c : Thread nD τ).loc main_arg0) := by
  show StableHlo.after hostOps0 (W0 m ρ c) (Proc.devRef .tc main_arg0) = _
  not_written hostOps0
theorem V1_arg3 (c : Dev nD) : V1 m ρ c main_arg3 = m ((c : Thread nD τ).loc main_arg3) := by
  show StableHlo.after hostOps0 (W0 m ρ c) (Proc.devRef .tc main_arg3) = _
  not_written hostOps0
theorem V1_arg4 (c : Dev nD) : V1 m ρ c main_arg4 = m ((c : Thread nD τ).loc main_arg4) := by
  show StableHlo.after hostOps0 (W0 m ρ c) (Proc.devRef .tc main_arg4) = _
  not_written hostOps0
theorem V1_arg5 (c : Dev nD) : V1 m ρ c main_arg5 = m ((c : Thread nD τ).loc main_arg5) := by
  show StableHlo.after hostOps0 (W0 m ρ c) (Proc.devRef .tc main_arg5) = _
  not_written hostOps0
theorem V1_arg6 (c : Dev nD) : V1 m ρ c main_arg6 = m ((c : Thread nD τ).loc main_arg6) := by
  show StableHlo.after hostOps0 (W0 m ρ c) (Proc.devRef .tc main_arg6) = _
  not_written hostOps0
theorem V1_arg7 (c : Dev nD) : V1 m ρ c main_arg7 = m ((c : Thread nD τ).loc main_arg7) := by
  show StableHlo.after hostOps0 (W0 m ρ c) (Proc.devRef .tc main_arg7) = _
  not_written hostOps0
theorem V1_arg8 (c : Dev nD) : V1 m ρ c main_arg8 = m ((c : Thread nD τ).loc main_arg8) := by
  show StableHlo.after hostOps0 (W0 m ρ c) (Proc.devRef .tc main_arg8) = _
  not_written hostOps0
theorem V1_arg9 (c : Dev nD) : V1 m ρ c main_arg9 = m ((c : Thread nD τ).loc main_arg9) := by
  show StableHlo.after hostOps0 (W0 m ρ c) (Proc.devRef .tc main_arg9) = _
  not_written hostOps0
theorem V1_arg10 (c : Dev nD) : V1 m ρ c main_arg10 = m ((c : Thread nD τ).loc main_arg10) := by
  show StableHlo.after hostOps0 (W0 m ρ c) (Proc.devRef .tc main_arg10) = _
  not_written hostOps0

theorem V3_v23_0 (c : Dev nD) : V3 m ρ c main_v23_0 = W2 m ρ c (Proc.devRef .tc main_v23_0) := by
  show StableHlo.after hostOps1 (W2 m ρ c) (Proc.devRef .tc main_v23_0) = _
  not_written hostOps1

theorem V3_arg11 (c : Dev nD) : V3 m ρ c main_arg11 = m ((c : Thread nD τ).loc main_arg11) :=
  calc V3 m ρ c main_arg11
    _ = W2 m ρ c (Proc.devRef .tc main_arg11) := by
        show StableHlo.after hostOps1 (W2 m ρ c) (Proc.devRef .tc main_arg11) = _
        not_written hostOps1
    _ = W1 m ρ c (Proc.devRef .tc main_arg11) := W2_of_ne m ρ c main_arg11 (by decide)
    _ = m ((c : Thread nD τ).loc main_arg11) := by
        show StableHlo.after hostOps0 (W0 m ρ c) (Proc.devRef .tc main_arg11) = _
        not_written hostOps0
theorem V3_arg12 (c : Dev nD) : V3 m ρ c main_arg12 = m ((c : Thread nD τ).loc main_arg12) :=
  calc V3 m ρ c main_arg12
    _ = W2 m ρ c (Proc.devRef .tc main_arg12) := by
        show StableHlo.after hostOps1 (W2 m ρ c) (Proc.devRef .tc main_arg12) = _
        not_written hostOps1
    _ = W1 m ρ c (Proc.devRef .tc main_arg12) := W2_of_ne m ρ c main_arg12 (by decide)
    _ = m ((c : Thread nD τ).loc main_arg12) := by
        show StableHlo.after hostOps0 (W0 m ρ c) (Proc.devRef .tc main_arg12) = _
        not_written hostOps0

end Cert.KernelIdeal.HostHead

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.HostTail.lean ====
import proofs.«170819_j39548058862204_2_alg».proof.Proof.Gen.KernelIdeal.Frame
import proofs.«170819_j39548058862204_2_alg».proof.Proof.Spec
import proofs.«170819_j39548058862204_2_alg».proof.Proof.LibGatherAt
import proofs.«170819_j39548058862204_2_alg».proof.Proof.LibConcatCols
import proofs.«170819_j39548058862204_2_alg».proof.Proof.LibJoinIota
import Idealize.ShloMosaic.Lib.ValueLayout
import Idealize.ShloMosaic.Lib.KernelVsHost

/-!
  The idealized kernel's last stretches of host operations, read as the mathematics.

  Before the third region the host cuts the link array into its two rows, lengthens each to 503808 words, counts a
  negative word from the end, gathers the rows of the encoder's output the words name and lays the two gathered
  blocks side by side; after the region it cuts the result back to 500000 entries. Read at a link below 500000 the
  lengthening is invisible, so the region's first array holds, in that row, the two end-point rows of the
  specification; the encoder's output is as the second region left it, the link array and the scorer's parameter
  arrays are as launched, since no operation of these stretches writes them and a region leaves its input arrays
  as it found them.
-/

noncomputable section

namespace Cert.KernelIdeal.HostTail

open Cert.KernelIdeal Cert.KernelIdeal.Gen Idealize.ShloMosaic Idealize.ShloMosaic.TcCoe
  Idealize.ShloMosaic.ValueIdx Idealize.SL.Sem Cert.Sage

/-! ## The operations of the last stretches, as functions of their operands, read at an entry -/

/-- An index vector as a column, a negative word counted from the end of the 50000 rows, read at `(r, 0)`. -/
theorem wrapCol_at (a : IVec S503808 32) (r : Fin 503808) :
    broadcastInDim S503808x1 ![0] bcast_S503808_S503808x1_0
      (select (cmpi .slt a (broadcastInDim S503808 ![] bcast_S_S503808 (constantI S_ 32 0#32)))
        (addi a (broadcastInDim S503808 ![] bcast_S_S503808 (constantI S_ 32 50000#32))) a) (ix2 r (0 : Fin 1))
      = wrap (a (ix1 r)) := by
  rw [JoinIota.broadcast_vec_column_apply]
  exact JoinIota.wrap_index_apply (50000#32) bcast_S_S503808 a (ix1 r)

/-- The two gathered blocks of rows side by side. -/
def joined (z : FVec Ideal S50000x128 .bf16) (a b : IVec S503808 32) : FVec Ideal S503808x256 .bf16 :=
  concatenate S503808x256 1
    [⟨S503808x128, Host.gather gather_S50000x128_S503808x1_S503808x128_1_0_n_n_0_1_1128 z
        (broadcastInDim S503808x1 ![0] bcast_S503808_S503808x1_0
          (select (cmpi .slt a (broadcastInDim S503808 ![] bcast_S_S503808 (constantI S_ 32 0#32)))
            (addi a (broadcastInDim S503808 ![] bcast_S_S503808 (constantI S_ 32 50000#32))) a))⟩,
     ⟨S503808x128, Host.gather gather_S50000x128_S503808x1_S503808x128_1_0_n_n_0_1_1128 z
        (broadcastInDim S503808x1 ![0] bcast_S503808_S503808x1_0
          (select (cmpi .slt b (broadcastInDim S503808 ![] bcast_S_S503808 (constantI S_ 32 0#32)))
            (addi b (broadcastInDim S503808 ![] bcast_S_S503808 (constantI S_ 32 50000#32))) b))⟩]
    concatenates_S503808x128_S503808x128_S503808x256_d1

/-- Row `r` of the joined blocks: the table's row named by the first word, then the row named by the second. -/
theorem joined_apply (z : FVec Ideal S50000x128 .bf16) (a b : IVec S503808 32) (r : Fin 503808) (k : Fin 256) :
    (joined z a b (ix2 r k) : EReal)
      = cat (fun k' => z (ix2 (rowOf (a (ix1 r))) k')) (fun k' => z (ix2 (rowOf (b (ix1 r))) k')) k := by
  have hd : gather_S50000x128_S503808x1_S503808x128_1_0_n_n_0_1_1128
      = GatherRows.rowDims 50000 503808 128 gather_S50000x128_S503808x1_S503808x128_1_0_n_n_0_1_1128_wf := rfl
  unfold joined cat
  by_cases hk : k.val < 128
  · rw [dif_pos hk]
    refine (concatenate_cols_left _ _ _ r k ⟨k.val, hk⟩ rfl).trans ?_
    rw [hd, GatherAt.gather_rows_at (by decide) _ _ _ r ⟨k.val, hk⟩ _ (wrapCol_at a r)]
    rfl
  · rw [dif_neg hk]
    have hk' : k.val - 128 < 128 := by have := k.isLt; omega
    refine (concatenate_cols_right _ _ _ r k ⟨k.val - 128, hk'⟩ (by show k.val - 128 + 128 = k.val; omega)).trans ?_
    rw [hd, GatherAt.gather_rows_at (by decide) _ _ _ r ⟨k.val - 128, hk'⟩ _ (wrapCol_at b r)]
    rfl

/-- A vector of 500000 words lengthened by 3808 more reads, below 500000, as the vector. -/
theorem padded_at (x : IVec S500000 32) (v : IVec S_ 32) (r : Fin 500000) :
    pad S503808 ![0] ![3808] ![0] x v pads_S500000_S503808_038080 h_S_ (ix1 (⟨r.val, by omega⟩ : Fin 503808))
      = x (ix1 r) :=
  pad_apply_of_inside _ _ _ x v _ _ _ (ix1 r) (fun a => by
    match a with
    | ⟨0, _⟩ => show r.val = 0 + r.val * (0 + 1); omega)

/-- Row `0` and row `1` of the link array as vectors. -/
theorem row0_at (x : IVec S2x500000 32) (r : Fin 500000) :
    shapeCast S500000 (extractStridedSlice S1x500000 ![0, 0] x slices_S2x500000_S1x500000_0_0)
      shapeCasts_S1x500000_S500000 (ix1 r) = x (ix2 (0 : Fin 2) r) := by
  rw [shapeCast_1a_a_apply]
  exact slice2_axis0_apply 0 x slices_S2x500000_S1x500000_0_0 (0 : Fin 1) r (0 : Fin 2) rfl

theorem row1_at (x : IVec S2x500000 32) (r : Fin 500000) :
    shapeCast S500000 (extractStridedSlice S1x500000 ![1, 0] x slices_S2x500000_S1x500000_1_0)
      shapeCasts_S1x500000_S500000 (ix1 r) = x (ix2 (1 : Fin 2) r) := by
  rw [shapeCast_1a_a_apply]
  exact slice2_axis0_apply 1 x slices_S2x500000_S1x500000_1_0 (0 : Fin 1) r (1 : Fin 2) rfl

variable (m : (ℓ : Loc nD τ sig) → Buf (Elt Ideal) ℓ) (ρ : Dev nD → PrngReg)

/-- A stretch of host operations leaves a buffer none of them writes. -/
local macro "kept" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## The stretches' results as the operations' terms, from any contents -/

/-- The last stretch before region 2: the region's first array is the joined blocks. -/
theorem entry_of (V0 : Valuation τ sig (Elt Ideal)) :
    (StableHlo.after hostOps2_4 V0 (Proc.devRef .tc main_v57) : S503808x256.Idx → EReal)
      = joined (V0 (Proc.devRef .tc main_v36)) (V0 (Proc.devRef .tc main_v41)) (V0 (Proc.devRef .tc main_v42)) := by
  after_results_simp
  rfl

/-- The two rows of the link array as vectors. -/
theorem row0_of (V0 : Valuation τ sig (Elt Ideal)) :
    (StableHlo.after hostOps2 V0 (Proc.devRef .tc main_v38) : S500000.Idx → BitVec 32)
      = shapeCast S500000 (extractStridedSlice S1x500000 ![0, 0] (V0 (Proc.devRef .tc main_arg2))
          slices_S2x500000_S1x500000_0_0) shapeCasts_S1x500000_S500000 := by
  after_results_simp
  rfl

theorem row1_of (V0 : Valuation τ sig (Elt Ideal)) :
    (StableHlo.after hostOps2 V0 (Proc.devRef .tc main_v40) : S500000.Idx → BitVec 32)
      = shapeCast S500000 (extractStridedSlice S1x500000 ![1, 0] (V0 (Proc.devRef .tc main_arg2))
          slices_S2x500000_S1x500000_1_0) shapeCasts_S1x500000_S500000 := by
  after_results_simp
  rfl

/-- Each row vector lengthened to 503808 words. -/
theorem pad0_of (V0 : Valuation τ sig (Elt Ideal)) :
    (StableHlo.after hostOps2_1 V0 (Proc.devRef .tc main_v41) : S503808.Idx → BitVec 32)
      = pad S503808 ![0] ![3808] ![0] (V0 (Proc.devRef .tc main_v38)) (V0 (Proc.devRef .tc main_c_7))
          pads_S500000_S503808_038080 h_S_ := by
  after_results_simp
  rfl

theorem pad1_of (V0 : Valuation τ sig (Elt Ideal)) :
    (StableHlo.after hostOps2_3 V0 (Proc.devRef .tc main_v42) : S503808.Idx → BitVec 32)
      = pad S503808 ![0] ![3808] ![0] (V0 (Proc.devRef .tc main_v40)) (V0 (Proc.devRef .tc main_c_8))
          pads_S500000_S503808_038080 h_S_ := by
  after_results_simp
  rfl

/-- The result vector cut back to its first 500000 entries. -/
theorem cut_of (V0 : Valuation τ sig (Elt Ideal)) :
    (StableHlo.after hostOps3 V0 (Proc.devRef .tc main_v59) : S500000.Idx → EReal)
      = extractStridedSlice S500000 ![0] (V0 (Proc.devRef .tc main_v58)) slices_S503808_S500000_0 := by
  after_results_simp

/-! ## The buffers the stretches read, walked back -/

/-- The encoder's output array is as region 1 left it. -/
theorem v36_kept (c : Dev nD) :
    W8 m ρ c (Proc.devRef .tc main_v36) = W4 m ρ c (Proc.devRef .tc main_v36) :=
  calc W8 m ρ c (Proc.devRef .tc main_v36)
    _ = W7 m ρ c (Proc.devRef .tc main_v36) := by kept hostOps2_3
    _ = W6 m ρ c (Proc.devRef .tc main_v36) := by kept hostOps2_2
    _ = W5 m ρ c (Proc.devRef .tc main_v36) := by kept hostOps2_1
    _ = W4 m ρ c (Proc.devRef .tc main_v36) := by kept hostOps2

/-- The link array is as launched. -/
theorem arg2_kept (c : Dev nD) :
    W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by kept hostOps1
    _ = W1 m ρ c (Proc.devRef .tc main_arg2) := W2_of_ne m ρ c main_arg2 (by decide)
    _ = W0 m ρ c (Proc.devRef .tc main_arg2) := by kept hostOps0
    _ = m ((c : Thread nD τ).loc main_arg2) := rfl

/-- Below 500000 the first lengthened index vector holds the first row of the link array. -/
theorem idx0_at (c : Dev nD) (r : Fin 500000) :
    (W8 m ρ c (Proc.devRef .tc main_v41) : S503808.Idx → BitVec 32) (ix1 (⟨r.val, by omega⟩ : Fin 503808))
      = (m ((c : Thread nD τ).loc main_arg2) : S2x500000.Idx → BitVec 32) (ix2 (0 : Fin 2) r) := by
  have h1 : W8 m ρ c (Proc.devRef .tc main_v41) = W6 m ρ c (Proc.devRef .tc main_v41) :=
    calc W8 m ρ c (Proc.devRef .tc main_v41)
      _ = W7 m ρ c (Proc.devRef .tc main_v41) := by kept hostOps2_3
      _ = W6 m ρ c (Proc.devRef .tc main_v41) := by kept hostOps2_2
  calc (W8 m ρ c (Proc.devRef .tc main_v41) : S503808.Idx → BitVec 32) (ix1 (⟨r.val, by omega⟩ : Fin 503808))
    _ = (W6 m ρ c (Proc.devRef .tc main_v41) : S503808.Idx → BitVec 32) (ix1 (⟨r.val, by omega⟩ : Fin 503808)) :=
        congrFun h1 _
    _ = (W5 m ρ c (Proc.devRef .tc main_v38) : S500000.Idx → BitVec 32) (ix1 r) :=
        (congrFun (pad0_of (W5 m ρ c)) _).trans (padded_at _ _ r)
    _ = (W4 m ρ c (Proc.devRef .tc main_arg2) : S2x500000.Idx → BitVec 32) (ix2 (0 : Fin 2) r) :=
        (congrFun (row0_of (W4 m ρ c)) _).trans (row0_at _ r)
    _ = _ := congrFun (arg2_kept m ρ c) _

/-- Below 500000 the second lengthened index vector holds the second row of the link array. -/
theorem idx1_at (c : Dev nD) (r : Fin 500000) :
    (W8 m ρ c (Proc.devRef .tc main_v42) : S503808.Idx → BitVec 32) (ix1 (⟨r.val, by omega⟩ : Fin 503808))
      = (m ((c : Thread nD τ).loc main_arg2) : S2x500000.Idx → BitVec 32) (ix2 (1 : Fin 2) r) := by
  have h1 : W7 m ρ c (Proc.devRef .tc main_v40) = W5 m ρ c (Proc.devRef .tc main_v40) :=
    calc W7 m ρ c (Proc.devRef .tc main_v40)
      _ = W6 m ρ c (Proc.devRef .tc main_v40) := by kept hostOps2_2
      _ = W5 m ρ c (Proc.devRef .tc main_v40) := by kept hostOps2_1
  calc (W8 m ρ c (Proc.devRef .tc main_v42) : S503808.Idx → BitVec 32) (ix1 (⟨r.val, by omega⟩ : Fin 503808))
    _ = (W7 m ρ c (Proc.devRef .tc main_v40) : S500000.Idx → BitVec 32) (ix1 r) :=
        (congrFun (pad1_of (W7 m ρ c)) _).trans (padded_at _ _ r)
    _ = (W5 m ρ c (Proc.devRef .tc main_v40) : S500000.Idx → BitVec 32) (ix1 r) := congrFun h1 _
    _ = (W4 m ρ c (Proc.devRef .tc main_arg2) : S2x500000.Idx → BitVec 32) (ix2 (1 : Fin 2) r) :=
        (congrFun (row1_of (W4 m ρ c)) _).trans (row1_at _ r)
    _ = _ := congrFun (arg2_kept m ρ c) _

/-! ## What region 2 is given, and what is returned -/

/-- ROW `r` OF REGION 2'S FIRST ARRAY, for a link `r`: the two end-point rows of the encoder's output side by side. -/
theorem q_entry (c : Dev nD) (r : Fin 500000) (k : Fin 256) :
    (V9 m ρ c main_v57 : S503808x256.Idx → EReal) (ix2 (⟨r.val, by omega⟩ : Fin 503808) k)
      = Cert.Sage.ends (fun n c' => (W4 m ρ c (Proc.devRef .tc main_v36) : S50000x128.Idx → EReal) (ix2 n c'))
          (fun s r' => (m ((c : Thread nD τ).loc main_arg2) : S2x500000.Idx → BitVec 32) (ix2 s r')) r k := by
  refine (congrFun (entry_of (W8 m ρ c)) _).trans ?_
  rw [joined_apply, idx0_at, idx1_at, v36_kept]
  rfl

/-- THE RETURNED VECTOR is the first 500000 entries of region 2's result. -/
theorem out_slice (c : Dev nD) (r : Fin 500000) :
    (W11 m ρ c (Proc.devRef .tc main_v59) : S500000.Idx → EReal) (ix1 r)
      = (W10 m ρ c (Proc.devRef .tc main_v58) : S503808.Idx → EReal) (ix1 (⟨r.val, by omega⟩ : Fin 503808)) :=
  (congrFun (cut_of (W10 m ρ c)) _).trans
    (extractStridedSlice_apply ![0] _ slices_S503808_S500000_0 (ix1 r) (ix1 (⟨r.val, by omega⟩ : Fin 503808))
      (fun a => by
        match a with
        | ⟨0, _⟩ => show r.val = 0 + r.val; omega))

/-! ## The scorer's parameter arrays reach region 2 as launched

Each is an input window of region 2, which leaves it as it entered, and the last stretch does not write it. -/

theorem V9_arg13 (c : Dev nD) : V9 m ρ c main_arg13 = m ((c : Thread nD τ).loc main_arg13) :=
  (((by kept hostOps3 : W11 m ρ c (Proc.devRef .tc main_arg13) = W10 m ρ c (Proc.devRef .tc main_arg13)).trans
    ((W10_arr m ρ c 1).trans (((dat2 (V9 m ρ) c).arrAt_in 1 rfl _).trans (A_eq2 (V9 m ρ) c 1)))).symm).trans
    (W11_main_arg13 m ρ c)

theorem V9_arg14 (c : Dev nD) : V9 m ρ c main_arg14 = m ((c : Thread nD τ).loc main_arg14) :=
  (((by kept hostOps3 : W11 m ρ c (Proc.devRef .tc main_arg14) = W10 m ρ c (Proc.devRef .tc main_arg14)).trans
    ((W10_arr m ρ c 2).trans (((dat2 (V9 m ρ) c).arrAt_in 2 rfl _).trans (A_eq2 (V9 m ρ) c 2)))).symm).trans
    (W11_main_arg14 m ρ c)

theorem V9_arg15 (c : Dev nD) : V9 m ρ c main_arg15 = m ((c : Thread nD τ).loc main_arg15) :=
  (((by kept hostOps3 : W11 m ρ c (Proc.devRef .tc main_arg15) = W10 m ρ c (Proc.devRef .tc main_arg15)).trans
    ((W10_arr m ρ c 3).trans (((dat2 (V9 m ρ) c).arrAt_in 3 rfl _).trans (A_eq2 (V9 m ρ) c 3)))).symm).trans
    (W11_main_arg15 m ρ c)

theorem V9_arg16 (c : Dev nD) : V9 m ρ c main_arg16 = m ((c : Thread nD τ).loc main_arg16) :=
  (((by kept hostOps3 : W11 m ρ c (Proc.devRef .tc main_arg16) = W10 m ρ c (Proc.devRef .tc main_arg16)).trans
    ((W10_arr m ρ c 4).trans (((dat2 (V9 m ρ) c).arrAt_in 4 rfl _).trans (A_eq2 (V9 m ρ) c 4)))).symm).trans
    (W11_main_arg16 m ρ c)

theorem V9_arg17 (c : Dev nD) : V9 m ρ c main_arg17 = m ((c : Thread nD τ).loc main_arg17) :=
  (((by kept hostOps3 : W11 m ρ c (Proc.devRef .tc main_arg17) = W10 m ρ c (Proc.devRef .tc main_arg17)).trans
    ((W10_arr m ρ c 5).trans (((dat2 (V9 m ρ) c).arrAt_in 5 rfl _).trans (A_eq2 (V9 m ρ) c 5)))).symm).trans
    (W11_main_arg17 m ρ c)

theorem V9_arg18 (c : Dev nD) : V9 m ρ c main_arg18 = m ((c : Thread nD τ).loc main_arg18) :=
  (((by kept hostOps3 : W11 m ρ c (Proc.devRef .tc main_arg18) = W10 m ρ c (Proc.devRef .tc main_arg18)).trans
    ((W10_arr m ρ c 6).trans (((dat2 (V9 m ρ) c).arrAt_in 6 rfl _).trans (A_eq2 (V9 m ρ) c 6)))).symm).trans
    (W11_main_arg18 m ρ c)

theorem V9_arg19 (c : Dev nD) : V9 m ρ c main_arg19 = m ((c : Thread nD τ).loc main_arg19) :=
  (((by kept hostOps3 : W11 m ρ c (Proc.devRef .tc main_arg19) = W10 m ρ c (Proc.devRef .tc main_arg19)).trans
    ((W10_arr m ρ c 7).trans (((dat2 (V9 m ρ) c).arrAt_in 7 rfl _).trans (A_eq2 (V9 m ρ) c 7)))).symm).trans
    (W11_main_arg19 m ρ c)

theorem V9_arg20 (c : Dev nD) : V9 m ρ c main_arg20 = m ((c : Thread nD τ).loc main_arg20) :=
  (((by kept hostOps3 : W11 m ρ c (Proc.devRef .tc main_arg20) = W10 m ρ c (Proc.devRef .tc main_arg20)).trans
    ((W10_arr m ρ c 8).trans (((dat2 (V9 m ρ) c).arrAt_in 8 rfl _).trans (A_eq2 (V9 m ρ) c 8)))).symm).trans
    (W11_main_arg20 m ρ c)

theorem V9_arg21 (c : Dev nD) : V9 m ρ c main_arg21 = m ((c : Thread nD τ).loc main_arg21) :=
  (((by kept hostOps3 : W11 m ρ c (Proc.devRef .tc main_arg21) = W10 m ρ c (Proc.devRef .tc main_arg21)).trans
    ((W10_arr m ρ c 9).trans (((dat2 (V9 m ρ) c).arrAt_in 9 rfl _).trans (A_eq2 (V9 m ρ) c 9)))).symm).trans
    (W11_main_arg21 m ρ c)

theorem V9_arg22 (c : Dev nD) : V9 m ρ c main_arg22 = m ((c : Thread nD τ).loc main_arg22) :=
  (((by kept hostOps3 : W11 m ρ c (Proc.devRef .tc main_arg22) = W10 m ρ c (Proc.devRef .tc main_arg22)).trans
    ((W10_arr m ρ c 10).trans (((dat2 (V9 m ρ) c).arrAt_in 10 rfl _).trans (A_eq2 (V9 m ρ) c 10)))).symm).trans
    (W11_main_arg22 m ρ c)

theorem V9_arg23 (c : Dev nD) : V9 m ρ c main_arg23 = m ((c : Thread nD τ).loc main_arg23) :=
  (((by kept hostOps3 : W11 m ρ c (Proc.devRef .tc main_arg23) = W10 m ρ c (Proc.devRef .tc main_arg23)).trans
    ((W10_arr m ρ c 11).trans (((dat2 (V9 m ρ) c).arrAt_in 11 rfl _).trans (A_eq2 (V9 m ρ) c 11)))).symm).trans
    (W11_main_arg23 m ρ c)

theorem V9_arg24 (c : Dev nD) : V9 m ρ c main_arg24 = m ((c : Thread nD τ).loc main_arg24) :=
  (((by kept hostOps3 : W11 m ρ c (Proc.devRef .tc main_arg24) = W10 m ρ c (Proc.devRef .tc main_arg24)).trans
    ((W10_arr m ρ c 12).trans (((dat2 (V9 m ρ) c).arrAt_in 12 rfl _).trans (A_eq2 (V9 m ρ) c 12)))).symm).trans
    (W11_main_arg24 m ρ c)

theorem V9_arg25 (c : Dev nD) : V9 m ρ c main_arg25 = m ((c : Thread nD τ).loc main_arg25) :=
  (((by kept hostOps3 : W11 m ρ c (Proc.devRef .tc main_arg25) = W10 m ρ c (Proc.devRef .tc main_arg25)).trans
    ((W10_arr m ρ c 13).trans (((dat2 (V9 m ρ) c).arrAt_in 13 rfl _).trans (A_eq2 (V9 m ρ) c 13)))).symm).trans
    (W11_main_arg25 m ρ c)

theorem V9_arg26 (c : Dev nD) : V9 m ρ c main_arg26 = m ((c : Thread nD τ).loc main_arg26) :=
  (((by kept hostOps3 : W11 m ρ c (Proc.devRef .tc main_arg26) = W10 m ρ c (Proc.devRef .tc main_arg26)).trans
    ((W10_arr m ρ c 14).trans (((dat2 (V9 m ρ) c).arrAt_in 14 rfl _).trans (A_eq2 (V9 m ρ) c 14)))).symm).trans
    (W11_main_arg26 m ρ c)

end Cert.KernelIdeal.HostTail

end
-- ==== Proof.KValue.lean ====
/-
  The idealized kernel's result, entry by entry, as the specification's link score.

  The three regions and the host stretches between them are chained: the first region's outputs are the hidden layer
  and its projection by `W2l` (of the neighbourhood mean the first stretch formed); the second stretch averages the
  projected rows over each node's neighbourhood, and the second region adds the hidden layer against `W2r` and the bias:
  the encoder's output in the project-then-average order (`zK`).  The third stretch joins the two end-point rows of every
  link (the padded links' rows are never read below), the third region scores them, and the last stretch cuts the
  500000 true links out of the padded result.
-/
import proofs.«170819_j39548058862204_2_alg».proof.Proof.Region0
import proofs.«170819_j39548058862204_2_alg».proof.Proof.Region1
import proofs.«170819_j39548058862204_2_alg».proof.Proof.Region2
import proofs.«170819_j39548058862204_2_alg».proof.Proof.HostHead
import proofs.«170819_j39548058862204_2_alg».proof.Proof.HostTail

noncomputable section
namespace Cert.KernelIdeal.KValue
open Cert.KernelIdeal Cert.KernelIdeal.Gen Idealize.ShloMosaic Idealize.ShloMosaic.ValueIdx Idealize.ShloMosaic.TcCoe Idealize.SL.Sem Cert.Sage
open Cert.KernelIdeal.HostHead (TI TF EI X)

variable (m : (ℓ : Loc nD τ sig) → Buf (Elt Ideal) ℓ) (ρ : Dev nD → PrngReg)

/-- A core's weight arrays as the specification indexes them. -/
abbrev mat {a b : ℕ} (f : (⟨2, ![a, b]⟩ : Shape).Idx → EReal) : Fin a → Fin b → EReal := fun i j => f (ix2 i j)
abbrev vec {a : ℕ} (f : (⟨1, ![a]⟩ : Shape).Idx → EReal) : Fin a → EReal := fun i => f (ix1 i)

/-- The hidden layer of a core's arguments. -/
def H (c : Dev nD) : Fin 50000 → Fin 256 → EReal :=
  hid (EI m c) (X m c) (mat (m ((c : Thread nD τ).loc main_arg3))) (mat (m ((c : Thread nD τ).loc main_arg4)))
    (vec (m ((c : Thread nD τ).loc main_arg5))) (vec (m ((c : Thread nD τ).loc main_arg6))) (vec (m ((c : Thread nD τ).loc main_arg7)))
    (vec (m ((c : Thread nD τ).loc main_arg8))) (vec (m ((c : Thread nD τ).loc main_arg9)))

/-- The encoder's output of a core's arguments, in the kernel's order. -/
def Z (c : Dev nD) : Fin 50000 → Fin 128 → EReal :=
  zK (EI m c) (H m c) (mat (m ((c : Thread nD τ).loc main_arg10))) (mat (m ((c : Thread nD τ).loc main_arg11)))
    (vec (m ((c : Thread nD τ).loc main_arg12)))

/-- The first region's first output is the hidden layer. -/
theorem h_entry (c : Dev nD) (n : Fin 50000) (j : Fin 256) :
    (W2 m ρ c (Proc.devRef .tc main_v23_0) : TF S50000x256) (ix2 n j) = H m c n j := by
  rw [show (W2 m ρ c (Proc.devRef .tc main_v23_0) : TF S50000x256) = (dat0 (V1 m ρ) c).arrAt 10 cfg0.N from W2_arr m ρ c 10,
    Region0.hid_final (V1 m ρ) c n j]
  rw [show (fun (n : Fin 50000) (k : Fin 128) => V1 m ρ c main_v22 (ix2 n k)) = segMean (EI m c) (X m c) from
      funext fun n => funext fun k => HostHead.mean1_entry m ρ c n k,
    HostHead.V1_arg0, HostHead.V1_arg3, HostHead.V1_arg4, HostHead.V1_arg5, HostHead.V1_arg6, HostHead.V1_arg7, HostHead.V1_arg8, HostHead.V1_arg9]
  rfl

/-- The first region's second output is the hidden layer projected by `W2l`. -/
theorem hp_entry (c : Dev nD) (n : Fin 50000) (k : Fin 128) :
    (W2 m ρ c (Proc.devRef .tc main_v23_1) : TF S50000x128) (ix2 n k)
      = dotT (H m c n) (mat (m ((c : Thread nD τ).loc main_arg10)) k) := by
  rw [show (W2 m ρ c (Proc.devRef .tc main_v23_1) : TF S50000x128) = (dat0 (V1 m ρ) c).arrAt 11 cfg0.N from W2_arr m ρ c 11,
    Region0.hp_final (V1 m ρ) c n k]
  rw [show (fun (n : Fin 50000) (k : Fin 128) => V1 m ρ c main_v22 (ix2 n k)) = segMean (EI m c) (X m c) from
      funext fun n => funext fun k => HostHead.mean1_entry m ρ c n k,
    HostHead.V1_arg0, HostHead.V1_arg3, HostHead.V1_arg4, HostHead.V1_arg5, HostHead.V1_arg6, HostHead.V1_arg7, HostHead.V1_arg8, HostHead.V1_arg9, HostHead.V1_arg10]
  rfl

/-- The second region's output is the encoder's output. -/
theorem z_entry (c : Dev nD) (n : Fin 50000) (k : Fin 128) :
    (W4 m ρ c (Proc.devRef .tc main_v36) : TF S50000x128) (ix2 n k) = Z m c n k := by
  rw [show (W4 m ρ c (Proc.devRef .tc main_v36) : TF S50000x128) = (dat1 (V3 m ρ) c).arrAt 4 cfg1.N from W4_arr m ρ c 4,
    Region1.z_final (V3 m ρ) c n k]
  rw [HostHead.mean2_entry, HostHead.V3_v23_0, HostHead.V3_arg11, HostHead.V3_arg12,
    show (fun j : Fin 256 => (W2 m ρ c (Proc.devRef .tc main_v23_0) : TF S50000x256) (ix2 n j)) = H m c n from funext (h_entry m ρ c n),
    show (fun (n : Fin 50000) (c' : Fin 128) => (W2 m ρ c (Proc.devRef .tc main_v23_1) : TF S50000x128) (ix2 n c'))
      = (fun n c' => dotT (H m c n) (mat (m ((c : Thread nD τ).loc main_arg10)) c')) from funext fun n => funext fun c' => hp_entry m ρ c n c']
  rfl

/-- THE RESULT: entry `r` is the score of link `r`'s joined end-point rows of the encoder's output. -/
theorem out_entry (c : Dev nD) (r : Fin 500000) :
    (W11 m ρ c (Proc.devRef .tc main_v59) : TF S500000) (ix1 r)
      = score (mat (m ((c : Thread nD τ).loc main_arg13))) (vec (m ((c : Thread nD τ).loc main_arg14))) (vec (m ((c : Thread nD τ).loc main_arg15)))
          (vec (m ((c : Thread nD τ).loc main_arg16))) (vec (m ((c : Thread nD τ).loc main_arg17))) (vec (m ((c : Thread nD τ).loc main_arg18)))
          (mat (m ((c : Thread nD τ).loc main_arg19))) (vec (m ((c : Thread nD τ).loc main_arg20))) (vec (m ((c : Thread nD τ).loc main_arg21)))
          (vec (m ((c : Thread nD τ).loc main_arg22))) (vec (m ((c : Thread nD τ).loc main_arg23))) (vec (m ((c : Thread nD τ).loc main_arg24)))
          (fun k => (m ((c : Thread nD τ).loc main_arg25) : TF S1x128) (ix2 (0 : Fin 1) k)) ((m ((c : Thread nD τ).loc main_arg26) : TF S1) (ix1 (0 : Fin 1)))
          (ends (Z m c) (fun s r' => (m ((c : Thread nD τ).loc main_arg2) : TI S2x500000) (ix2 s r')) r) := by
  rw [HostTail.out_slice m ρ c r,
    show (W10 m ρ c (Proc.devRef .tc main_v58) : TF S503808) = (dat2 (V9 m ρ) c).arrAt 15 cfg2.N from W10_arr m ρ c 15,
    Region2.score_final (V9 m ρ) c _]
  rw [HostTail.V9_arg13, HostTail.V9_arg14, HostTail.V9_arg15, HostTail.V9_arg16, HostTail.V9_arg17, HostTail.V9_arg18, HostTail.V9_arg19, HostTail.V9_arg20, HostTail.V9_arg21, HostTail.V9_arg22, HostTail.V9_arg23, HostTail.V9_arg24, HostTail.V9_arg25, HostTail.V9_arg26]
  refine congrArg _ (funext fun k => (HostTail.q_entry m ρ c r k).trans ?_)
  rw [show (fun (n : Fin 50000) (c' : Fin 128) => (W4 m ρ c (Proc.devRef .tc main_v36) : TF S50000x128) (ix2 n c')) = Z m c from
    funext fun n => funext fun c' => z_entry m ρ c n c']

end Cert.KernelIdeal.KValue

end
-- ==== Proof.RefRead.lean ====
import proofs.«170819_j39548058862204_2_alg».proof.Proof.Gen.ReferenceIdeal.Read
import proofs.«170819_j39548058862204_2_alg».proof.Proof.Spec
import proofs.«170819_j39548058862204_2_alg».proof.Proof.SegRead
import proofs.«170819_j39548058862204_2_alg».proof.Proof.LibJoinIota
import proofs.«170819_j39548058862204_2_alg».proof.Proof.LibGatherAt
import proofs.«170819_j39548058862204_2_alg».proof.Proof.LibConcatCols

/-!
  The reference program read back as the mathematics: each of its stages, at an index, is the corresponding
  function of the specification. The index columns are the edge words (a source word counted from the end when
  negative, a target word as it is); an accumulating scatter into zeros of gathered rows is a neighbourhood sum;
  the count of ones floored at one is the divisor; a product with a transposed weight matrix is a row against a
  row of weights; a row spread over all rows is read at its column; and the result is the link scorer applied to
  the two end-point rows of the encoder's output laid side by side.
-/

noncomputable section

open scoped BigOperators

namespace Cert.RefRead

open Cert.ReferenceIdeal Cert.ReferenceIdeal.Gen Cert.ReferenceIdeal.Read Idealize.ShloMosaic
  Idealize.ShloMosaic.ValueIdx Cert.Sage

/-- An integer array and a float array of the reference, over the extended reals. -/
abbrev TI (s : Shape) : Type := (⟨s, .i32⟩ : BufTy).Contents (Elt Ideal)
abbrev TF (s : Shape) : Type := (⟨s, .f32⟩ : BufTy).Contents (Elt Ideal)

/-- A matrix and a vector as the specification takes them: by row and column, by position. -/
abbrev mat {a b : ℕ} (x : FVec Ideal ⟨2, ![a, b]⟩ .f32) : Fin a → Fin b → EReal := fun p q => x (ix2 p q)
abbrev vec {a : ℕ} (x : FVec Ideal ⟨1, ![a]⟩ .f32) : Fin a → EReal := fun p => x (ix1 p)
/-- The two rows of an index array, word by word. -/
abbrev rows2 {a : ℕ} (x : IVec ⟨2, ![2, a]⟩ 32) : Fin 2 → Fin a → BitVec 32 := fun s e => x (ix2 s e)

/-- Two index tuples of rank one, of rank two, with equal coordinates. -/
local macro "idx1" : tactic => `(tactic| exact funext fun a => Fin.ext (by match a with | ⟨0, _⟩ => rfl))
local macro "idx2" : tactic =>
  `(tactic| exact funext fun a => Fin.ext (by match a with | ⟨0, _⟩ => rfl | ⟨1, _⟩ => rfl))

variable (x0 : TF S50000x128) (x1 : TI S2x640000) (x2 : TI S2x500000) (x3 x4 : TF S256x128)
  (x5 x6 x7 x8 x9 : TF S256) (x10 x11 : TF S128x256) (x12 : TF S128) (x13 : TF S256x256)
  (x14 x15 x16 x17 x18 : TF S256) (x19 : TF S128x256) (x20 x21 x22 x23 x24 : TF S128)
  (x25 : TF S1x128) (x26 : TF S1)

/-! ## The index columns, word by word -/

/-- The first row of the edge array as a vector: the source words. -/
theorem v1_at (e : Fin 640000) : val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

/-- The second row of the edge array as a vector: the target words. -/
theorem v3_at (e : Fin 640000) : val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

/-! The source column of either layer: the source word, a negative one counted from the end. -/

theorem v9_at (e : Fin 640000) : val_main_v9 (F := Ideal) x1 (ix2 e (0 : Fin 1)) = wrap (x1 (ix2 (0 : Fin 2) e)) := by
  have hi : idx_main_v9 (ix2 e (0 : Fin 1)) = ix1 e := by idx1
  rw [val_main_v9_apply, hi]
  have h := JoinIota.wrap_index_apply (50000#32) bcast_S_S640000 (val_main_v1 (F := Ideal) x1) (ix1 e)
  rw [v1_at] at h
  exact h

theorem v52_at (e : Fin 640000) : val_main_v52 (F := Ideal) x1 (ix2 e (0 : Fin 1)) = wrap (x1 (ix2 (0 : Fin 2) e)) := by
  have hi : idx_main_v52 (ix2 e (0 : Fin 1)) = ix1 e := by idx1
  rw [val_main_v52_apply, hi]
  have h := JoinIota.wrap_index_apply (50000#32) bcast_S_S640000 (val_main_v1 (F := Ideal) x1) (ix1 e)
  rw [v1_at] at h
  exact h

/-! The four target columns: the target word itself. -/

theorem v12_at (e : Fin 640000) : val_main_v12 (F := Ideal) x1 (ix2 e (0 : Fin 1)) = x1 (ix2 (1 : Fin 2) e) := by
  have hi : idx_main_v12 (ix2 e (0 : Fin 1)) = ix1 e := by idx1
  rw [val_main_v12_apply, hi, v3_at]

theorem v16_at (e : Fin 640000) : val_main_v16 (F := Ideal) x1 (ix2 e (0 : Fin 1)) = x1 (ix2 (1 : Fin 2) e) := by
  have hi : idx_main_v16 (ix2 e (0 : Fin 1)) = ix1 e := by idx1
  rw [val_main_v16_apply, hi, v3_at]

theorem v55_at (e : Fin 640000) : val_main_v55 (F := Ideal) x1 (ix2 e (0 : Fin 1)) = x1 (ix2 (1 : Fin 2) e) := by
  have hi : idx_main_v55 (ix2 e (0 : Fin 1)) = ix1 e := by idx1
  rw [val_main_v55_apply, hi, v3_at]

theorem v59_at (e : Fin 640000) : val_main_v59 (F := Ideal) x1 (ix2 e (0 : Fin 1)) = x1 (ix2 (1 : Fin 2) e) := by
  have hi : idx_main_v59 (ix2 e (0 : Fin 1)) = ix1 e := by idx1
  rw [val_main_v59_apply, hi, v3_at]

/-! ## The first layer's neighbourhood mean -/

/-- The neighbourhood sum of the node rows. -/
theorem v13_at (n : Fin 50000) (c : Fin 128) : val_main_v13 (F := Ideal) x0 x1 (ix2 n c) = segSum (rows2 x1) (mat x0) n c := by
  unfold val_main_v13 val_main_v10
  exact SegRead.segSum_read _ gather_S50000x128_S640000x1_S640000x128_1_0_n_n_0_1_1128_wf rfl
    _ scatter_S50000x128_S640000x1_S640000x128_1_0_0_1_wf rfl (rows2 x1) x0 (val_main_v11 (F := Ideal))
    (fun i => by rw [val_main_v11_apply, val_main_cst_apply]; exact Ideal.ofBits_zero_f32)
    (val_main_v9 (F := Ideal) x1) (val_main_v12 (F := Ideal) x1) (v9_at x1) (v12_at x1) n c

/-- The number of edges into a node. -/
theorem v17_at (n : Fin 50000) : val_main_v17 (F := Ideal) x1 (ix1 n) = cnt (rows2 x1) n := by
  unfold val_main_v17
  exact SegRead.cnt_read _ scatter_S50000_S640000x1_S640000_n_0_0_1_wf rfl (rows2 x1) (val_main_v15 (F := Ideal))
    (fun i => by rw [val_main_v15_apply, val_main_cst_2_apply]; exact Ideal.ofBits_zero_f32)
    (val_main_v14 (F := Ideal)) (fun i => by rw [val_main_v14_apply, val_main_cst_1_apply]; rfl)
    (val_main_v16 (F := Ideal) x1) (v16_at x1) n

/-- The divisor: the count floored at one. -/
theorem v19_at (n : Fin 50000) : val_main_v19 (F := Ideal) x1 (ix1 n) = den (rows2 x1) n := by
  rw [val_main_v19_apply, v17_at, val_main_v18_apply, val_main_cst_3_apply]
  rfl

/-- The divisor spread over the 128 columns. -/
theorem v21_at (n : Fin 50000) (c : Fin 128) : val_main_v21 (F := Ideal) x1 (ix2 n c) = den (rows2 x1) n := by
  have h1 : idx_main_v20 (idx_main_v21 (ix2 n c)) = ix1 n := by idx1
  rw [val_main_v21_apply, val_main_v20_apply, h1, v19_at]

/-- The first layer's neighbourhood mean. -/
theorem v22_at (n : Fin 50000) (c : Fin 128) : val_main_v22 (F := Ideal) x0 x1 (ix2 n c) = segMean (rows2 x1) (mat x0) n c := by
  rw [val_main_v22_apply, v13_at, v21_at]
  rfl

/-! ## The hidden layer -/

/-- The neighbourhood mean against the first weights. -/
theorem v24_at (n : Fin 50000) (j : Fin 256) : val_main_v24 (F := Ideal) x0 x1 x3 (ix2 n j) = dotT (segMean (rows2 x1) (mat x0) n) (mat x3 j) := by
  rw [val_main_v24_apply]
  unfold dotT
  refine Finset.sum_congr rfl fun k _ => ?_
  have hl : lidx_main_v24 (ix2 n j) k = ix2 n k := by idx2
  have hr : idx_main_v23 (ridx_main_v24 (ix2 n j) k) = ix2 j k := by idx2
  rw [hl, v22_at, val_main_v23_apply, hr]

/-- The node's own row against the second weights. -/
theorem v26_at (n : Fin 50000) (j : Fin 256) : val_main_v26 (F := Ideal) x0 x4 (ix2 n j) = dotT (mat x0 n) (mat x4 j) := by
  rw [val_main_v26_apply]
  unfold dotT
  refine Finset.sum_congr rfl fun k _ => ?_
  have hl : lidx_main_v26 (ix2 n j) k = ix2 n k := by idx2
  have hr : idx_main_v25 (ridx_main_v26 (ix2 n j) k) = ix2 j k := by idx2
  rw [hl, val_main_v25_apply, hr]

/-! The bias, the stored mean, the scale and the shift, each a row spread over the nodes. -/

theorem v29_at (n : Fin 50000) (j : Fin 256) : val_main_v29 (F := Ideal) x5 (ix2 n j) = x5 (ix1 j) := by
  rw [val_main_v29_apply, val_main_v28_apply]
  exact congrArg x5 (by idx1)

theorem v32_at (n : Fin 50000) (j : Fin 256) : val_main_v32 (F := Ideal) x8 (ix2 n j) = x8 (ix1 j) := by
  rw [val_main_v32_apply, val_main_v31_apply]
  exact congrArg x8 (by idx1)

/-- The reciprocal square root of the offset variance, spread over the rows. -/
theorem v38_at (n : Fin 50000) (j : Fin 256) : val_main_v38 (F := Ideal) x9 (ix2 n j) = Ideal.rsqrt (x9 (ix1 j) + eps) := by
  have h : idx_main_v37 (idx_main_v38 (ix2 n j)) = ix1 j := by idx1
  rw [val_main_v38_apply, val_main_v37_apply, h, val_main_v36_apply, val_main_v35_apply, val_main_v34_apply,
    val_main_cst_4_apply]
  rfl

theorem v41_at (n : Fin 50000) (j : Fin 256) : val_main_v41 (F := Ideal) x6 (ix2 n j) = x6 (ix1 j) := by
  rw [val_main_v41_apply, val_main_v40_apply]
  exact congrArg x6 (by idx1)

theorem v44_at (n : Fin 50000) (j : Fin 256) : val_main_v44 (F := Ideal) x7 (ix2 n j) = x7 (ix1 j) := by
  rw [val_main_v44_apply, val_main_v43_apply]
  exact congrArg x7 (by idx1)

/-- The hidden layer of the specification at the reference's arguments. -/
abbrev Hd : Fin 50000 → Fin 256 → EReal :=
  hid (rows2 x1) (mat x0) (mat x3) (mat x4) (vec x5) (vec x6) (vec x7) (vec x8) (vec x9)

/-- The hidden layer: affine in the mean and the row, normalised, rectified. -/
theorem v46_at (n : Fin 50000) (j : Fin 256) : val_main_v46 (F := Ideal) x0 x1 x3 x4 x5 x6 x7 x8 x9 (ix2 n j) = Hd x0 x1 x3 x4 x5 x6 x7 x8 x9 n j := by
  rw [val_main_v46_apply, val_main_v45_apply, val_main_v42_apply, val_main_v39_apply, val_main_v33_apply,
    val_main_v30_apply, val_main_v27_apply, v24_at, v26_at, v29_at, v32_at, v38_at, v41_at, v44_at,
    val_main_call0_v0_apply, val_main_call0_cst_apply, Ideal.ofBits_def, Ideal.ofBits_zero_f32]
  rfl

/-! ## The second layer -/

/-- The neighbourhood sum of the hidden rows. -/
theorem v56_at (n : Fin 50000) (j : Fin 256) : val_main_v56 (F := Ideal) x0 x1 x3 x4 x5 x6 x7 x8 x9 (ix2 n j) = segSum (rows2 x1) (Hd x0 x1 x3 x4 x5 x6 x7 x8 x9) n j := by
  have hf : (fun n c => val_main_v46 (F := Ideal) x0 x1 x3 x4 x5 x6 x7 x8 x9 (ix2 n c)) = Hd x0 x1 x3 x4 x5 x6 x7 x8 x9 :=
    funext fun n => funext fun c => v46_at x0 x1 x3 x4 x5 x6 x7 x8 x9 n c
  unfold val_main_v56 val_main_v53
  exact (SegRead.segSum_read _ gather_S50000x256_S640000x1_S640000x256_1_0_n_n_0_1_1256_wf rfl
    _ scatter_S50000x256_S640000x1_S640000x256_1_0_0_1_wf rfl (rows2 x1) (val_main_v46 (F := Ideal) x0 x1 x3 x4 x5 x6 x7 x8 x9) (val_main_v54 (F := Ideal))
    (fun i => by rw [val_main_v54_apply, val_main_cst_7_apply]; exact Ideal.ofBits_zero_f32)
    (val_main_v52 (F := Ideal) x1) (val_main_v55 (F := Ideal) x1) (v52_at x1) (v55_at x1) n j).trans
    (congrArg (fun f => segSum (rows2 x1) f n j) hf)

/-- The number of edges into a node. -/
theorem v60_at (n : Fin 50000) : val_main_v60 (F := Ideal) x1 (ix1 n) = cnt (rows2 x1) n := by
  unfold val_main_v60
  exact SegRead.cnt_read _ scatter_S50000_S640000x1_S640000_n_0_0_1_wf rfl (rows2 x1) (val_main_v58 (F := Ideal))
    (fun i => by rw [val_main_v58_apply, val_main_cst_9_apply]; exact Ideal.ofBits_zero_f32)
    (val_main_v57 (F := Ideal)) (fun i => by rw [val_main_v57_apply, val_main_cst_8_apply]; rfl)
    (val_main_v59 (F := Ideal) x1) (v59_at x1) n

/-- The divisor: the count floored at one. -/
theorem v62_at (n : Fin 50000) : val_main_v62 (F := Ideal) x1 (ix1 n) = den (rows2 x1) n := by
  rw [val_main_v62_apply, v60_at, val_main_v61_apply, val_main_cst_10_apply]
  rfl

/-- The divisor spread over the 256 columns. -/
theorem v64_at (n : Fin 50000) (c : Fin 256) : val_main_v64 (F := Ideal) x1 (ix2 n c) = den (rows2 x1) n := by
  have h1 : idx_main_v63 (idx_main_v64 (ix2 n c)) = ix1 n := by idx1
  rw [val_main_v64_apply, val_main_v63_apply, h1, v62_at]

/-- The second layer's neighbourhood mean. -/
theorem v65_at (n : Fin 50000) (j : Fin 256) : val_main_v65 (F := Ideal) x0 x1 x3 x4 x5 x6 x7 x8 x9 (ix2 n j) = segMean (rows2 x1) (Hd x0 x1 x3 x4 x5 x6 x7 x8 x9) n j := by
  rw [val_main_v65_apply, v56_at, v64_at]
  rfl

/-- The mean of the hidden rows against the first weights. -/
theorem v67_at (n : Fin 50000) (j : Fin 128) : val_main_v67 (F := Ideal) x0 x1 x3 x4 x5 x6 x7 x8 x9 x10 (ix2 n j) = dotT (segMean (rows2 x1) (Hd x0 x1 x3 x4 x5 x6 x7 x8 x9) n) (mat x10 j) := by
  rw [val_main_v67_apply]
  unfold dotT
  refine Finset.sum_congr rfl fun k _ => ?_
  have hl : lidx_main_v67 (ix2 n j) k = ix2 n k := by idx2
  have hr : idx_main_v66 (ridx_main_v67 (ix2 n j) k) = ix2 j k := by idx2
  rw [hl, v65_at, val_main_v66_apply, hr]

/-- The node's own hidden row against the second weights. -/
theorem v69_at (n : Fin 50000) (j : Fin 128) : val_main_v69 (F := Ideal) x0 x1 x3 x4 x5 x6 x7 x8 x9 x11 (ix2 n j) = dotT (Hd x0 x1 x3 x4 x5 x6 x7 x8 x9 n) (mat x11 j) := by
  rw [val_main_v69_apply]
  unfold dotT
  refine Finset.sum_congr rfl fun k _ => ?_
  have hl : lidx_main_v69 (ix2 n j) k = ix2 n k := by idx2
  have hr : idx_main_v68 (ridx_main_v69 (ix2 n j) k) = ix2 j k := by idx2
  rw [hl, v46_at, val_main_v68_apply, hr]

theorem v72_at (n : Fin 50000) (j : Fin 128) : val_main_v72 (F := Ideal) x12 (ix2 n j) = x12 (ix1 j) := by
  rw [val_main_v72_apply, val_main_v71_apply]
  exact congrArg x12 (by idx1)

/-- The encoder's output of the specification at the reference's arguments. -/
abbrev Zd : Fin 50000 → Fin 128 → EReal := zR (rows2 x1) (Hd x0 x1 x3 x4 x5 x6 x7 x8 x9) (mat x10) (mat x11) (vec x12)

/-- The encoder's output. -/
theorem v73_at (n : Fin 50000) (c : Fin 128) : val_main_v73 (F := Ideal) x0 x1 x3 x4 x5 x6 x7 x8 x9 x10 x11 x12 (ix2 n c) = Zd x0 x1 x3 x4 x5 x6 x7 x8 x9 x10 x11 x12 n c := by
  rw [val_main_v73_apply, val_main_v70_apply, v67_at, v69_at, v72_at]
  rfl

/-! ## The links' end-point rows -/

/-! The two rows of the link array as vectors. -/

theorem v75_at (r : Fin 500000) : val_main_v75 (F := Ideal) x2 (ix1 r) = x2 (ix2 (0 : Fin 2) r) := by
  rw [val_main_v75_apply, val_main_v74_apply]
  refine congrArg x2 (funext fun a => Fin.ext ?_)
  match a with
  | ⟨0, _⟩ => rfl
  | ⟨1, _⟩ => exact Nat.mod_eq_of_lt r.isLt

theorem v84_at (r : Fin 500000) : val_main_v84 (F := Ideal) x2 (ix1 r) = x2 (ix2 (1 : Fin 2) r) := by
  rw [val_main_v84_apply, val_main_v83_apply]
  refine congrArg x2 (funext fun a => Fin.ext ?_)
  match a with
  | ⟨0, _⟩ => rfl
  | ⟨1, _⟩ => exact Nat.mod_eq_of_lt r.isLt

/-! The two link columns: the word, a negative one counted from the end. -/

theorem v81_at (r : Fin 500000) : val_main_v81 (F := Ideal) x2 (ix2 r (0 : Fin 1)) = wrap (x2 (ix2 (0 : Fin 2) r)) := by
  have hi : idx_main_v81 (ix2 r (0 : Fin 1)) = ix1 r := by idx1
  rw [val_main_v81_apply, hi]
  have h := JoinIota.wrap_index_apply (50000#32) bcast_S_S500000 (val_main_v75 (F := Ideal) x2) (ix1 r)
  rw [v75_at] at h
  exact h

theorem v90_at (r : Fin 500000) : val_main_v90 (F := Ideal) x2 (ix2 r (0 : Fin 1)) = wrap (x2 (ix2 (1 : Fin 2) r)) := by
  have hi : idx_main_v90 (ix2 r (0 : Fin 1)) = ix1 r := by idx1
  rw [val_main_v90_apply, hi]
  have h := JoinIota.wrap_index_apply (50000#32) bcast_S_S500000 (val_main_v84 (F := Ideal) x2) (ix1 r)
  rw [v84_at] at h
  exact h

/-! The encoder's output at the row either end names. -/

theorem v82_at (r : Fin 500000) (k : Fin 128) :
    val_main_v82 (F := Ideal) x0 x1 x2 x3 x4 x5 x6 x7 x8 x9 x10 x11 x12 (ix2 r k) = Zd x0 x1 x3 x4 x5 x6 x7 x8 x9 x10 x11 x12 (rowOf (x2 (ix2 (0 : Fin 2) r))) k := by
  have hd : gather_S50000x128_S500000x1_S500000x128_1_0_n_n_0_1_1128
      = GatherRows.rowDims 50000 500000 128 gather_S50000x128_S500000x1_S500000x128_1_0_n_n_0_1_1128_wf := rfl
  unfold val_main_v82
  rw [hd, GatherAt.gather_rows_at (by decide) _ _ _ r k _ (v81_at x2 r), SegRead.clampRow_eq, v73_at]
  rfl

theorem v91_at (r : Fin 500000) (k : Fin 128) :
    val_main_v91 (F := Ideal) x0 x1 x2 x3 x4 x5 x6 x7 x8 x9 x10 x11 x12 (ix2 r k) = Zd x0 x1 x3 x4 x5 x6 x7 x8 x9 x10 x11 x12 (rowOf (x2 (ix2 (1 : Fin 2) r))) k := by
  have hd : gather_S50000x128_S500000x1_S500000x128_1_0_n_n_0_1_1128
      = GatherRows.rowDims 50000 500000 128 gather_S50000x128_S500000x1_S500000x128_1_0_n_n_0_1_1128_wf := rfl
  unfold val_main_v91
  rw [hd, GatherAt.gather_rows_at (by decide) _ _ _ r k _ (v90_at x2 r), SegRead.clampRow_eq, v73_at]
  rfl

/-- The two end-point rows side by side. -/
theorem v92_at (r : Fin 500000) (k : Fin 256) :
    val_main_v92 (F := Ideal) x0 x1 x2 x3 x4 x5 x6 x7 x8 x9 x10 x11 x12 (ix2 r k) = ends (Zd x0 x1 x3 x4 x5 x6 x7 x8 x9 x10 x11 x12) (rows2 x2) r k := by
  unfold val_main_v92 ends cat
  by_cases hk : k.val < 128
  · rw [dif_pos hk]
    exact (concatenate_cols_left _ _ _ r k ⟨k.val, hk⟩ rfl).trans
      (v82_at x0 x1 x2 x3 x4 x5 x6 x7 x8 x9 x10 x11 x12 r ⟨k.val, hk⟩)
  · rw [dif_neg hk]
    have hk' : k.val - 128 < 128 := by have := k.isLt; omega
    exact (concatenate_cols_right _ _ _ r k ⟨k.val - 128, hk'⟩ (by show k.val - 128 + 128 = k.val; omega)).trans
      (v91_at x0 x1 x2 x3 x4 x5 x6 x7 x8 x9 x10 x11 x12 r ⟨k.val - 128, hk'⟩)

/-! ## The link scorer -/

/-- The joined row against the first dense layer's weights. -/
theorem v94_at (r : Fin 500000) (j : Fin 256) : val_main_v94 (F := Ideal) x0 x1 x2 x3 x4 x5 x6 x7 x8 x9 x10 x11 x12 x13 (ix2 r j) = dotT (ends (Zd x0 x1 x3 x4 x5 x6 x7 x8 x9 x10 x11 x12) (rows2 x2) r) (mat x13 j) := by
  rw [val_main_v94_apply]
  unfold dotT
  refine Finset.sum_congr rfl fun k _ => ?_
  have hl : lidx_main_v94 (ix2 r j) k = ix2 r k := by idx2
  have hr : idx_main_v93 (ridx_main_v94 (ix2 r j) k) = ix2 j k := by idx2
  rw [hl, v92_at, val_main_v93_apply, hr]

theorem v96_at (n : Fin 500000) (j : Fin 256) : val_main_v96 (F := Ideal) x14 (ix2 n j) = x14 (ix1 j) := by
  rw [val_main_v96_apply, val_main_v95_apply]
  exact congrArg x14 (by idx1)

theorem v99_at (n : Fin 500000) (j : Fin 256) : val_main_v99 (F := Ideal) x17 (ix2 n j) = x17 (ix1 j) := by
  rw [val_main_v99_apply, val_main_v98_apply]
  exact congrArg x17 (by idx1)

/-- The reciprocal square root of the offset variance, spread over the rows. -/
theorem v105_at (n : Fin 500000) (j : Fin 256) : val_main_v105 (F := Ideal) x18 (ix2 n j) = Ideal.rsqrt (x18 (ix1 j) + eps) := by
  have h : idx_main_v104 (idx_main_v105 (ix2 n j)) = ix1 j := by idx1
  rw [val_main_v105_apply, val_main_v104_apply, h, val_main_v103_apply, val_main_v102_apply, val_main_v101_apply,
    val_main_cst_15_apply]
  rfl

theorem v108_at (n : Fin 500000) (j : Fin 256) : val_main_v108 (F := Ideal) x15 (ix2 n j) = x15 (ix1 j) := by
  rw [val_main_v108_apply, val_main_v107_apply]
  exact congrArg x15 (by idx1)

theorem v111_at (n : Fin 500000) (j : Fin 256) : val_main_v111 (F := Ideal) x16 (ix2 n j) = x16 (ix1 j) := by
  rw [val_main_v111_apply, val_main_v110_apply]
  exact congrArg x16 (by idx1)

/-- The first dense layer. -/
theorem v113_at (r : Fin 500000) (j : Fin 256) :
    val_main_v113 (F := Ideal) x0 x1 x2 x3 x4 x5 x6 x7 x8 x9 x10 x11 x12 x13 x14 x15 x16 x17 x18 (ix2 r j) = unit (ends (Zd x0 x1 x3 x4 x5 x6 x7 x8 x9 x10 x11 x12) (rows2 x2) r) (mat x13 j) (vec x14 j) (vec x15 j) (vec x16 j) (vec x17 j) (vec x18 j) := by
  rw [val_main_v113_apply, val_main_v112_apply, val_main_v109_apply, val_main_v106_apply, val_main_v100_apply,
    val_main_v97_apply, v94_at, v96_at, v99_at, v105_at, v108_at, v111_at,
    val_main_call1_v0_apply, val_main_call1_cst_apply, Ideal.ofBits_def, Ideal.ofBits_zero_f32]
  rfl

/-- The first layer's row against the second dense layer's weights. -/
theorem v115_at (r : Fin 500000) (j : Fin 128) : val_main_v115 (F := Ideal) x0 x1 x2 x3 x4 x5 x6 x7 x8 x9 x10 x11 x12 x13 x14 x15 x16 x17 x18 x19 (ix2 r j) = dotT (fun j => unit (ends (Zd x0 x1 x3 x4 x5 x6 x7 x8 x9 x10 x11 x12) (rows2 x2) r) (mat x13 j) (vec x14 j) (vec x15 j) (vec x16 j) (vec x17 j) (vec x18 j)) (mat x19 j) := by
  rw [val_main_v115_apply]
  unfold dotT
  refine Finset.sum_congr rfl fun k _ => ?_
  have hl : lidx_main_v115 (ix2 r j) k = ix2 r k := by idx2
  have hr : idx_main_v114 (ridx_main_v115 (ix2 r j) k) = ix2 j k := by idx2
  rw [hl, v113_at, val_main_v114_apply, hr]

theorem v117_at (n : Fin 500000) (j : Fin 128) : val_main_v117 (F := Ideal) x20 (ix2 n j) = x20 (ix1 j) := by
  rw [val_main_v117_apply, val_main_v116_apply]
  exact congrArg x20 (by idx1)

theorem v120_at (n : Fin 500000) (j : Fin 128) : val_main_v120 (F := Ideal) x23 (ix2 n j) = x23 (ix1 j) := by
  rw [val_main_v120_apply, val_main_v119_apply]
  exact congrArg x23 (by idx1)

/-- The reciprocal square root of the offset variance, spread over the rows. -/
theorem v126_at (n : Fin 500000) (j : Fin 128) : val_main_v126 (F := Ideal) x24 (ix2 n j) = Ideal.rsqrt (x24 (ix1 j) + eps) := by
  have h : idx_main_v125 (idx_main_v126 (ix2 n j)) = ix1 j := by idx1
  rw [val_main_v126_apply, val_main_v125_apply, h, val_main_v124_apply, val_main_v123_apply, val_main_v122_apply,
    val_main_cst_16_apply]
  rfl

theorem v129_at (n : Fin 500000) (j : Fin 128) : val_main_v129 (F := Ideal) x21 (ix2 n j) = x21 (ix1 j) := by
  rw [val_main_v129_apply, val_main_v128_apply]
  exact congrArg x21 (by idx1)

theorem v132_at (n : Fin 500000) (j : Fin 128) : val_main_v132 (F := Ideal) x22 (ix2 n j) = x22 (ix1 j) := by
  rw [val_main_v132_apply, val_main_v131_apply]
  exact congrArg x22 (by idx1)

/-- The second dense layer. -/
theorem v134_at (r : Fin 500000) (c : Fin 128) :
    val_main_v134 (F := Ideal) x0 x1 x2 x3 x4 x5 x6 x7 x8 x9 x10 x11 x12 x13 x14 x15 x16 x17 x18 x19 x20 x21 x22 x23 x24 (ix2 r c) = unit (fun j => unit (ends (Zd x0 x1 x3 x4 x5 x6 x7 x8 x9 x10 x11 x12) (rows2 x2) r) (mat x13 j) (vec x14 j) (vec x15 j) (vec x16 j) (vec x17 j) (vec x18 j)) (mat x19 c) (vec x20 c) (vec x21 c) (vec x22 c) (vec x23 c) (vec x24 c) := by
  rw [val_main_v134_apply, val_main_v133_apply, val_main_v130_apply, val_main_v127_apply, val_main_v121_apply,
    val_main_v118_apply, v115_at, v117_at, v120_at, v126_at, v129_at, v132_at,
    val_main_call2_v0_apply, val_main_call2_cst_apply, Ideal.ofBits_def, Ideal.ofBits_zero_f32]
  rfl

/-- The second layer's row against the one row of final weights. -/
theorem v136_at (r : Fin 500000) :
    val_main_v136 (F := Ideal) x0 x1 x2 x3 x4 x5 x6 x7 x8 x9 x10 x11 x12 x13 x14 x15 x16 x17 x18 x19 x20 x21 x22 x23 x24 x25 (ix2 r (0 : Fin 1)) = dotT (fun c => unit (fun j => unit (ends (Zd x0 x1 x3 x4 x5 x6 x7 x8 x9 x10 x11 x12) (rows2 x2) r) (mat x13 j) (vec x14 j) (vec x15 j) (vec x16 j) (vec x17 j) (vec x18 j)) (mat x19 c) (vec x20 c) (vec x21 c) (vec x22 c) (vec x23 c) (vec x24 c)) (fun k => x25 (ix2 (0 : Fin 1) k)) := by
  rw [val_main_v136_apply]
  unfold dotT
  refine Finset.sum_congr rfl fun k _ => ?_
  have hl : lidx_main_v136 (ix2 r (0 : Fin 1)) k = ix2 r k := by idx2
  have hr : idx_main_v135 (ridx_main_v136 (ix2 r (0 : Fin 1)) k) = ix2 (0 : Fin 1) k := by idx2
  rw [hl, v134_at, val_main_v135_apply, hr]

/-- The final bias, spread over the links. -/
theorem v138_at (r : Fin 500000) : val_main_v138 (F := Ideal) x26 (ix2 r (0 : Fin 1)) = x26 (ix1 (0 : Fin 1)) := by
  rw [val_main_v138_apply, val_main_v137_apply]
  exact congrArg x26 (by idx1)

/-- THE REFERENCE'S RESULT at link `r`: the scorer on the joined end-point rows of the encoder's output. -/
theorem ref_value (r : Fin 500000) :
    val_main_v140 (F := Ideal) x0 x1 x2 x3 x4 x5 x6 x7 x8 x9 x10 x11 x12 x13 x14 x15 x16 x17 x18 x19 x20 x21 x22 x23 x24 x25 x26 (ix1 r)
      = Cert.Sage.score (fun j k => x13 (ix2 j k)) (fun j => x14 (ix1 j)) (fun j => x15 (ix1 j)) (fun j => x16 (ix1 j))
          (fun j => x17 (ix1 j)) (fun j => x18 (ix1 j))
          (fun c j => x19 (ix2 c j)) (fun c => x20 (ix1 c)) (fun c => x21 (ix1 c)) (fun c => x22 (ix1 c))
          (fun c => x23 (ix1 c)) (fun c => x24 (ix1 c))
          (fun k => x25 (ix2 (0 : Fin 1) k)) (x26 (ix1 (0 : Fin 1)))
          (Cert.Sage.ends
            (Cert.Sage.zR (fun s e => x1 (ix2 s e))
              (Cert.Sage.hid (fun s e => x1 (ix2 s e)) (fun n k => x0 (ix2 n k)) (fun j k => x3 (ix2 j k))
                (fun j k => x4 (ix2 j k)) (fun j => x5 (ix1 j)) (fun j => x6 (ix1 j)) (fun j => x7 (ix1 j))
                (fun j => x8 (ix1 j)) (fun j => x9 (ix1 j)))
              (fun c j => x10 (ix2 c j)) (fun c j => x11 (ix2 c j)) (fun c => x12 (ix1 c)))
            (fun s r => x2 (ix2 s r)) r) := by
  have hi : idx_main_v140 (ix1 r) = ix2 r (0 : Fin 1) := funext fun a => Fin.ext (by
    match a with
    | ⟨0, _⟩ => exact Nat.div_one r.val
    | ⟨1, _⟩ => rfl)
  rw [val_main_v140_apply, hi, val_main_v139_apply, v136_at, v138_at]
  rfl

end Cert.RefRead

end
-- ==== Proof.LibMeanProject.lean ====
/-
  Averaging then projecting equals projecting then averaging, on the extended reals.

  For NONNEGATIVE entries `g e k` (they may be `+∞`), arbitrary weights `w k` and a nonnegative real factor
  `c` (the reciprocal of a count): `(∑ e, ∑ k, g e k · w k) · c = ∑ k, ((∑ e, g e k) · c) · w k`.
  The extended reals are not a ring — `(a + b) · x = a · x + b · x` can fail when `a` and `b` are infinities of
  opposite signs — but it holds when `x` is a nonnegative real, and when `a` and `b` are both nonnegative;
  addition and multiplication are commutative and associative throughout.  Those two laws carried over
  finite sums give the statement.
-/
import Mathlib.Data.EReal.Inv
import Mathlib.Algebra.BigOperators.Group.Finset.Basic
import Mathlib.Algebra.Order.BigOperators.Group.Finset

open scoped BigOperators

namespace Cert.MeanProject

/-- A nonnegative real factor distributes over any finite sum of extended reals. -/
theorem sum_mul_coe {ι : Type*} (s : Finset ι) (a : ι → EReal) (c : ℝ) (hc : 0 ≤ c) :
    (∑ i ∈ s, a i) * (c : EReal) = ∑ i ∈ s, a i * (c : EReal) := by
  classical
  induction s using Finset.induction_on with
  | empty => simp
  | insert i s hi ih =>
    rw [Finset.sum_insert hi, Finset.sum_insert hi,
      EReal.right_distrib_of_nonneg_of_ne_top (by exact_mod_cast hc) (EReal.coe_ne_top c), ih]

/-- Any factor distributes over a finite sum of NONNEGATIVE extended reals. -/
theorem sum_nonneg_mul {ι : Type*} (s : Finset ι) (a : ι → EReal) (ha : ∀ i ∈ s, 0 ≤ a i) (w : EReal) :
    (∑ i ∈ s, a i) * w = ∑ i ∈ s, a i * w := by
  classical
  induction s using Finset.induction_on with
  | empty => simp
  | insert i s hi ih =>
    rw [Finset.sum_insert hi, Finset.sum_insert hi,
      EReal.right_distrib_of_nonneg (ha i (Finset.mem_insert_self i s))
        (Finset.sum_nonneg fun j hj => ha j (Finset.mem_insert_of_mem hj)),
      ih fun j hj => ha j (Finset.mem_insert_of_mem hj)]

/-- Projecting every row and then averaging is averaging and then projecting. -/
theorem mean_project_comm {E K : Type*} [Fintype E] [Fintype K] (g : E → K → EReal) (hg : ∀ e k, 0 ≤ g e k)
    (w : K → EReal) (c : ℝ) (hc : 0 ≤ c) :
    (∑ e, ∑ k, g e k * w k) * (c : EReal) = ∑ k, ((∑ e, g e k) * (c : EReal)) * w k := by
  have hc' : (0 : EReal) ≤ (c : EReal) := by exact_mod_cast hc
  rw [sum_mul_coe _ _ c hc]
  have hl : ∀ e, (∑ k, g e k * w k) * (c : EReal) = ∑ k, g e k * (c : EReal) * w k := fun e => by
    rw [sum_mul_coe _ _ c hc]
    exact Finset.sum_congr rfl fun k _ => mul_right_comm (g e k) (w k) (c : EReal)
  have hr : ∀ k, ((∑ e, g e k) * (c : EReal)) * w k = ∑ e, g e k * (c : EReal) * w k := fun k => by
    rw [sum_mul_coe _ _ c hc]
    exact sum_nonneg_mul _ _ (fun e _ => EReal.mul_nonneg (hg e k) hc') _
  rw [Finset.sum_congr rfl fun e _ => hl e, Finset.sum_congr rfl fun k _ => hr k]
  exact Finset.sum_comm

/-- The same with each row present or absent: the rows of a neighbourhood, chosen by a predicate. -/
theorem seg_project_comm {E K : Type*} [Fintype E] [Fintype K] (hit : E → Prop) [DecidablePred hit] (f : E → K → EReal)
    (hf : ∀ e k, 0 ≤ f e k) (w : K → EReal) (c : ℝ) (hc : 0 ≤ c) :
    (∑ e, if hit e then ∑ k, f e k * w k else 0) * (c : EReal)
      = ∑ k, ((∑ e, if hit e then f e k else 0) * (c : EReal)) * w k := by
  have e1 := mean_project_comm (fun e k => if hit e then f e k else 0)
    (fun e k => by show 0 ≤ (if hit e then f e k else 0); split_ifs; exact hf e k; exact le_rfl) w c hc
  refine Eq.trans ?_ e1
  congr 1
  refine Finset.sum_congr rfl fun e _ => ?_
  by_cases h : hit e
  · simp only [if_pos h]
  · simp only [if_neg h, zero_mul, Finset.sum_const_zero]

end Cert.MeanProject
-- ==== Proof.LibLayerOps.lean ====
/-
  Layers of a network as functions of whole arrays, entry by entry, on the extended reals, for any extents.

  `rowsDot x w`: rows of x against columns of w, entry (r, q) the sum over k of x (r, k) · w (k, q).
  `addRow a b` / `addVec a b`: a bias, given as a one-row matrix or as a vector, added to every row of a
  (`addRow_shapeCast`: the vector laid out as a row is the same thing). `sigm a`: the logistic function of every entry.
  `ofBits_one`: the float 1.0 denotes 1. `logistic_host`: the host's spelling 1.0 / (1.0 + exp (-z)) of the logistic
  function, in the host's divide, add, exponential and negate, is the logistic function the vector unit's one
  operation denotes. Each function comes with its value at an entry `ix2 r q` (`…_apply`, by `rfl`), and `row`, `col`,
  `eq_row_col` split an entry of an [n0, n1] array into coordinates of literal `Fin` types.
-/
import Idealize.ShloMosaic.Lib.ValueIdx
import Idealize.ShloMosaic.Lib.ValueLayout
import Idealize.ShloMosaic.PureOps.Ideal

noncomputable section

open scoped BigOperators

namespace Cert.LayerOps

open Idealize.ShloMosaic Idealize.ShloMosaic.ValueIdx

/-- The row coordinate of an entry of an [n0, n1] array, as a number below n0. -/
abbrev row {n0 n1 : Nat} (i : (⟨2, ![n0, n1]⟩ : Shape).Idx) : Fin n0 := ⟨(i 0).val, idx2_lt0 i⟩
/-- The column coordinate of an entry of an [n0, n1] array, as a number below n1. -/
abbrev col {n0 n1 : Nat} (i : (⟨2, ![n0, n1]⟩ : Shape).Idx) : Fin n1 := ⟨(i 1).val, idx2_lt1 i⟩

theorem eq_row_col {n0 n1 : Nat} (i : (⟨2, ![n0, n1]⟩ : Shape).Idx) : i = ix2 (row i) (col i) := eq_ix2 i

/-- Entry (r, q) of x · w is the sum over k of x (r, k) · w (k, q). -/
def rowsDot {n K M : Nat} (x : (⟨2, ![n, K]⟩ : Shape).Idx → EReal) (w : (⟨2, ![K, M]⟩ : Shape).Idx → EReal) :
    (⟨2, ![n, M]⟩ : Shape).Idx → EReal :=
  fun i => ∑ k : Fin K, x (ix2 (row i) k) * w (ix2 k (col i))

theorem rowsDot_apply {n K M : Nat} (x : (⟨2, ![n, K]⟩ : Shape).Idx → EReal) (w : (⟨2, ![K, M]⟩ : Shape).Idx → EReal)
    (r : Fin n) (q : Fin M) : rowsDot x w (ix2 r q) = ∑ k : Fin K, x (ix2 r k) * w (ix2 k q) := rfl

/-- Entry (r, q) of a with the bias row b added to every row is a (r, q) + b (0, q). -/
def addRow {n M : Nat} (a : (⟨2, ![n, M]⟩ : Shape).Idx → EReal) (b : (⟨2, ![1, M]⟩ : Shape).Idx → EReal) :
    (⟨2, ![n, M]⟩ : Shape).Idx → EReal :=
  fun i => a i + b (ix2 (0 : Fin 1) (col i))

theorem addRow_apply {n M : Nat} (a : (⟨2, ![n, M]⟩ : Shape).Idx → EReal) (b : (⟨2, ![1, M]⟩ : Shape).Idx → EReal)
    (r : Fin n) (q : Fin M) : addRow a b (ix2 r q) = a (ix2 r q) + b (ix2 (0 : Fin 1) q) := rfl

/-- Entry (r, q) of a with the bias vector b added to every row is a (r, q) + b (q). -/
def addVec {n M : Nat} (a : (⟨2, ![n, M]⟩ : Shape).Idx → EReal) (b : (⟨1, ![M]⟩ : Shape).Idx → EReal) :
    (⟨2, ![n, M]⟩ : Shape).Idx → EReal :=
  fun i => a i + b (ix1 (col i))

theorem addVec_apply {n M : Nat} (a : (⟨2, ![n, M]⟩ : Shape).Idx → EReal) (b : (⟨1, ![M]⟩ : Shape).Idx → EReal)
    (r : Fin n) (q : Fin M) : addVec a b (ix2 r q) = a (ix2 r q) + b (ix1 q) := rfl

/-- A bias vector laid out as a one-row matrix and added as a row is the vector added to every row. -/
theorem addRow_shapeCast {n M : Nat} (a : (⟨2, ![n, M]⟩ : Shape).Idx → EReal) (b : (⟨1, ![M]⟩ : Shape).Idx → EReal)
    (h : (⟨1, ![M]⟩ : Shape).ShapeCasts ⟨2, ![1, M]⟩) : addRow a (shapeCast ⟨2, ![1, M]⟩ b h) = addVec a b := by
  funext i
  show a i + shapeCast ⟨2, ![1, M]⟩ b h (ix2 (0 : Fin 1) (col i)) = a i + b (ix1 (col i))
  rw [shapeCast_a_1a_apply]

/-- The logistic function 1 / (1 + e^(-x)) of every entry. -/
def sigm {s : Shape} (a : s.Idx → EReal) : s.Idx → EReal := fun i => Ideal.logistic (a i)

theorem sigm_apply {s : Shape} (a : s.Idx → EReal) (i : s.Idx) : sigm a i = Ideal.logistic (a i) := rfl

/-- The float 1.0 denotes the number 1. -/
theorem ofBits_one : Ideal.ofBits .f32 0x3F800000#32 = 1 := by
  simp [Ideal.ofBits, Ideal.ieee, -EReal.coe_mul]; norm_num

/-- The host's spelling of the logistic function, 1.0 / (1.0 + exp (-z)), is the logistic function. -/
theorem logistic_host (z : EReal) :
    FloatOps.hostDivf (F := Ideal) (φ := .f32) (Ideal.ofBits .f32 0x3F800000#32)
        (FloatOps.addf (F := Ideal) (φ := .f32) (Ideal.ofBits .f32 0x3F800000#32) (FloatOps.hostUnary (F := Ideal) (φ := .f32) .exp (FloatOps.hostNegf (F := Ideal) (φ := .f32) z)))
      = Ideal.logistic z := by
  rw [ofBits_one]; rfl

end Cert.LayerOps

end
-- ==== Proof.LibSubDot.lean ====
/-
  The algebra of the two sides. Over the extended reals, with every operand finite, a difference of two dot products
  against the same vector is the dot product of the difference: the operands are real numbers, the coercion from the
  reals commutes with finite sums, products and differences, and in the reals multiplication distributes over
  subtraction under a finite sum.
-/
import Idealize.ShloMosaic.PureOps.Ideal
import Idealize.ShloMosaic.Lib.ValueIdx

noncomputable section

open scoped BigOperators

namespace Cert.Bridge

/-- The coercion from the reals to the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Finite operands: the difference of two dot products against w, plus β, is the dot product of the difference, plus β. -/
theorem sub_dot_gen {n : Nat} (a b w : Fin n → EReal) (β : EReal) (ha : ∀ k, ∃ r : ℝ, a k = (r : EReal))
    (hb : ∀ k, ∃ r : ℝ, b k = (r : EReal)) (hw : ∀ k, ∃ r : ℝ, w k = (r : EReal)) :
    (∑ k, a k * w k) - (∑ k, b k * w k) + β = (∑ k, (a k - b k) * w k) + β := by
  choose ar har using ha
  choose br hbr using hb
  choose wr hwr using hw
  have h1 : ∑ k, a k * w k = ((∑ k, ar k * wr k : ℝ) : EReal) := by
    rw [coe_sum]
    exact Finset.sum_congr rfl fun k _ => by rw [har, hwr, EReal.coe_mul]
  have h2 : ∑ k, b k * w k = ((∑ k, br k * wr k : ℝ) : EReal) := by
    rw [coe_sum]
    exact Finset.sum_congr rfl fun k _ => by rw [hbr, hwr, EReal.coe_mul]
  have h3 : ∑ k, (a k - b k) * w k = ((∑ k, (ar k - br k) * wr k : ℝ) : EReal) := by
    rw [coe_sum]
    exact Finset.sum_congr rfl fun k _ => by rw [har, hbr, hwr, ← EReal.coe_sub, EReal.coe_mul]
  rw [h1, h2, h3, ← EReal.coe_sub, ← Finset.sum_sub_distrib]
  refine congrArg (fun t : ℝ => (t : EReal) + β) (Finset.sum_congr rfl fun k _ => ?_)
  rw [sub_mul]

/-- The instance at the 768 feature coordinates. -/
theorem sub_dot (a b w : Fin 768 → EReal) (β : EReal) (ha : ∀ k, ∃ r : ℝ, a k = (r : EReal))
    (hb : ∀ k, ∃ r : ℝ, b k = (r : EReal)) (hw : ∀ k, ∃ r : ℝ, w k = (r : EReal)) :
    (∑ k, a k * w k) - (∑ k, b k * w k) + β = (∑ k, (a k - b k) * w k) + β :=
  sub_dot_gen a b w β ha hb hw

end Cert.Bridge

end
-- ==== Proof.Math.lean ====
/-
  The two orders of the second layer agree.

  The hidden layer is rectified, so its entries are nonnegative extended reals (possibly `+∞`: a stored variance
  equal to minus the offset makes the reciprocal square root infinite).  The divisor of a neighbourhood mean is a
  real number at least one, so dividing by it is multiplying by a positive real.  With those two facts,
  projecting the rows by `W2l` and then averaging is averaging and then projecting (`MeanProject.mean_project_comm`),
  and the rest is the commutativity of the extended reals' addition.
-/
import proofs.«170819_j39548058862204_2_alg».proof.Proof.Spec
import proofs.«170819_j39548058862204_2_alg».proof.Proof.LibMeanProject
import proofs.«170819_j39548058862204_2_alg».proof.Proof.LibLayerOps
import proofs.«170819_j39548058862204_2_alg».proof.Proof.LibSubDot

noncomputable section

namespace Cert.Sage

open Idealize.ShloMosaic

/-- The word of the float one denotes the number one. -/
theorem one_eq : one = 1 := Cert.LayerOps.ofBits_one

theorem relu_nonneg (v : EReal) : 0 ≤ relu v := le_max_right _ _

theorem hidOf_nonneg (M X : Fin 50000 → Fin 128 → EReal) (Wl Wr : Fin 256 → Fin 128 → EReal)
    (b g be mu var : Fin 256 → EReal) (n : Fin 50000) (j : Fin 256) : 0 ≤ hidOf M X Wl Wr b g be mu var n j :=
  relu_nonneg _

/-- The divisor of a neighbourhood mean is a real number, at least one. -/
theorem den_real (ei : Fin 2 → Fin 640000 → BitVec 32) (n : Fin 50000) : ∃ d : ℝ, 1 ≤ d ∧ den ei n = (d : EReal) := by
  refine ⟨max (∑ e : Fin 640000, if hits (ei 1 e) n then (1 : ℝ) else 0) 1, le_max_right _ _, ?_⟩
  unfold den cnt
  rw [one_eq, EReal.coe_strictMono.monotone.map_max, EReal.coe_one, Cert.Bridge.coe_sum]
  refine congrArg (fun s : EReal => max s 1) (Finset.sum_congr rfl fun e _ => ?_)
  by_cases hit : hits (ei 1 e) n
  · rw [if_pos hit, if_pos hit, EReal.coe_one]
  · rw [if_neg hit, if_neg hit, EReal.coe_zero]

/-- Projecting by `W2l` before or after the neighbourhood mean gives the same encoder output. -/
theorem zK_eq_zR (ei : Fin 2 → Fin 640000 → BitVec 32) (h : Fin 50000 → Fin 256 → EReal) (hh : ∀ n j, 0 ≤ h n j)
    (W2l W2r : Fin 128 → Fin 256 → EReal) (b2 : Fin 128 → EReal) :
    zK ei h W2l W2r b2 = zR ei h W2l W2r b2 := by
  funext n c
  obtain ⟨d, hd1, hd⟩ := den_real ei n
  have hd0 : d ≠ 0 := by intro h0; rw [h0] at hd1; norm_num at hd1
  have hc : (0 : ℝ) ≤ 1 / d := by positivity
  simp only [zK, zR, dotT, segMean, segSum, hd, Ideal.div_coe hd0]
  have key := MeanProject.seg_project_comm (fun e : Fin 640000 => hits (ei 1 e) n)
    (fun (e : Fin 640000) (k : Fin 256) => h (rowOf (ei 0 e)) k) (fun e k => hh _ _) (W2l c) (1 / d) hc
  beta_reduce at key
  rw [key, add_comm (∑ k : Fin 256, h n k * W2r c k)]

end Cert.Sage

end
-- ==== Proof.lean ====
/-
  The certificate's five claims.

  The word-level kernel, its idealization and the reference each run to the end with their arguments unchanged: the two
  kernels by the pipelines' launch theorems over their three regions, the reference as a line of host operations.  The
  idealization rewrote nothing, so it is the kernel's own text read on the extended reals.  On the extended reals the
  kernel's result is, link by link, the link scorer of the joined end-point rows of the encoder's output with the second
  layer's neighbourhood mean taken AFTER the projection by `W2l` (the regions and host stretches read off the pipelines'
  run), and the reference's is the same with the mean taken BEFORE the projection (its host operations read one by
  one).  The hidden layer is rectified, hence nonnegative, and the divisor of a mean is a positive real, so the two
  orders agree (`Sage.zK_eq_zR`: distributivity on the extended reals for nonnegative summands and for a positive real
  factor); everything else is the same function of the same arguments.
-/
import proofs.«170819_j39548058862204_2_alg».proof.Defs
import proofs.«170819_j39548058862204_2_alg».proof.Proof.Gen.Kernel
import proofs.«170819_j39548058862204_2_alg».proof.Proof.Gen.Kernel.Skeleton
import proofs.«170819_j39548058862204_2_alg».proof.Proof.Gen.Kernel.Launch
import proofs.«170819_j39548058862204_2_alg».proof.Proof.Gen.Kernel.Points
import proofs.«170819_j39548058862204_2_alg».proof.Proof.Gen.Kernel.Frame
import proofs.«170819_j39548058862204_2_alg».proof.Proof.Gen.KernelIdeal
import proofs.«170819_j39548058862204_2_alg».proof.Proof.Gen.KernelIdeal.Skeleton
import proofs.«170819_j39548058862204_2_alg».proof.Proof.Gen.KernelIdeal.Launch
import proofs.«170819_j39548058862204_2_alg».proof.Proof.Gen.KernelIdeal.Points
import proofs.«170819_j39548058862204_2_alg».proof.Proof.Gen.KernelIdeal.Frame
import proofs.«170819_j39548058862204_2_alg».proof.Proof.Gen.ReferenceIdeal
import proofs.«170819_j39548058862204_2_alg».proof.Proof.Gen.Pre_finite_inputs
import proofs.«170819_j39548058862204_2_alg».proof.Proof.Gen.ReferenceIdeal.Run
import proofs.«170819_j39548058862204_2_alg».proof.Proof.Gen.ReferenceIdeal.Read
import proofs.«170819_j39548058862204_2_alg».proof.Proof.KRun
import proofs.«170819_j39548058862204_2_alg».proof.Proof.KValue
import proofs.«170819_j39548058862204_2_alg».proof.Proof.RefRead
import proofs.«170819_j39548058862204_2_alg».proof.Proof.Math
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's run with its result named and its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v59) = Cert.KernelIdeal.Gen.W11 m ρ c (Proc.devRef .tc Cert.KernelIdeal.main_v59)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)) :=
  (θ_run Cert.KernelIdeal.defs _ _).mono (fun r h c =>
    ⟨h c _ (Cert.KernelIdeal.Gen.mem_uc Cert.KernelIdeal.main_v59 (by decide)),
     (h c _ (Cert.KernelIdeal.Gen.mem_uc Cert.KernelIdeal.main_arg0 (by decide))).trans (Cert.KernelIdeal.Gen.W11_main_arg0 m ρ c),
     (h c _ (Cert.KernelIdeal.Gen.mem_uc Cert.KernelIdeal.main_arg1 (by decide))).trans (Cert.KernelIdeal.Gen.W11_main_arg1 m ρ c),
     (h c _ (Cert.KernelIdeal.Gen.mem_uc Cert.KernelIdeal.main_arg2 (by decide))).trans (Cert.KernelIdeal.Gen.W11_main_arg2 m ρ c),
     (h c _ (Cert.KernelIdeal.Gen.mem_uc Cert.KernelIdeal.main_arg3 (by decide))).trans (Cert.KernelIdeal.Gen.W11_main_arg3 m ρ c),
     (h c _ (Cert.KernelIdeal.Gen.mem_uc Cert.KernelIdeal.main_arg4 (by decide))).trans (Cert.KernelIdeal.Gen.W11_main_arg4 m ρ c),
     (h c _ (Cert.KernelIdeal.Gen.mem_uc Cert.KernelIdeal.main_arg5 (by decide))).trans (Cert.KernelIdeal.Gen.W11_main_arg5 m ρ c),
     (h c _ (Cert.KernelIdeal.Gen.mem_uc Cert.KernelIdeal.main_arg6 (by decide))).trans (Cert.KernelIdeal.Gen.W11_main_arg6 m ρ c),
     (h c _ (Cert.KernelIdeal.Gen.mem_uc Cert.KernelIdeal.main_arg7 (by decide))).trans (Cert.KernelIdeal.Gen.W11_main_arg7 m ρ c),
     (h c _ (Cert.KernelIdeal.Gen.mem_uc Cert.KernelIdeal.main_arg8 (by decide))).trans (Cert.KernelIdeal.Gen.W11_main_arg8 m ρ c),
     (h c _ (Cert.KernelIdeal.Gen.mem_uc Cert.KernelIdeal.main_arg9 (by decide))).trans (Cert.KernelIdeal.Gen.W11_main_arg9 m ρ c),
     (h c _ (Cert.KernelIdeal.Gen.mem_uc Cert.KernelIdeal.main_arg10 (by decide))).trans (Cert.KernelIdeal.Gen.W11_main_arg10 m ρ c),
     (h c _ (Cert.KernelIdeal.Gen.mem_uc Cert.KernelIdeal.main_arg11 (by decide))).trans (Cert.KernelIdeal.Gen.W11_main_arg11 m ρ c),
     (h c _ (Cert.KernelIdeal.Gen.mem_uc Cert.KernelIdeal.main_arg12 (by decide))).trans (Cert.KernelIdeal.Gen.W11_main_arg12 m ρ c),
     (h c _ (Cert.KernelIdeal.Gen.mem_uc Cert.KernelIdeal.main_arg13 (by decide))).trans (Cert.KernelIdeal.Gen.W11_main_arg13 m ρ c),
     (h c _ (Cert.KernelIdeal.Gen.mem_uc Cert.KernelIdeal.main_arg14 (by decide))).trans (Cert.KernelIdeal.Gen.W11_main_arg14 m ρ c),
     (h c _ (Cert.KernelIdeal.Gen.mem_uc Cert.KernelIdeal.main_arg15 (by decide))).trans (Cert.KernelIdeal.Gen.W11_main_arg15 m ρ c),
     (h c _ (Cert.KernelIdeal.Gen.mem_uc Cert.KernelIdeal.main_arg16 (by decide))).trans (Cert.KernelIdeal.Gen.W11_main_arg16 m ρ c),
     (h c _ (Cert.KernelIdeal.Gen.mem_uc Cert.KernelIdeal.main_arg17 (by decide))).trans (Cert.KernelIdeal.Gen.W11_main_arg17 m ρ c),
     (h c _ (Cert.KernelIdeal.Gen.mem_uc Cert.KernelIdeal.main_arg18 (by decide))).trans (Cert.KernelIdeal.Gen.W11_main_arg18 m ρ c),
     (h c _ (Cert.KernelIdeal.Gen.mem_uc Cert.KernelIdeal.main_arg19 (by decide))).trans (Cert.KernelIdeal.Gen.W11_main_arg19 m ρ c),
     (h c _ (Cert.KernelIdeal.Gen.mem_uc Cert.KernelIdeal.main_arg20 (by decide))).trans (Cert.KernelIdeal.Gen.W11_main_arg20 m ρ c),
     (h c _ (Cert.KernelIdeal.Gen.mem_uc Cert.KernelIdeal.main_arg21 (by decide))).trans (Cert.KernelIdeal.Gen.W11_main_arg21 m ρ c),
     (h c _ (Cert.KernelIdeal.Gen.mem_uc Cert.KernelIdeal.main_arg22 (by decide))).trans (Cert.KernelIdeal.Gen.W11_main_arg22 m ρ c),
     (h c _ (Cert.KernelIdeal.Gen.mem_uc Cert.KernelIdeal.main_arg23 (by decide))).trans (Cert.KernelIdeal.Gen.W11_main_arg23 m ρ c),
     (h c _ (Cert.KernelIdeal.Gen.mem_uc Cert.KernelIdeal.main_arg24 (by decide))).trans (Cert.KernelIdeal.Gen.W11_main_arg24 m ρ c),
     (h c _ (Cert.KernelIdeal.Gen.mem_uc Cert.KernelIdeal.main_arg25 (by decide))).trans (Cert.KernelIdeal.Gen.W11_main_arg25 m ρ c),
     (h c _ (Cert.KernelIdeal.Gen.mem_uc Cert.KernelIdeal.main_arg26 (by decide))).trans (Cert.KernelIdeal.Gen.W11_main_arg26 m ρ c)⟩)
    (Cert.KernelIdeal.RunAll.run_all (F := Ideal) m ρ)

theorem algebraic : Cert.algebraic_KernelIdeal_ReferenceIdeal := by
  intro m ρ m' ρ' _ hagree
  refine ⟨fun c => Cert.KernelIdeal.Gen.W11 m ρ c (Proc.devRef .tc Cert.KernelIdeal.main_v59), kernel_run m ρ, ?_⟩
  refine (θ_run Cert.ReferenceIdeal.defs _ _).mono (fun r h c => ⟨(h c).1.trans ?_, (h c).2⟩) (Cert.ReferenceIdeal.Value.run (F := Ideal) m' ρ')
  obtain ⟨a0, a1, a2, a3, a4, a5, a6, a7, a8, a9, a10, a11, a12, a13, a14, a15, a16, a17, a18, a19, a20, a21, a22, a23, a24, a25, a26⟩ := hagree c
  rw [Cert.ReferenceIdeal.Read.val_main_v140_eq, a0, a1, a2, a3, a4, a5, a6, a7, a8, a9, a10, a11, a12, a13, a14, a15, a16, a17, a18, a19, a20, a21, a22, a23, a24, a25, a26]
  funext i
  obtain ⟨r, rfl⟩ : ∃ r : Fin 500000, i = ix1 r := ⟨i 0, eq_ix1 i⟩
  rw [Cert.RefRead.ref_value]
  refine Eq.trans ?_ (Cert.KernelIdeal.KValue.out_entry m ρ c r).symm
  unfold Cert.KernelIdeal.KValue.Z Cert.KernelIdeal.KValue.H
  rw [Cert.Sage.zK_eq_zR (Cert.KernelIdeal.HostHead.EI m c) (Cert.Sage.hid _ _ _ _ _ _ _ _ _) (fun n j => Cert.Sage.relu_nonneg _)]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
